-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x2x128x128 : Shape := ⟨4, ![2, 2, 128, 128]⟩
abbrev S2x2x128 : Shape := ⟨3, ![2, 2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_

variable [Facts]

def fn_part1 {F : FTy → Type} [FloatOps F] (main_arg6 : FVec F S2x2x128x128 .f32) (main_arg7 : FVec F S2x2x128 .f32) (main_arg8 : FVec F S2x2x128 .f32) (main_v13 : IVec S_ 1) (main_v16 : IVec S2x2x128 1) : IVec S_ 1 :=
  let main_c_5 : IVec S_ 1 := constantI S_ 1 1#1
  let main_v17 : IVec S_ 1 := (fun x v => Host.reduce IntOp.andi x v reducesTo_S2x2x128_S_d0_1_2 h_S_) main_v16 main_c_5
  let main_v18 : IVec S_ 1 := andi main_v13 main_v17
  let main_v19 : FVec F S2x2x128x128 .f32 := Host.absf main_arg6
  let main_cst_6 : FVec F S_ .f32 := constant S_ .f32 0x7F800000#32
  let main_v20 : FVec F S2x2x128x128 .f32 := broadcastInDim S2x2x128x128 ![] bcast_S_S2x2x128x128 main_cst_6
  let main_v21 : IVec S2x2x128x128 1 := cmpf .olt main_v19 main_v20
  let main_c_7 : IVec S_ 1 := constantI S_ 1 1#1
  let main_v22 : IVec S_ 1 := (fun x v => Host.reduce IntOp.andi x v reducesTo_S2x2x128x128_S_d0_1_2_3 h_S_) main_v21 main_c_7
  let main_v23 : IVec S_ 1 := andi main_v18 main_v22
  let main_v24 : FVec F S2x2x128 .f32 := Host.absf main_arg7
  let main_cst_8 : FVec F S_ .f32 := constant S_ .f32 0x7F800000#32
  let main_v25 : FVec F S2x2x128 .f32 := broadcastInDim S2x2x128 ![] bcast_S_S2x2x128 main_cst_8
  let main_v26 : IVec S2x2x128 1 := cmpf .olt main_v24 main_v25
  let main_c_9 : IVec S_ 1 := constantI S_ 1 1#1
  let main_v27 : IVec S_ 1 := (fun x v => Host.reduce IntOp.andi x v reducesTo_S2x2x128_S_d0_1_2 h_S_) main_v26 main_c_9
  let main_v28 : IVec S_ 1 := andi main_v23 main_v27
  let main_v29 : FVec F S2x2x128 .f32 := Host.absf main_arg8
  let main_cst_10 : FVec F S_ .f32 := constant S_ .f32 0x7F800000#32
  let main_v30 : FVec F S2x2x128 .f32 := broadcastInDim S2x2x128 ![] bcast_S_S2x2x128 main_cst_10
  let main_v31 : IVec S2x2x128 1 := cmpf .olt main_v29 main_v30
  let main_c_11 : IVec S_ 1 := constantI S_ 1 1#1
  let main_v32 : IVec S_ 1 := (fun x v => Host.reduce IntOp.andi x v reducesTo_S2x2x128_S_d0_1_2 h_S_) main_v31 main_c_11
  let main_v33 : IVec S_ 1 := andi main_v28 main_v32
  main_v33

def fn {F : FTy → Type} [FloatOps F] (main_arg0 : FVec F S100000x128 .f32) (main_arg1 : FVec F S100000x128 .f32) (main_arg2 : IVec S2x1600000 32) (main_arg3 : IVec S2x1600000 32) (main_arg4 : FVec F S2x2x128x128 .f32) (main_arg5 : FVec F S2x2x128 .f32) (main_arg6 : FVec F S2x2x128x128 .f32) (main_arg7 : FVec F S2x2x128 .f32) (main_arg8 : FVec F S2x2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S2x2x128x128 .f32 := Host.absf main_arg4
  let main_cst_2 : FVec F S_ .f32 := constant S_ .f32 0x7F800000#32
  let main_v10 : FVec F S2x2x128x128 .f32 := broadcastInDim S2x2x128x128 ![] bcast_S_S2x2x128x128 main_cst_2
  let main_v11 : IVec S2x2x128x128 1 := cmpf .olt main_v9 main_v10
  let main_c_3 : IVec S_ 1 := constantI S_ 1 1#1
  let main_v12 : IVec S_ 1 := (fun x v => Host.reduce IntOp.andi x v reducesTo_S2x2x128x128_S_d0_1_2_3 h_S_) main_v11 main_c_3
  let main_v13 : IVec S_ 1 := andi main_v8 main_v12
  let main_v14 : FVec F S2x2x128 .f32 := Host.absf main_arg5
  let main_cst_4 : FVec F S_ .f32 := constant S_ .f32 0x7F800000#32
  let main_v15 : FVec F S2x2x128 .f32 := broadcastInDim S2x2x128 ![] bcast_S_S2x2x128 main_cst_4
  let main_v16 : IVec S2x2x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S2x2x128x128 : Shape := ⟨4, ![2, 2, 128, 128]⟩
abbrev S2x2x128 : Shape := ⟨3, ![2, 2, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S200000x128 : Shape := ⟨2, ![200000, 128]⟩

abbrev nBuf : Space → Nat
  | .hbm => 186
  | .vmem => 44
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S2x2x128x128, .f32⟩
  | 5 => ⟨S2x2x128, .f32⟩
  | 6 => ⟨S2x2x128x128, .f32⟩
  | 7 => ⟨S2x2x128, .f32⟩
  | 8 => ⟨S2x2x128, .f32⟩
  | 9 => ⟨S1x1600000, .i32⟩
  | 10 => ⟨S1600000, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1x1600000, .i32⟩
  | 21 => ⟨S1600000, .i32⟩
  | 22 => ⟨S_, .f32⟩
  | 23 => ⟨S100000x128, .f32⟩
  | 24 => ⟨S1600000x1, .i32⟩
  | 25 => ⟨S100000x128, .f32⟩
  | 26 => ⟨S_, .f32⟩
  | 27 => ⟨S1600000x1, .f32⟩
  | 28 => ⟨S_, .f32⟩
  | 29 => ⟨S100000x1, .f32⟩
  | 30 => ⟨S1600000x1, .i32⟩
  | 31 => ⟨S100000x1, .f32⟩
  | 32 => ⟨S_, .f32⟩
  | 33 => ⟨S100000x1, .f32⟩
  | 34 => ⟨S100000x1, .f32⟩
  | 35 => ⟨S100000x128, .f32⟩
  | 36 => ⟨S100000x128, .f32⟩
  | 37 => ⟨S1x1600000, .i32⟩
  | 38 => ⟨S1600000, .i32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S1x1600000, .i32⟩
  | 49 => ⟨S1600000, .i32⟩
  | 50 => ⟨S_, .f32⟩
  | 51 => ⟨S100000x128, .f32⟩
  | 52 => ⟨S1600000x1, .i32⟩
  | 53 => ⟨S100000x128, .f32⟩
  | 54 => ⟨S_, .f32⟩
  | 55 => ⟨S1600000x1, .f32⟩
  | 56 => ⟨S_, .f32⟩
  | 57 => ⟨S100000x1, .f32⟩
  | 58 => ⟨S1600000x1, .i32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S1x1x128x128, .f32⟩
  | 66 => ⟨S128x128, .f32⟩
  | 67 => ⟨S128x128, .f32⟩
  | 68 => ⟨S1x1x128x128, .f32⟩
  | 69 => ⟨S128x128, .f32⟩
  | 70 => ⟨S128x128, .f32⟩
  | 71 => ⟨S1x1x128, .f32⟩
  | 72 => ⟨S128, .f32⟩
  | 73 => ⟨S1x128, .f32⟩
  | 74 => ⟨S1x1x128, .f32⟩
  | 75 => ⟨S128, .f32⟩
  | 76 => ⟨S1x128, .f32⟩
  | 77 => ⟨S1x1x128, .f32⟩
  | 78 => ⟨S128, .f32⟩
  | 79 => ⟨S1x128, .f32⟩
  | 80 => ⟨S1x1x128x128, .f32⟩
  | 81 => ⟨S128x128, .f32⟩
  | 82 => ⟨S128x128, .f32⟩
  | 83 => ⟨S1x1x128x128, .f32⟩
  | 84 => ⟨S128x128, .f32⟩
  | 85 => ⟨S128x128, .f32⟩
  | 86 => ⟨S1x1x128, .f32⟩
  | 87 => ⟨S128, .f32⟩
  | 88 => ⟨S1x128, .f32⟩
  | 89 => ⟨S1x1x128, .f32⟩
  | 90 => ⟨S128, .f32⟩
  | 91 => ⟨S1x128, .f32⟩
  | 92 => ⟨S1x1x128, .f32⟩
  | 93 => ⟨S128, .f32⟩
  | 94 => ⟨S1x128, .f32⟩
  | 95 => ⟨S100000x128, .f32⟩
  | 96 => ⟨S100000x128, .f32⟩
  | 97 => ⟨S1x1600000, .i32⟩
  | 98 => ⟨S1600000, .i32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1x1600000, .i32⟩
  | 109 => ⟨S1600000, .i32⟩
  | 110 => ⟨S_, .f32⟩
  | 111 => ⟨S100000x128, .f32⟩
  | 112 => ⟨S1600000x1, .i32⟩
  | 113 => ⟨S100000x128, .f32⟩
  | 114 => ⟨S_, .f32⟩
  | 115 => ⟨S1600000x1, .f32⟩
  | 116 => ⟨S_, .f32⟩
  | 117 => ⟨S100000x1, .f32⟩
  | 118 => ⟨S1600000x1, .i32⟩
  | 119 => ⟨S100000x1, .f32⟩
  | 120 => ⟨S_, .f32⟩
  | 121 => ⟨S100000x1, .f32⟩
  | 122 => ⟨S100000x1, .f32⟩
  | 123 => ⟨S100000x128, .f32⟩
  | 124 => ⟨S100000x128, .f32⟩
  | 125 => ⟨S1x1600000, .i32⟩
  | 126 => ⟨S1600000, .i32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S1x1600000, .i32⟩
  | 9 => ⟨S1600000, .i32⟩
  | 10 => ⟨S_, .f32⟩
  | 11 => ⟨S100000x128, .f32⟩
  | 12 => ⟨S1600000x1, .i32⟩
  | 13 => ⟨S100000x128, .f32⟩
  | 14 => ⟨S_, .f32⟩
  | 15 => ⟨S1600000x1, .f32⟩
  | 16 => ⟨S_, .f32⟩
  | 17 => ⟨S100000x1, .f32⟩
  | 18 => ⟨S1600000x1, .i32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S1x1x128x128, .f32⟩
  | 26 => ⟨S128x128, .f32⟩
  | 27 => ⟨S128x128, .f32⟩
  | 28 => ⟨S1x1x128x128, .f32⟩
  | 29 => ⟨S128x128, .f32⟩
  | 30 => ⟨S128x128, .f32⟩
  | 31 => ⟨S1x1x128, .f32⟩
  | 32 => ⟨S128, .f32⟩
  | 33 => ⟨S1x128, .f32⟩
  | 34 => ⟨S1x1x128, .f32⟩
  | 35 => ⟨S128, .f32⟩
  | 36 => ⟨S1x128, .f32⟩
  | 37 => ⟨S1x1x128, .f32⟩
  | 38 => ⟨S128, .f32⟩
  | 39 => ⟨S1x128, .f32⟩
  | 40 => ⟨S1x1x128x128, .f32⟩
  | 41 => ⟨S128x128, .f32⟩
  | 42 => ⟨S128x128, .f32⟩
  | 43 => ⟨S1x1x128x128, .f32⟩
  | 44 => ⟨S128x128, .f32⟩
  | 45 => ⟨S128x128, .f32⟩
  | 46 => ⟨S1x1x128, .f32⟩
  | 47 => ⟨S128, .f32⟩
  | 48 => ⟨S1x128, .f32⟩
  | 49 => ⟨S1x1x128, .f32⟩
  | 50 => ⟨S128, .f32⟩
  | 51 => ⟨S1x128, .f32⟩
  | 52 => ⟨S1x1x128, .f32⟩
  | 53 => ⟨S128, .f32⟩
  | 54 => ⟨S1x128, .f32⟩
  | 55 => ⟨S100000x128, .f32⟩
  | 56 => ⟨S100000x128, .f32⟩
  | 57 => ⟨S200000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_10 : Ref sig .tc := ⟨.hbm, 99, rfl⟩
abbrev main_v78 : Ref sig .tc := ⟨.hbm, 100, rfl⟩
abbrev main_v79 : Ref sig .tc := ⟨.hbm, 101, rfl⟩
abbrev main_c_11 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_13 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_15 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_16 : Ref sig .tc := ⟨.hbm, 127, rfl⟩
abbrev main_v100 : Ref sig .tc := ⟨.hbm, 128, rfl⟩
abbrev main_v101 : Ref sig .tc := ⟨.hbm, 129, rfl⟩
abbrev main_c_17 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_18 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_19 : Ref sig .tc := ⟨.hbm, 142, rfl⟩
abbrev main_v112 : Ref sig .tc := ⟨.hbm, 143, rfl⟩
abbrev main_cst_20 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_21 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x2x128x128_S1x1x128x128_0_0_0_0 : S2x2x128x128.Slices ![0, 0, 0, 0] S1x1x128x128
  shapeCasts_S1x1x128x128_S128x128 : S1x1x128x128.ShapeCasts S128x128
  transposes_S128x128_S128x128_1_0 : S128x128.Transposes [1, 0] S128x128
  slices_S2x2x128_S1x1x128_0_0_0 : S2x2x128.Slices ![0, 0, 0] S1x1x128
  shapeCasts_S1x1x128_S128 : S1x1x128.ShapeCasts S128
  shapeCasts_S128_S1x128 : S128.ShapeCasts S1x128
  slices_S2x2x128_S1x1x128_0_1_0 : S2x2x128.Slices ![0, 1, 0] S1x1x128
  slices_S2x2x128x128_S1x1x128x128_0_1_0_0 : S2x2x128x128.Slices ![0, 1, 0, 0] S1x1x128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128_S1x1x128_1_1_0 : S2x2x128.Slices ![1, 1, 0] S1x1x128
  slices_S2x2x128x128_S1x1x128x128_1_1_0_0 : S2x2x128x128.Slices ![1, 1, 0, 0] S1x1x128x128
  concatenates_S100000x128_S100000x128_S200000x128_d0 : Shape.Concatenates [S100000x128, S100000x128] S200000x128 0
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v55) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v74) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v75) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v97) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v122) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v128) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v125) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v131) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v134) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v150) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v119) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v137) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v143) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v140) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v146) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v149) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v151) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x2x128x128 : Shape := ⟨4, ![2, 2, 128, 128]⟩
abbrev S2x2x128 : Shape := ⟨3, ![2, 2, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S100000 : Shape := ⟨1, ![100000]⟩
abbrev S200000x128 : Shape := ⟨2, ![200000, 128]⟩

abbrev nBuf : Space → Nat
  | .hbm => 322
  | .vmem => 0
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S2x2x128x128, .f32⟩
  | 5 => ⟨S2x2x128, .f32⟩
  | 6 => ⟨S2x2x128x128, .f32⟩
  | 7 => ⟨S2x2x128, .f32⟩
  | 8 => ⟨S2x2x128, .f32⟩
  | 9 => ⟨S1x1600000, .i32⟩
  | 10 => ⟨S1600000, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1x1600000, .i32⟩
  | 21 => ⟨S1600000, .i32⟩
  | 22 => ⟨S_, .f32⟩
  | 23 => ⟨S100000x128, .f32⟩
  | 24 => ⟨S1600000x1, .i32⟩
  | 25 => ⟨S100000x128, .f32⟩
  | 26 => ⟨S_, .f32⟩
  | 27 => ⟨S1600000x1, .f32⟩
  | 28 => ⟨S_, .f32⟩
  | 29 => ⟨S100000x1, .f32⟩
  | 30 => ⟨S1600000x1, .i32⟩
  | 31 => ⟨S100000x1, .f32⟩
  | 32 => ⟨S_, .f32⟩
  | 33 => ⟨S100000x1, .f32⟩
  | 34 => ⟨S100000x1, .f32⟩
  | 35 => ⟨S100000x128, .f32⟩
  | 36 => ⟨S100000x128, .f32⟩
  | 37 => ⟨S1x1600000, .i32⟩
  | 38 => ⟨S1600000, .i32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S1x1600000, .i32⟩
  | 49 => ⟨S1600000, .i32⟩
  | 50 => ⟨S_, .f32⟩
  | 51 => ⟨S100000x128, .f32⟩
  | 52 => ⟨S1600000x1, .i32⟩
  | 53 => ⟨S100000x128, .f32⟩
  | 54 => ⟨S_, .f32⟩
  | 55 => ⟨S1600000x1, .f32⟩
  | 56 => ⟨S_, .f32⟩
  | 57 => ⟨S100000x1, .f32⟩
  | 58 => ⟨S1600000x1, .i32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S1x1x128x128, .f32⟩
  | 66 => ⟨S128x128, .f32⟩
  | 67 => ⟨S128x128, .f32⟩
  | 68 => ⟨S100000x128, .f32⟩
  | 69 => ⟨S1x1x128, .f32⟩
  | 70 => ⟨S128, .f32⟩
  | 71 => ⟨S1x128, .f32⟩
  | 72 => ⟨S100000x128, .f32⟩
  | 73 => ⟨S100000x128, .f32⟩
  | 74 => ⟨S1x1x128x128, .f32⟩
  | 75 => ⟨S128x128, .f32⟩
  | 76 => ⟨S128x128, .f32⟩
  | 77 => ⟨S100000x128, .f32⟩
  | 78 => ⟨S100000x128, .f32⟩
  | 79 => ⟨S1x1x128x128, .f32⟩
  | 80 => ⟨S128x128, .f32⟩
  | 81 => ⟨S128x128, .f32⟩
  | 82 => ⟨S100000x128, .f32⟩
  | 83 => ⟨S1x1x128, .f32⟩
  | 84 => ⟨S128, .f32⟩
  | 85 => ⟨S1x128, .f32⟩
  | 86 => ⟨S100000x128, .f32⟩
  | 87 => ⟨S100000x128, .f32⟩
  | 88 => ⟨S1x1x128x128, .f32⟩
  | 89 => ⟨S128x128, .f32⟩
  | 90 => ⟨S128x128, .f32⟩
  | 91 => ⟨S100000x128, .f32⟩
  | 92 => ⟨S100000x128, .f32⟩
  | 93 => ⟨S1x1x128, .f32⟩
  | 94 => ⟨S128, .f32⟩
  | 95 => ⟨S1x1x128, .f32⟩
  | 96 => ⟨S128, .f32⟩
  | 97 => ⟨S_, .f32⟩
  | 98 => ⟨S100000, .f32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S100000x128, .f32⟩
  | 106 => ⟨S_, .f32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S_, .f32⟩
  | 115 => ⟨S100000x1, .f32⟩
  | 116 => ⟨S100000x1, .f32⟩
  | 117 => ⟨S100000x1, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S1x1x128, .f32⟩
  | 2 => ⟨S128, .f32⟩
  | 3 => ⟨S1x1x128, .f32⟩
  | 4 => ⟨S128, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S100000x128, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x128, .f32⟩
  | 21 => ⟨S100000x128, .f32⟩
  | 22 => ⟨S_, .f32⟩
  | 23 => ⟨S100000x1, .f32⟩
  | 24 => ⟨S100000x1, .f32⟩
  | 25 => ⟨S100000x1, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S1x1600000, .i32⟩
  | 38 => ⟨S1600000, .i32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S1x1600000, .i32⟩
  | 49 => ⟨S1600000, .i32⟩
  | 50 => ⟨S_, .f32⟩
  | 51 => ⟨S100000x128, .f32⟩
  | 52 => ⟨S1600000x1, .i32⟩
  | 53 => ⟨S100000x128, .f32⟩
  | 54 => ⟨S_, .f32⟩
  | 55 => ⟨S1600000x1, .f32⟩
  | 56 => ⟨S_, .f32⟩
  | 57 => ⟨S100000x1, .f32⟩
  | 58 => ⟨S1600000x1, .i32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S1x1600000, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1x1600000, .i32⟩
  | 77 => ⟨S1600000, .i32⟩
  | 78 => ⟨S_, .f32⟩
  | 79 => ⟨S100000x128, .f32⟩
  | 80 => ⟨S1600000x1, .i32⟩
  | 81 => ⟨S100000x128, .f32⟩
  | 82 => ⟨S_, .f32⟩
  | 83 => ⟨S1600000x1, .f32⟩
  | 84 => ⟨S_, .f32⟩
  | 85 => ⟨S100000x1, .f32⟩
  | 86 => ⟨S1600000x1, .i32⟩
  | 87 => ⟨S100000x1, .f32⟩
  | 88 => ⟨S_, .f32⟩
  | 89 => ⟨S100000x1, .f32⟩
  | 90 => ⟨S100000x1, .f32⟩
  | 91 => ⟨S100000x128, .f32⟩
  | 92 => ⟨S100000x128, .f32⟩
  | 93 => ⟨S1x1x128x128, .f32⟩
  | 94 => ⟨S128x128, .f32⟩
  | 95 => ⟨S128x128, .f32⟩
  | 96 => ⟨S100000x128, .f32⟩
  | 97 => ⟨S1x1x128, .f32⟩
  | 98 => ⟨S128, .f32⟩
  | 99 => ⟨S1x128, .f32⟩
  | 100 => ⟨S100000x128, .f32⟩
  | 101 => ⟨S100000x128, .f32⟩
  | 102 => ⟨S1x1x128x128, .f32⟩
  | 103 => ⟨S128x128, .f32⟩
  | 104 => ⟨S128x128, .f32⟩
  | 105 => ⟨S100000x128, .f32⟩
  | 106 => ⟨S100000x128, .f32⟩
  | 107 => ⟨S1x1x128x128, .f32⟩
  | 108 => ⟨S128x128, .f32⟩
  | 109 => ⟨S128x128, .f32⟩
  | 110 => ⟨S100000x128, .f32⟩
  | 111 => ⟨S1x1x128, .f32⟩
  | 112 => ⟨S128, .f32⟩
  | 113 => ⟨S1x128, .f32⟩
  | 114 => ⟨S100000x128, .f32⟩
  | 115 => ⟨S100000x128, .f32⟩
  | 116 => ⟨S1x1x128x128, .f32⟩
  | 117 => ⟨S128x128, .f32⟩
  | 118 => ⟨S128x128, .f32⟩
  | 119 => ⟨S100000x128, .f32⟩
  | 120 => ⟨S100000x128, .f32⟩
  | 121 => ⟨S1x1x128, .f32⟩
  | 122 => ⟨S128, .f32⟩
  | 123 => ⟨S1x1x128, .f32⟩
  | 124 => ⟨S128, .f32⟩
  | 125 => ⟨S_, .f32⟩
  | 126 => ⟨S100000, .f32⟩
  | 127 => ⟨S100000x1, .f32⟩
  | _ => ⟨S100000x128, .f32⟩

abbrev hbmTy0_2 (i : Nat) : BufTy := match i % 128 with
  | 0 => ⟨S_, .f32⟩
  | 1 => ⟨S100000x1, .f32⟩
  | 2 => ⟨S100000x1, .f32⟩
  | 3 => ⟨S100000x128, .f32⟩
  | 4 => ⟨S100000x128, .f32⟩
  | 5 => ⟨S100000x128, .f32⟩
  | 6 => ⟨S_, .f32⟩
  | 7 => ⟨S100000, .f32⟩
  | 8 => ⟨S100000x1, .f32⟩
  | 9 => ⟨S_, .f32⟩
  | 10 => ⟨S100000x1, .f32⟩
  | 11 => ⟨S100000x1, .f32⟩
  | 12 => ⟨S100000x128, .f32⟩
  | 13 => ⟨S100000x128, .f32⟩
  | 14 => ⟨S_, .f32⟩
  | 15 => ⟨S100000x1, .f32⟩
  | 16 => ⟨S100000x1, .f32⟩
  | 17 => ⟨S100000x1, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S1x1x128, .f32⟩
  | 30 => ⟨S128, .f32⟩
  | 31 => ⟨S1x1x128, .f32⟩
  | 32 => ⟨S128, .f32⟩
  | 33 => ⟨S_, .f32⟩
  | 34 => ⟨S100000, .f32⟩
  | 35 => ⟨S100000x1, .f32⟩
  | 36 => ⟨S_, .f32⟩
  | 37 => ⟨S100000x1, .f32⟩
  | 38 => ⟨S100000x1, .f32⟩
  | 39 => ⟨S100000x128, .f32⟩
  | 40 => ⟨S100000x128, .f32⟩
  | 41 => ⟨S100000x128, .f32⟩
  | 42 => ⟨S_, .f32⟩
  | 43 => ⟨S100000, .f32⟩
  | 44 => ⟨S100000x1, .f32⟩
  | 45 => ⟨S_, .f32⟩
  | 46 => ⟨S100000x1, .f32⟩
  | 47 => ⟨S100000x1, .f32⟩
  | 48 => ⟨S100000x128, .f32⟩
  | 49 => ⟨S100000x128, .f32⟩
  | 50 => ⟨S_, .f32⟩
  | 51 => ⟨S100000x1, .f32⟩
  | 52 => ⟨S100000x1, .f32⟩
  | 53 => ⟨S100000x1, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S200000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_14 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_call0_cst : Ref sig .tc := ⟨.hbm, 126, rfl⟩
abbrev main_call0_v0 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_15 : Ref sig .tc := ⟨.hbm, 133, rfl⟩
abbrev main_v105 : Ref sig .tc := ⟨.hbm, 134, rfl⟩
abbrev main_v106 : Ref sig .tc := ⟨.hbm, 135, rfl⟩
abbrev main_cst_16 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_17 : Ref sig .tc := ⟨.hbm, 142, rfl⟩
abbrev main_v112 : Ref sig .tc := ⟨.hbm, 143, rfl⟩
abbrev main_v113 : Ref sig .tc := ⟨.hbm, 144, rfl⟩
abbrev main_cst_18 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_19 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_call1_cst : Ref sig .tc := ⟨.hbm, 162, rfl⟩
abbrev main_call1_v0 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_c_20 : Ref sig .tc := ⟨.hbm, 167, rfl⟩
abbrev main_v132 : Ref sig .tc := ⟨.hbm, 168, rfl⟩
abbrev main_v133 : Ref sig .tc := ⟨.hbm, 169, rfl⟩
abbrev main_c_21 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_22 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_23 : Ref sig .tc := ⟨.hbm, 182, rfl⟩
abbrev main_v144 : Ref sig .tc := ⟨.hbm, 183, rfl⟩
abbrev main_cst_24 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_25 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_c_26 : Ref sig .tc := ⟨.hbm, 195, rfl⟩
abbrev main_v154 : Ref sig .tc := ⟨.hbm, 196, rfl⟩
abbrev main_v155 : Ref sig .tc := ⟨.hbm, 197, rfl⟩
abbrev main_c_27 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_28 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_29 : Ref sig .tc := ⟨.hbm, 210, rfl⟩
abbrev main_v166 : Ref sig .tc := ⟨.hbm, 211, rfl⟩
abbrev main_cst_30 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_31 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_cst_32 : Ref sig .tc := ⟨.hbm, 253, rfl⟩
abbrev main_v206 : Ref sig .tc := ⟨.hbm, 254, rfl⟩
abbrev main_v207 : Ref sig .tc := ⟨.hbm, 255, rfl⟩
abbrev main_cst_33 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_cst_34 : Ref sig .tc := ⟨.hbm, 262, rfl⟩
abbrev main_v213 : Ref sig .tc := ⟨.hbm, 263, rfl⟩
abbrev main_v214 : Ref sig .tc := ⟨.hbm, 264, rfl⟩
abbrev main_cst_35 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_cst_36 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_call2_cst : Ref sig .tc := ⟨.hbm, 282, rfl⟩
abbrev main_call2_v0 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_cst_37 : Ref sig .tc := ⟨.hbm, 289, rfl⟩
abbrev main_v235 : Ref sig .tc := ⟨.hbm, 290, rfl⟩
abbrev main_v236 : Ref sig .tc := ⟨.hbm, 291, rfl⟩
abbrev main_cst_38 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_cst_39 : Ref sig .tc := ⟨.hbm, 298, rfl⟩
abbrev main_v242 : Ref sig .tc := ⟨.hbm, 299, rfl⟩
abbrev main_v243 : Ref sig .tc := ⟨.hbm, 300, rfl⟩
abbrev main_cst_40 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_cst_41 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_call3_cst : Ref sig .tc := ⟨.hbm, 318, rfl⟩
abbrev main_call3_v0 : Ref sig .tc := ⟨.hbm, 319, rfl⟩
abbrev main_v259 : Ref sig .tc := ⟨.hbm, 320, rfl⟩
abbrev main_v260 : Ref sig .tc := ⟨.hbm, 321, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x2x128x128_S1x1x128x128_0_0_0_0 : S2x2x128x128.Slices ![0, 0, 0, 0] S1x1x128x128
  shapeCasts_S1x1x128x128_S128x128 : S1x1x128x128.ShapeCasts S128x128
  transposes_S128x128_S128x128_1_0 : S128x128.Transposes [1, 0] S128x128
  slices_S2x2x128_S1x1x128_0_0_0 : S2x2x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x2x128x128_S1x1x128x128_0_1_0_0 : S2x2x128x128.Slices ![0, 1, 0, 0] S1x1x128x128
  slices_S2x2x128_S1x1x128_0_1_0 : S2x2x128.Slices ![0, 1, 0] S1x1x128
  reducesTo_S100000x128_S100000_d1 : S100000x128.ReducesTo [1] S100000
  h_S_ : 0 < S_.numel
  bcast_S100000_S100000x1_0 : S100000.BroadcastsInDim S100000x1 (![0] : Fin 1 → Fin S100000x1.rank)
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  concatenates_S100000x128_S100000x128_S200000x128_d0 : Shape.Concatenates [S100000x128, S100000x128] S200000x128 0
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefOps.lean ====
/-
  The reference program as a straight line of host operations.

  The reference's @main is 313 host operations in single-assignment form: every buffer is written by exactly one of
  them, after the buffers it reads. This module lists the operations (`ops`) and, in the same order, the buffer each
  one writes (`wrs`); shows that @main is the sequence of the operations, that every operation touches only the
  TensorCore's buffers and allocates none, and that the two lists correspond (`hw`).
-/
import proofs.«174562_j58179626992425_1_alg».proof.Proof.Gen.ReferenceIdeal
import Idealize.ShloMosaic.Lib.StableHlo.Run

noncomputable section

namespace Cert.ReferenceIdeal.RunB

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main's 313 operations, in order (a called function's operations stand in its call's place). -/
abbrev ops : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_v1 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_v1 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_v1 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_arg0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v9 ((extractStridedSlice S1x1600000 ![1, 0] · slices_S2x1600000_S1x1600000_1_0) : (⟨S2x1600000, .i32⟩ : BufTy).Contents (Elt F) → (⟨S1x1600000, .i32⟩ : BufTy).Contents (Elt F)),
    reshape main_v9 main_v10 rfl shapeCasts_S1x1600000_S1600000,
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v10 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v8 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000x1 ![] bcast_S_S1600000x1 : (⟨S_, .f32⟩ : BufTy).Contents (Elt F) → (⟨S1600000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v10 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x128 ![0, 1] bcast_S100000x1_S100000x128_0_1 : (⟨S100000x1, .f32⟩ : BufTy).Contents (Elt F) → (⟨S100000x128, .f32⟩ : BufTy).Contents (Elt F)),
    binary main_v13 main_v20 main_v21 (Host.divf : (⟨S100000x128, .f32⟩ : BufTy).Contents (Elt F) → (⟨S100000x128, .f32⟩ : BufTy).Contents (Elt F) → (⟨S100000x128, .f32⟩ : BufTy).Contents (Elt F)),
    unary main_arg3 main_v22 ((extractStridedSlice S1x1600000 ![0, 0] · slices_S2x1600000_S1x1600000_0_0) : (⟨S2x1600000, .i32⟩ : BufTy).Contents (Elt F) → (⟨S1x1600000, .i32⟩ : BufTy).Contents (Elt F)),
    reshape main_v22 main_v23 rfl shapeCasts_S1x1600000_S1600000,
    nullary main_c_4 (constantI S_ 32 0#32),
    unary main_c_4 main_v24 (broadcastInDim S1600000 ![] bcast_S_S1600000 : (⟨S_, .i32⟩ : BufTy).Contents (Elt F) → (⟨S1600000, .i32⟩ : BufTy).Contents (Elt F)),
    binary main_v23 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v26 (broadcastInDim S1600000 ![] bcast_S_S1600000 : (⟨S_, .i32⟩ : BufTy).Contents (Elt F) → (⟨S1600000, .i32⟩ : BufTy).Contents (Elt F)),
    binary main_v23 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v23 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_arg1 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v31 ((extractStridedSlice S1x1600000 ![1, 0] · slices_S2x1600000_S1x1600000_1_0) : (⟨S2x1600000, .i32⟩ : BufTy).Contents (Elt F) → (⟨S1x1600000, .i32⟩ : BufTy).Contents (Elt F)),
    reshape main_v31 main_v32 rfl shapeCasts_S1x1600000_S1600000,
    nullary main_cst_6 (constant S_ .f32 0x00000000#32),
    unary main_cst_6 main_v33 (broadcastInDim S100000x128 ![] bcast_S_S100000x128 : (⟨S_, .f32⟩ : BufTy).Contents (Elt F) → (⟨S100000x128, .f32⟩ : BufTy).Contents (Elt F)),
    unary main_v32 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v30 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v36 (broadcastInDim S1600000x1 ![] bcast_S_S1600000x1 : (⟨S_, .f32⟩ : BufTy).Contents (Elt F) → (⟨S1600000x1, .f32⟩ : BufTy).Contents (Elt F)),
    nullary main_cst_8 (constant S_ .f32 0x00000000#32),
    unary main_cst_8 main_v37 (broadcastInDim S100000x1 ![] bcast_S_S100000x1 : (⟨S_, .f32⟩ : BufTy).Contents (Elt F) → (⟨S100000x1, .f32⟩ : BufTy).Contents (Elt F)),
    unary main_v32 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_9 (constant S_ .f32 0x3F800000#32),
    unary main_cst_9 main_v40 (broadcastInDim S100000x1 ![] bcast_S_S100000x1 : (⟨S_, .f32⟩ : BufTy).Contents (Elt F) → (⟨S100000x1, .f32⟩ : BufTy).Contents (Elt F)),
    binary main_v39 main_v40 main_v41 (maximumf : (⟨S100000x1, .f32⟩ : BufTy).Contents (Elt F) → (⟨S100000x1, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v35 main_v42 main_v43 (Host.divf : (⟨S100000x128, .f32⟩ : BufTy).Contents (Elt F) → (⟨S100000x128, .f32⟩ : BufTy).Contents (Elt F) → (⟨S100000x128, .f32⟩ : BufTy).Contents (Elt F)),
    unary main_arg4 main_v44 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v44 main_v45 rfl shapeCasts_S1x1x128x128_S128x128,
    unary main_v45 main_v46 ((transpose S128x128 [1, 0] · transposes_S128x128_S128x128_1_0) : (⟨S128x128, .f32⟩ : BufTy).Contents (Elt F) → (⟨S128x128, .f32⟩ : BufTy).Contents (Elt F)),
    binary main_v21 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v48 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v48 main_v49 rfl shapeCasts_S1x1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (addf : (⟨S100000x128, .f32⟩ : BufTy).Contents (Elt F) → (⟨S100000x128, .f32⟩ : BufTy).Contents (Elt F) → (⟨S100000x128, .f32⟩ : BufTy).Contents (Elt F)),
    unary main_arg6 main_v53 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v53 main_v54 rfl shapeCasts_S1x1x128x128_S128x128,
    unary main_v54 main_v55 ((transpose S128x128 [1, 0] · transposes_S128x128_S128x128_1_0) : (⟨S128x128, .f32⟩ : BufTy).Contents (Elt F) → (⟨S128x128, .f32⟩ : BufTy).Contents (Elt F)),
    binary main_arg1 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v52 main_v56 main_v57 (addf : (⟨S100000x128, .f32⟩ : BufTy).Contents (Elt F) → (⟨S100000x128, .f32⟩ : BufTy).Contents (Elt F) → (⟨S100000x128, .f32⟩ : BufTy).Contents (Elt F)),
    unary main_arg4 main_v58 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v58 main_v59 rfl shapeCasts_S1x1x128x128_S128x128,
    unary main_v59 main_v60 ((transpose S128x128 [1, 0] · transposes_S128x128_S128x128_1_0) : (⟨S128x128, .f32⟩ : BufTy).Contents (Elt F) → (⟨S128x128, .f32⟩ : BufTy).Contents (Elt F)),
    binary main_v43 main_v60 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v62 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v62 main_v63 rfl shapeCasts_S1x1x128_S128,
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v61 main_v65 main_v66 (addf : (⟨S100000x128, .f32⟩ : BufTy).Contents (Elt F) → (⟨S100000x128, .f32⟩ : BufTy).Contents (Elt F) → (⟨S100000x128, .f32⟩ : BufTy).Contents (Elt F)),
    unary main_arg6 main_v67 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v67 main_v68 rfl shapeCasts_S1x1x128x128_S128x128,
    unary main_v68 main_v69 ((transpose S128x128 [1, 0] · transposes_S128x128_S128x128_1_0) : (⟨S128x128, .f32⟩ : BufTy).Contents (Elt F) → (⟨S128x128, .f32⟩ : BufTy).Contents (Elt F)),
    binary main_arg0 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v66 main_v70 main_v71 (addf : (⟨S100000x128, .f32⟩ : BufTy).Contents (Elt F) → (⟨S100000x128, .f32⟩ : BufTy).Contents (Elt F) → (⟨S100000x128, .f32⟩ : BufTy).Contents (Elt F)),
    unary main_arg7 main_v72 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v72 main_v73 rfl shapeCasts_S1x1x128_S128,
    unary main_arg8 main_v74 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v74 main_v75 rfl shapeCasts_S1x1x128_S128,
    nullary main_cst_10 (constant S_ .f32 0x00000000#32),
    binary main_v71 main_cst_10 main_v76 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v76 main_v77 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v78 (broadcastInDim S100000x1 ![] bcast_S_S100000x1 : (⟨S_, .f32⟩ : BufTy).Contents (Elt F) → (⟨S100000x1, .f32⟩ : BufTy).Contents (Elt F)),
    binary main_v77 main_v78 main_v79 (Host.divf : (⟨S100000x1, .f32⟩ : BufTy).Contents (Elt F) → (⟨S100000x1, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v71 main_v80 main_v81 (subf : (⟨S100000x128, .f32⟩ : BufTy).Contents (Elt F) → (⟨S100000x128, .f32⟩ : BufTy).Contents (Elt F) → (⟨S100000x128, .f32⟩ : BufTy).Contents (Elt F)),
    binary main_v81 main_v81 main_v82 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v82 main_cst_12 main_v83 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    nullary main_cst_13 (constant S_ .f32 0x43000000#32),
    unary main_cst_13 main_v85 (broadcastInDim S100000x1 ![] bcast_S_S100000x1 : (⟨S_, .f32⟩ : BufTy).Contents (Elt F) → (⟨S100000x1, .f32⟩ : BufTy).Contents (Elt F)),
    binary main_v84 main_v85 main_v86 (Host.divf : (⟨S100000x1, .f32⟩ : BufTy).Contents (Elt F) → (⟨S100000x1, .f32⟩ : BufTy).Contents (Elt F) → (⟨S100000x1, .f32⟩ : BufTy).Contents (Elt F)),
    unary main_v79 main_v87 (broadcastInDim S100000x128 ![0, 1] bcast_S100000x1_S100000x128_0_1 : (⟨S100000x1, .f32⟩ : BufTy).Contents (Elt F) → (⟨S100000x128, .f32⟩ : BufTy).Contents (Elt F)),
    binary main_v71 main_v87 main_v88 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v89 (broadcastInDim S100000x1 ![] bcast_S_S100000x1 : (⟨S_, .f32⟩ : BufTy).Contents (Elt F) → (⟨S100000x1, .f32⟩ : BufTy).Contents (Elt F)),
    binary main_v86 main_v89 main_v90 (addf : (⟨S100000x1, .f32⟩ : BufTy).Contents (Elt F) → (⟨S100000x1, .f32⟩ : BufTy).Contents (Elt F) → (⟨S100000x1, .f32⟩ : BufTy).Contents (Elt F)),
    unary main_v90 main_v91 (Host.rsqrt : (⟨S100000x1, .f32⟩ : BufTy).Contents (Elt F) → (⟨S100000x1, .f32⟩ : BufTy).Contents (Elt F)),
    unary main_v91 main_v92 (broadcastInDim S100000x128 ![0, 1] bcast_S100000x1_S100000x128_0_1 : (⟨S100000x1, .f32⟩ : BufTy).Contents (Elt F) → (⟨S100000x128, .f32⟩ : BufTy).Contents (Elt F)),
    binary main_v88 main_v92 main_v93 (mulf : (⟨S100000x128, .f32⟩ : BufTy).Contents (Elt F) → (⟨S100000x128, .f32⟩ : BufTy).Contents (Elt F) → (⟨S100000x128, .f32⟩ : BufTy).Contents (Elt F)),
    unary main_v73 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (mulf : (⟨S100000x128, .f32⟩ : BufTy).Contents (Elt F) → (⟨S100000x128, .f32⟩ : BufTy).Contents (Elt F) → (⟨S100000x128, .f32⟩ : BufTy).Contents (Elt F)),
    unary main_v75 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v99) (TRef.of (T := ⟨S100000x128, .f32⟩) main_call0_v0) (TRef.of (T := ⟨S100000x128, .f32⟩) main_v100) maximumf,
    unary main_arg7 main_v101 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v101 main_v102 rfl shapeCasts_S1x1x128_S128,
    unary main_arg8 main_v103 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v103 main_v104 rfl shapeCasts_S1x1x128_S128,
    nullary main_cst_15 (constant S_ .f32 0x00000000#32),
    binary main_v57 main_cst_15 main_v105 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v105 main_v106 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v107 (broadcastInDim S100000x1 ![] bcast_S_S100000x1 : (⟨S_, .f32⟩ : BufTy).Contents (Elt F) → (⟨S100000x1, .f32⟩ : BufTy).Contents (Elt F)),
    binary main_v106 main_v107 main_v108 (Host.divf : (⟨S100000x1, .f32⟩ : BufTy).Contents (Elt F) → (⟨S100000x1, .f32⟩ : BufTy).Contents (Elt F) → (⟨S100000x1, .f32⟩ : BufTy).Contents (Elt F)),
    unary main_v108 main_v109 (broadcastInDim S100000x128 ![0, 1] bcast_S100000x1_S100000x128_0_1 : (⟨S100000x1, .f32⟩ : BufTy).Contents (Elt F) → (⟨S100000x128, .f32⟩ : BufTy).Contents (Elt F)),
    binary main_v57 main_v109 main_v110 (subf : (⟨S100000x128, .f32⟩ : BufTy).Contents (Elt F) → (⟨S100000x128, .f32⟩ : BufTy).Contents (Elt F) → (⟨S100000x128, .f32⟩ : BufTy).Contents (Elt F)),
    binary main_v110 main_v110 main_v111 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v111 main_cst_17 main_v112 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v112 main_v113 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v114 (broadcastInDim S100000x1 ![] bcast_S_S100000x1 : (⟨S_, .f32⟩ : BufTy).Contents (Elt F) → (⟨S100000x1, .f32⟩ : BufTy).Contents (Elt F)),
    binary main_v113 main_v114 main_v115 (Host.divf : (⟨S100000x1, .f32⟩ : BufTy).Contents (Elt F) → (⟨S100000x1, .f32⟩ : BufTy).Contents (Elt F) → (⟨S100000x1, .f32⟩ : BufTy).Contents (Elt F)),
    unary main_v108 main_v116 (broadcastInDim S100000x128 ![0, 1] bcast_S100000x1_S100000x128_0_1 : (⟨S100000x1, .f32⟩ : BufTy).Contents (Elt F) → (⟨S100000x128, .f32⟩ : BufTy).Contents (Elt F)),
    binary main_v57 main_v116 main_v117 (subf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v118 (broadcastInDim S100000x1 ![] bcast_S_S100000x1 : (⟨S_, .f32⟩ : BufTy).Contents (Elt F) → (⟨S100000x1, .f32⟩ : BufTy).Contents (Elt F)),
    binary main_v115 main_v118 main_v119 (addf : (⟨S100000x1, .f32⟩ : BufTy).Contents (Elt F) → (⟨S100000x1, .f32⟩ : BufTy).Contents (Elt F) → (⟨S100000x1, .f32⟩ : BufTy).Contents (Elt F)),
    unary main_v119 main_v120 (Host.rsqrt : (⟨S100000x1, .f32⟩ : BufTy).Contents (Elt F) → (⟨S100000x1, .f32⟩ : BufTy).Contents (Elt F)),
    unary main_v120 main_v121 (broadcastInDim S100000x128 ![0, 1] bcast_S100000x1_S100000x128_0_1 : (⟨S100000x1, .f32⟩ : BufTy).Contents (Elt F) → (⟨S100000x128, .f32⟩ : BufTy).Contents (Elt F)),
    binary main_v117 main_v121 main_v122 (mulf : (⟨S100000x128, .f32⟩ : BufTy).Contents (Elt F) → (⟨S100000x128, .f32⟩ : BufTy).Contents (Elt F) → (⟨S100000x128, .f32⟩ : BufTy).Contents (Elt F)),
    unary main_v102 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v122 main_v124 main_v125 (mulf : (⟨S100000x128, .f32⟩ : BufTy).Contents (Elt F) → (⟨S100000x128, .f32⟩ : BufTy).Contents (Elt F) → (⟨S100000x128, .f32⟩ : BufTy).Contents (Elt F)),
    unary main_v104 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v125 main_v127 main_v128 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v128) (TRef.of (T := ⟨S100000x128, .f32⟩) main_call1_v0) (TRef.of (T := ⟨S100000x128, .f32⟩) main_v129) maximumf,
    unary main_arg2 main_v130 ((extractStridedSlice S1x1600000 ![0, 0] · slices_S2x1600000_S1x1600000_0_0) : (⟨S2x1600000, .i32⟩ : BufTy).Contents (Elt F) → (⟨S1x1600000, .i32⟩ : BufTy).Contents (Elt F)),
    reshape main_v130 main_v131 rfl shapeCasts_S1x1600000_S1600000,
    nullary main_c_20 (constantI S_ 32 0#32),
    unary main_c_20 main_v132 (broadcastInDim S1600000 ![] bcast_S_S1600000 : (⟨S_, .i32⟩ : BufTy).Contents (Elt F) → (⟨S1600000, .i32⟩ : BufTy).Contents (Elt F)),
    binary main_v131 main_v132 main_v133 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v134 (broadcastInDim S1600000 ![] bcast_S_S1600000 : (⟨S_, .i32⟩ : BufTy).Contents (Elt F) → (⟨S1600000, .i32⟩ : BufTy).Contents (Elt F)),
    binary main_v131 main_v134 main_v135 (addi : (⟨S1600000, .i32⟩ : BufTy).Contents (Elt F) → (⟨S1600000, .i32⟩ : BufTy).Contents (Elt F) → (⟨S1600000, .i32⟩ : BufTy).Contents (Elt F)),
    ternary main_v133 main_v135 main_v131 main_v136 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v136 main_v137 (broadcastInDim S1600000x1 ![0] bcast_S1600000_S1600000x1_0 : (⟨S1600000, .i32⟩ : BufTy).Contents (Elt F) → (⟨S1600000x1, .i32⟩ : BufTy).Contents (Elt F)),
    binary main_v100 main_v137 main_v138 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v139 ((extractStridedSlice S1x1600000 ![1, 0] · slices_S2x1600000_S1x1600000_1_0) : (⟨S2x1600000, .i32⟩ : BufTy).Contents (Elt F) → (⟨S1x1600000, .i32⟩ : BufTy).Contents (Elt F)),
    reshape main_v139 main_v140 rfl shapeCasts_S1x1600000_S1600000,
    nullary main_cst_22 (constant S_ .f32 0x00000000#32),
    unary main_cst_22 main_v141 (broadcastInDim S100000x128 ![] bcast_S_S100000x128 : (⟨S_, .f32⟩ : BufTy).Contents (Elt F) → (⟨S100000x128, .f32⟩ : BufTy).Contents (Elt F)),
    unary main_v140 main_v142 (broadcastInDim S1600000x1 ![0] bcast_S1600000_S1600000x1_0 : (⟨S1600000, .i32⟩ : BufTy).Contents (Elt F) → (⟨S1600000x1, .i32⟩ : BufTy).Contents (Elt F)),
    ternary main_v141 main_v142 main_v138 main_v143 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_23 (constant S_ .f32 0x3F800000#32),
    unary main_cst_23 main_v144 (broadcastInDim S1600000x1 ![] bcast_S_S1600000x1 : (⟨S_, .f32⟩ : BufTy).Contents (Elt F) → (⟨S1600000x1, .f32⟩ : BufTy).Contents (Elt F)),
    nullary main_cst_24 (constant S_ .f32 0x00000000#32),
    unary main_cst_24 main_v145 (broadcastInDim S100000x1 ![] bcast_S_S100000x1 : (⟨S_, .f32⟩ : BufTy).Contents (Elt F) → (⟨S100000x1, .f32⟩ : BufTy).Contents (Elt F)),
    unary main_v140 main_v146 (broadcastInDim S1600000x1 ![0] bcast_S1600000_S1600000x1_0 : (⟨S1600000, .i32⟩ : BufTy).Contents (Elt F) → (⟨S1600000x1, .i32⟩ : BufTy).Contents (Elt F)),
    ternary main_v145 main_v146 main_v144 main_v147 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_25 (constant S_ .f32 0x3F800000#32),
    unary main_cst_25 main_v148 (broadcastInDim S100000x1 ![] bcast_S_S100000x1 : (⟨S_, .f32⟩ : BufTy).Contents (Elt F) → (⟨S100000x1, .f32⟩ : BufTy).Contents (Elt F)),
    binary main_v147 main_v148 main_v149 (maximumf : (⟨S100000x1, .f32⟩ : BufTy).Contents (Elt F) → (⟨S100000x1, .f32⟩ : BufTy).Contents (Elt F) → (⟨S100000x1, .f32⟩ : BufTy).Contents (Elt F)),
    unary main_v149 main_v150 (broadcastInDim S100000x128 ![0, 1] bcast_S100000x1_S100000x128_0_1 : (⟨S100000x1, .f32⟩ : BufTy).Contents (Elt F) → (⟨S100000x128, .f32⟩ : BufTy).Contents (Elt F)),
    binary main_v143 main_v150 main_v151 (Host.divf : (⟨S100000x128, .f32⟩ : BufTy).Contents (Elt F) → (⟨S100000x128, .f32⟩ : BufTy).Contents (Elt F) → (⟨S100000x128, .f32⟩ : BufTy).Contents (Elt F)),
    unary main_arg3 main_v152 ((extractStridedSlice S1x1600000 ![0, 0] · slices_S2x1600000_S1x1600000_0_0) : (⟨S2x1600000, .i32⟩ : BufTy).Contents (Elt F) → (⟨S1x1600000, .i32⟩ : BufTy).Contents (Elt F)),
    reshape main_v152 main_v153 rfl shapeCasts_S1x1600000_S1600000,
    nullary main_c_26 (constantI S_ 32 0#32),
    unary main_c_26 main_v154 (broadcastInDim S1600000 ![] bcast_S_S1600000 : (⟨S_, .i32⟩ : BufTy).Contents (Elt F) → (⟨S1600000, .i32⟩ : BufTy).Contents (Elt F)),
    binary main_v153 main_v154 main_v155 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v156 (broadcastInDim S1600000 ![] bcast_S_S1600000 : (⟨S_, .i32⟩ : BufTy).Contents (Elt F) → (⟨S1600000, .i32⟩ : BufTy).Contents (Elt F)),
    binary main_v153 main_v156 main_v157 (addi : (⟨S1600000, .i32⟩ : BufTy).Contents (Elt F) → (⟨S1600000, .i32⟩ : BufTy).Contents (Elt F) → (⟨S1600000, .i32⟩ : BufTy).Contents (Elt F)),
    ternary main_v155 main_v157 main_v153 main_v158 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v158 main_v159 (broadcastInDim S1600000x1 ![0] bcast_S1600000_S1600000x1_0 : (⟨S1600000, .i32⟩ : BufTy).Contents (Elt F) → (⟨S1600000x1, .i32⟩ : BufTy).Contents (Elt F)),
    binary main_v129 main_v159 main_v160 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v161 ((extractStridedSlice S1x1600000 ![1, 0] · slices_S2x1600000_S1x1600000_1_0) : (⟨S2x1600000, .i32⟩ : BufTy).Contents (Elt F) → (⟨S1x1600000, .i32⟩ : BufTy).Contents (Elt F)),
    reshape main_v161 main_v162 rfl shapeCasts_S1x1600000_S1600000,
    nullary main_cst_28 (constant S_ .f32 0x00000000#32),
    unary main_cst_28 main_v163 (broadcastInDim S100000x128 ![] bcast_S_S100000x128 : (⟨S_, .f32⟩ : BufTy).Contents (Elt F) → (⟨S100000x128, .f32⟩ : BufTy).Contents (Elt F)),
    unary main_v162 main_v164 (broadcastInDim S1600000x1 ![0] bcast_S1600000_S1600000x1_0 : (⟨S1600000, .i32⟩ : BufTy).Contents (Elt F) → (⟨S1600000x1, .i32⟩ : BufTy).Contents (Elt F)),
    ternary main_v163 main_v164 main_v160 main_v165 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_29 (constant S_ .f32 0x3F800000#32),
    unary main_cst_29 main_v166 (broadcastInDim S1600000x1 ![] bcast_S_S1600000x1 : (⟨S_, .f32⟩ : BufTy).Contents (Elt F) → (⟨S1600000x1, .f32⟩ : BufTy).Contents (Elt F)),
    nullary main_cst_30 (constant S_ .f32 0x00000000#32),
    unary main_cst_30 main_v167 (broadcastInDim S100000x1 ![] bcast_S_S100000x1 : (⟨S_, .f32⟩ : BufTy).Contents (Elt F) → (⟨S100000x1, .f32⟩ : BufTy).Contents (Elt F)),
    unary main_v162 main_v168 (broadcastInDim S1600000x1 ![0] bcast_S1600000_S1600000x1_0 : (⟨S1600000, .i32⟩ : BufTy).Contents (Elt F) → (⟨S1600000x1, .i32⟩ : BufTy).Contents (Elt F)),
    ternary main_v167 main_v168 main_v166 main_v169 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_31 (constant S_ .f32 0x3F800000#32),
    unary main_cst_31 main_v170 (broadcastInDim S100000x1 ![] bcast_S_S100000x1 : (⟨S_, .f32⟩ : BufTy).Contents (Elt F) → (⟨S100000x1, .f32⟩ : BufTy).Contents (Elt F)),
    binary main_v169 main_v170 main_v171 (maximumf : (⟨S100000x1, .f32⟩ : BufTy).Contents (Elt F) → (⟨S100000x1, .f32⟩ : BufTy).Contents (Elt F) → (⟨S100000x1, .f32⟩ : BufTy).Contents (Elt F)),
    unary main_v171 main_v172 (broadcastInDim S100000x128 ![0, 1] bcast_S100000x1_S100000x128_0_1 : (⟨S100000x1, .f32⟩ : BufTy).Contents (Elt F) → (⟨S100000x128, .f32⟩ : BufTy).Contents (Elt F)),
    binary main_v165 main_v172 main_v173 (Host.divf : (⟨S100000x128, .f32⟩ : BufTy).Contents (Elt F) → (⟨S100000x128, .f32⟩ : BufTy).Contents (Elt F) → (⟨S100000x128, .f32⟩ : BufTy).Contents (Elt F)),
    unary main_arg4 main_v174 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v174 main_v175 rfl shapeCasts_S1x1x128x128_S128x128,
    unary main_v175 main_v176 ((transpose S128x128 [1, 0] · transposes_S128x128_S128x128_1_0) : (⟨S128x128, .f32⟩ : BufTy).Contents (Elt F) → (⟨S128x128, .f32⟩ : BufTy).Contents (Elt F)),
    binary main_v151 main_v176 main_v177 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v178 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v178 main_v179 rfl shapeCasts_S1x1x128_S128,
    unary main_v179 main_v180 (broadcastInDim S1x128 ![1] bcast_S128_S1x128_1 : (⟨S128, .f32⟩ : BufTy).Contents (Elt F) → (⟨S1x128, .f32⟩ : BufTy).Contents (Elt F)),
    unary main_v180 main_v181 (broadcastInDim S100000x128 ![0, 1] bcast_S1x128_S100000x128_0_1 : (⟨S1x128, .f32⟩ : BufTy).Contents (Elt F) → (⟨S100000x128, .f32⟩ : BufTy).Contents (Elt F)),
    binary main_v177 main_v181 main_v182 (addf : (⟨S100000x128, .f32⟩ : BufTy).Contents (Elt F) → (⟨S100000x128, .f32⟩ : BufTy).Contents (Elt F) → (⟨S100000x128, .f32⟩ : BufTy).Contents (Elt F)),
    unary main_arg6 main_v183 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v183 main_v184 rfl shapeCasts_S1x1x128x128_S128x128,
    unary main_v184 main_v185 ((transpose S128x128 [1, 0] · transposes_S128x128_S128x128_1_0) : (⟨S128x128, .f32⟩ : BufTy).Contents (Elt F) → (⟨S128x128, .f32⟩ : BufTy).Contents (Elt F)),
    binary main_v129 main_v185 main_v186 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v182 main_v186 main_v187 (addf : (⟨S100000x128, .f32⟩ : BufTy).Contents (Elt F) → (⟨S100000x128, .f32⟩ : BufTy).Contents (Elt F) → (⟨S100000x128, .f32⟩ : BufTy).Contents (Elt F)),
    unary main_arg4 main_v188 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v188 main_v189 rfl shapeCasts_S1x1x128x128_S128x128,
    unary main_v189 main_v190 ((transpose S128x128 [1, 0] · transposes_S128x128_S128x128_1_0) : (⟨S128x128, .f32⟩ : BufTy).Contents (Elt F) → (⟨S128x128, .f32⟩ : BufTy).Contents (Elt F)),
    binary main_v173 main_v190 main_v191 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v192 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v192 main_v193 rfl shapeCasts_S1x1x128_S128,
    unary main_v193 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v191 main_v195 main_v196 (addf : (⟨S100000x128, .f32⟩ : BufTy).Contents (Elt F) → (⟨S100000x128, .f32⟩ : BufTy).Contents (Elt F) → (⟨S100000x128, .f32⟩ : BufTy).Contents (Elt F)),
    unary main_arg6 main_v197 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v197 main_v198 rfl shapeCasts_S1x1x128x128_S128x128,
    unary main_v198 main_v199 ((transpose S128x128 [1, 0] · transposes_S128x128_S128x128_1_0) : (⟨S128x128, .f32⟩ : BufTy).Contents (Elt F) → (⟨S128x128, .f32⟩ : BufTy).Contents (Elt F)),
    binary main_v100 main_v199 main_v200 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v196 main_v200 main_v201 (addf : (⟨S100000x128, .f32⟩ : BufTy).Contents (Elt F) → (⟨S100000x128, .f32⟩ : BufTy).Contents (Elt F) → (⟨S100000x128, .f32⟩ : BufTy).Contents (Elt F)),
    unary main_arg7 main_v202 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v202 main_v203 rfl shapeCasts_S1x1x128_S128,
    unary main_arg8 main_v204 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v204 main_v205 rfl shapeCasts_S1x1x128_S128,
    nullary main_cst_32 (constant S_ .f32 0x00000000#32),
    binary main_v201 main_cst_32 main_v206 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v206 main_v207 (broadcastInDim S100000x1 ![0] bcast_S100000_S100000x1_0 : (⟨S100000, .f32⟩ : BufTy).Contents (Elt F) → (⟨S100000x1, .f32⟩ : BufTy).Contents (Elt F)),
    nullary main_cst_33 (constant S_ .f32 0x43000000#32),
    unary main_cst_33 main_v208 (broadcastInDim S100000x1 ![] bcast_S_S100000x1 : (⟨S_, .f32⟩ : BufTy).Contents (Elt F) → (⟨S100000x1, .f32⟩ : BufTy).Contents (Elt F)),
    binary main_v207 main_v208 main_v209 (Host.divf : (⟨S100000x1, .f32⟩ : BufTy).Contents (Elt F) → (⟨S100000x1, .f32⟩ : BufTy).Contents (Elt F) → (⟨S100000x1, .f32⟩ : BufTy).Contents (Elt F)),
    unary main_v209 main_v210 (broadcastInDim S100000x128 ![0, 1] bcast_S100000x1_S100000x128_0_1 : (⟨S100000x1, .f32⟩ : BufTy).Contents (Elt F) → (⟨S100000x128, .f32⟩ : BufTy).Contents (Elt F)),
    binary main_v201 main_v210 main_v211 (subf : (⟨S100000x128, .f32⟩ : BufTy).Contents (Elt F) → (⟨S100000x128, .f32⟩ : BufTy).Contents (Elt F) → (⟨S100000x128, .f32⟩ : BufTy).Contents (Elt F)),
    binary main_v211 main_v211 main_v212 (mulf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x00000000#32),
    binary main_v212 main_cst_34 main_v213 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v213 main_v214 (broadcastInDim S100000x1 ![0] bcast_S100000_S100000x1_0 : (⟨S100000, .f32⟩ : BufTy).Contents (Elt F) → (⟨S100000x1, .f32⟩ : BufTy).Contents (Elt F)),
    nullary main_cst_35 (constant S_ .f32 0x43000000#32),
    unary main_cst_35 main_v215 (broadcastInDim S100000x1 ![] bcast_S_S100000x1 : (⟨S_, .f32⟩ : BufTy).Contents (Elt F) → (⟨S100000x1, .f32⟩ : BufTy).Contents (Elt F)),
    binary main_v214 main_v215 main_v216 (Host.divf : (⟨S100000x1, .f32⟩ : BufTy).Contents (Elt F) → (⟨S100000x1, .f32⟩ : BufTy).Contents (Elt F) → (⟨S100000x1, .f32⟩ : BufTy).Contents (Elt F)),
    unary main_v209 main_v217 (broadcastInDim S100000x128 ![0, 1] bcast_S100000x1_S100000x128_0_1 : (⟨S100000x1, .f32⟩ : BufTy).Contents (Elt F) → (⟨S100000x128, .f32⟩ : BufTy).Contents (Elt F)),
    binary main_v201 main_v217 main_v218 (subf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x3727C5AC#32),
    unary main_cst_36 main_v219 (broadcastInDim S100000x1 ![] bcast_S_S100000x1 : (⟨S_, .f32⟩ : BufTy).Contents (Elt F) → (⟨S100000x1, .f32⟩ : BufTy).Contents (Elt F)),
    binary main_v216 main_v219 main_v220 (addf : (⟨S100000x1, .f32⟩ : BufTy).Contents (Elt F) → (⟨S100000x1, .f32⟩ : BufTy).Contents (Elt F) → (⟨S100000x1, .f32⟩ : BufTy).Contents (Elt F)),
    unary main_v220 main_v221 (Host.rsqrt : (⟨S100000x1, .f32⟩ : BufTy).Contents (Elt F) → (⟨S100000x1, .f32⟩ : BufTy).Contents (Elt F)),
    unary main_v221 main_v222 (broadcastInDim S100000x128 ![0, 1] bcast_S100000x1_S100000x128_0_1 : (⟨S100000x1, .f32⟩ : BufTy).Contents (Elt F) → (⟨S100000x128, .f32⟩ : BufTy).Contents (Elt F)),
    binary main_v218 main_v222 main_v223 (mulf : (⟨S100000x128, .f32⟩ : BufTy).Contents (Elt F) → (⟨S100000x128, .f32⟩ : BufTy).Contents (Elt F) → (⟨S100000x128, .f32⟩ : BufTy).Contents (Elt F)),
    unary main_v203 main_v224 (broadcastInDim S1x128 ![1] bcast_S128_S1x128_1 : (⟨S128, .f32⟩ : BufTy).Contents (Elt F) → (⟨S1x128, .f32⟩ : BufTy).Contents (Elt F)),
    unary main_v224 main_v225 (broadcastInDim S100000x128 ![0, 1] bcast_S1x128_S100000x128_0_1 : (⟨S1x128, .f32⟩ : BufTy).Contents (Elt F) → (⟨S100000x128, .f32⟩ : BufTy).Contents (Elt F)),
    binary main_v223 main_v225 main_v226 (mulf : (⟨S100000x128, .f32⟩ : BufTy).Contents (Elt F) → (⟨S100000x128, .f32⟩ : BufTy).Contents (Elt F) → (⟨S100000x128, .f32⟩ : BufTy).Contents (Elt F)),
    unary main_v205 main_v227 (broadcastInDim S1x128 ![1] bcast_S128_S1x128_1 : (⟨S128, .f32⟩ : BufTy).Contents (Elt F) → (⟨S1x128, .f32⟩ : BufTy).Contents (Elt F)),
    unary main_v227 main_v228 (broadcastInDim S100000x128 ![0, 1] bcast_S1x128_S100000x128_0_1 : (⟨S1x128, .f32⟩ : BufTy).Contents (Elt F) → (⟨S100000x128, .f32⟩ : BufTy).Contents (Elt F)),
    binary main_v226 main_v228 main_v229 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v229) (TRef.of (T := ⟨S100000x128, .f32⟩) main_call2_v0) (TRef.of (T := ⟨S100000x128, .f32⟩) main_v230) maximumf,
    unary main_arg7 main_v231 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v231 main_v232 rfl shapeCasts_S1x1x128_S128,
    unary main_arg8 main_v233 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v233 main_v234 rfl shapeCasts_S1x1x128_S128,
    nullary main_cst_37 (constant S_ .f32 0x00000000#32),
    binary main_v187 main_cst_37 main_v235 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v235 main_v236 (broadcastInDim S100000x1 ![0] bcast_S100000_S100000x1_0 : (⟨S100000, .f32⟩ : BufTy).Contents (Elt F) → (⟨S100000x1, .f32⟩ : BufTy).Contents (Elt F)),
    nullary main_cst_38 (constant S_ .f32 0x43000000#32),
    unary main_cst_38 main_v237 (broadcastInDim S100000x1 ![] bcast_S_S100000x1 : (⟨S_, .f32⟩ : BufTy).Contents (Elt F) → (⟨S100000x1, .f32⟩ : BufTy).Contents (Elt F)),
    binary main_v236 main_v237 main_v238 (Host.divf : (⟨S100000x1, .f32⟩ : BufTy).Contents (Elt F) → (⟨S100000x1, .f32⟩ : BufTy).Contents (Elt F) → (⟨S100000x1, .f32⟩ : BufTy).Contents (Elt F)),
    unary main_v238 main_v239 (broadcastInDim S100000x128 ![0, 1] bcast_S100000x1_S100000x128_0_1 : (⟨S100000x1, .f32⟩ : BufTy).Contents (Elt F) → (⟨S100000x128, .f32⟩ : BufTy).Contents (Elt F)),
    binary main_v187 main_v239 main_v240 (subf : (⟨S100000x128, .f32⟩ : BufTy).Contents (Elt F) → (⟨S100000x128, .f32⟩ : BufTy).Contents (Elt F) → (⟨S100000x128, .f32⟩ : BufTy).Contents (Elt F)),
    binary main_v240 main_v240 main_v241 (mulf : (⟨S100000x128, .f32⟩ : BufTy).Contents (Elt F) → (⟨S100000x128, .f32⟩ : BufTy).Contents (Elt F) → (⟨S100000x128, .f32⟩ : BufTy).Contents (Elt F)),
    nullary main_cst_39 (constant S_ .f32 0x00000000#32),
    binary main_v241 main_cst_39 main_v242 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v242 main_v243 (broadcastInDim S100000x1 ![0] bcast_S100000_S100000x1_0 : (⟨S100000, .f32⟩ : BufTy).Contents (Elt F) → (⟨S100000x1, .f32⟩ : BufTy).Contents (Elt F)),
    nullary main_cst_40 (constant S_ .f32 0x43000000#32),
    unary main_cst_40 main_v244 (broadcastInDim S100000x1 ![] bcast_S_S100000x1 : (⟨S_, .f32⟩ : BufTy).Contents (Elt F) → (⟨S100000x1, .f32⟩ : BufTy).Contents (Elt F)),
    binary main_v243 main_v244 main_v245 (Host.divf : (⟨S100000x1, .f32⟩ : BufTy).Contents (Elt F) → (⟨S100000x1, .f32⟩ : BufTy).Contents (Elt F) → (⟨S100000x1, .f32⟩ : BufTy).Contents (Elt F)),
    unary main_v238 main_v246 (broadcastInDim S100000x128 ![0, 1] bcast_S100000x1_S100000x128_0_1 : (⟨S100000x1, .f32⟩ : BufTy).Contents (Elt F) → (⟨S100000x128, .f32⟩ : BufTy).Contents (Elt F)),
    binary main_v187 main_v246 main_v247 (subf : (⟨S100000x128, .f32⟩ : BufTy).Contents (Elt F) → (⟨S100000x128, .f32⟩ : BufTy).Contents (Elt F) → (⟨S100000x128, .f32⟩ : BufTy).Contents (Elt F)),
    nullary main_cst_41 (constant S_ .f32 0x3727C5AC#32),
    unary main_cst_41 main_v248 (broadcastInDim S100000x1 ![] bcast_S_S100000x1 : (⟨S_, .f32⟩ : BufTy).Contents (Elt F) → (⟨S100000x1, .f32⟩ : BufTy).Contents (Elt F)),
    binary main_v245 main_v248 main_v249 (addf : (⟨S100000x1, .f32⟩ : BufTy).Contents (Elt F) → (⟨S100000x1, .f32⟩ : BufTy).Contents (Elt F) → (⟨S100000x1, .f32⟩ : BufTy).Contents (Elt F)),
    unary main_v249 main_v250 (Host.rsqrt : (⟨S100000x1, .f32⟩ : BufTy).Contents (Elt F) → (⟨S100000x1, .f32⟩ : BufTy).Contents (Elt F)),
    unary main_v250 main_v251 (broadcastInDim S100000x128 ![0, 1] bcast_S100000x1_S100000x128_0_1 : (⟨S100000x1, .f32⟩ : BufTy).Contents (Elt F) → (⟨S100000x128, .f32⟩ : BufTy).Contents (Elt F)),
    binary main_v247 main_v251 main_v252 (mulf : (⟨S100000x128, .f32⟩ : BufTy).Contents (Elt F) → (⟨S100000x128, .f32⟩ : BufTy).Contents (Elt F) → (⟨S100000x128, .f32⟩ : BufTy).Contents (Elt F)),
    unary main_v232 main_v253 (broadcastInDim S1x128 ![1] bcast_S128_S1x128_1 : (⟨S128, .f32⟩ : BufTy).Contents (Elt F) → (⟨S1x128, .f32⟩ : BufTy).Contents (Elt F)),
    unary main_v253 main_v254 (broadcastInDim S100000x128 ![0, 1] bcast_S1x128_S100000x128_0_1 : (⟨S1x128, .f32⟩ : BufTy).Contents (Elt F) → (⟨S100000x128, .f32⟩ : BufTy).Contents (Elt F)),
    binary main_v252 main_v254 main_v255 (mulf : (⟨S100000x128, .f32⟩ : BufTy).Contents (Elt F) → (⟨S100000x128, .f32⟩ : BufTy).Contents (Elt F) → (⟨S100000x128, .f32⟩ : BufTy).Contents (Elt F)),
    unary main_v234 main_v256 (broadcastInDim S1x128 ![1] bcast_S128_S1x128_1 : (⟨S128, .f32⟩ : BufTy).Contents (Elt F) → (⟨S1x128, .f32⟩ : BufTy).Contents (Elt F)),
    unary main_v256 main_v257 (broadcastInDim S100000x128 ![0, 1] bcast_S1x128_S100000x128_0_1 : (⟨S1x128, .f32⟩ : BufTy).Contents (Elt F) → (⟨S100000x128, .f32⟩ : BufTy).Contents (Elt F)),
    binary main_v255 main_v257 main_v258 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v258) (TRef.of (T := ⟨S100000x128, .f32⟩) main_call3_v0) (TRef.of (T := ⟨S100000x128, .f32⟩) main_v259) maximumf,
    binary main_v230 main_v259 main_v260 ((fun a b => concatenate S200000x128 0 [⟨S100000x128, a⟩, ⟨S100000x128, b⟩] concatenates_S100000x128_S100000x128_S200000x128_d0) : (⟨S100000x128, .f32⟩ : BufTy).Contents (Elt F) → (⟨S100000x128, .f32⟩ : BufTy).Contents (Elt F) → (⟨S200000x128, .f32⟩ : BufTy).Contents (Elt F)) ]

/-- The buffer each operation writes, in the same order. -/
abbrev wrs : List (Ref sig .tc) :=
  [main_v0, main_v1, main_c, main_v2, main_v3, main_c_0, main_v4, main_v5, main_v6, main_v7, main_v8, main_v9, main_v10, main_cst, main_v11, main_v12, main_v13, main_cst_1, main_v14, main_cst_2, main_v15, main_v16, main_v17, main_cst_3, main_v18, main_v19, main_v20, main_v21, main_v22, main_v23, main_c_4, main_v24, main_v25, main_c_5, main_v26, main_v27, main_v28, main_v29, main_v30, main_v31, main_v32, main_cst_6, main_v33, main_v34, main_v35, main_cst_7, main_v36, main_cst_8, main_v37, main_v38, main_v39, main_cst_9, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_cst_10, main_v76, main_v77, main_cst_11, main_v78, main_v79, main_v80, main_v81, main_v82, main_cst_12, main_v83, main_v84, main_cst_13, main_v85, main_v86, main_v87, main_v88, main_cst_14, main_v89, main_v90, main_v91, main_v92, main_v93, main_v94, main_v95, main_v96, main_v97, main_v98, main_v99, main_call0_cst, main_call0_v0, main_v100, main_v101, main_v102, main_v103, main_v104, main_cst_15, main_v105, main_v106, main_cst_16, main_v107, main_v108, main_v109, main_v110, main_v111, main_cst_17, main_v112, main_v113, main_cst_18, main_v114, main_v115, main_v116, main_v117, main_cst_19, main_v118, main_v119, main_v120, main_v121, main_v122, main_v123, main_v124, main_v125, main_v126, main_v127, main_v128, main_call1_cst, main_call1_v0, main_v129, main_v130, main_v131, main_c_20, main_v132, main_v133, main_c_21, main_v134, main_v135, main_v136, main_v137, main_v138, main_v139, main_v140, main_cst_22, main_v141, main_v142, main_v143, main_cst_23, main_v144, main_cst_24, main_v145, main_v146, main_v147, main_cst_25, main_v148, main_v149, main_v150, main_v151, main_v152, main_v153, main_c_26, main_v154, main_v155, main_c_27, main_v156, main_v157, main_v158, main_v159, main_v160, main_v161, main_v162, main_cst_28, main_v163, main_v164, main_v165, main_cst_29, main_v166, main_cst_30, main_v167, main_v168, main_v169, main_cst_31, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_cst_32, main_v206, main_v207, main_cst_33, main_v208, main_v209, main_v210, main_v211, main_v212, main_cst_34, main_v213, main_v214, main_cst_35, main_v215, main_v216, main_v217, main_v218, main_cst_36, main_v219, main_v220, main_v221, main_v222, main_v223, main_v224, main_v225, main_v226, main_v227, main_v228, main_v229, main_call2_cst, main_call2_v0, main_v230, main_v231, main_v232, main_v233, main_v234, main_cst_37, main_v235, main_v236, main_cst_38, main_v237, main_v238, main_v239, main_v240, main_v241, main_cst_39, main_v242, main_v243, main_cst_40, main_v244, main_v245, main_v246, main_v247, main_cst_41, main_v248, main_v249, main_v250, main_v251, main_v252, main_v253, main_v254, main_v255, main_v256, main_v257, main_v258, main_call3_cst, main_call3_v0, main_v259, main_v260]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

set_option maxRecDepth 8192 in
set_option maxHeartbeats 4000000 in
/-- No operation allocates a buffer: the list of what each allocates is 313 times the empty set. -/
theorem ops_freshMap : (ops : List (HloOp τ sig (Elt F))).map HloOp.fresh = List.replicate 313 ∅ := rfl

theorem ops_fresh : ∀ op ∈ (ops : List (HloOp τ sig (Elt F))), op.fresh = ∅ :=
  fun op h => List.eq_of_mem_replicate (ops_freshMap (F := F) ▸ List.mem_map_of_mem (f := HloOp.fresh) h)

set_option maxRecDepth 8192 in
set_option maxHeartbeats 4000000 in
/-- Operation `k` writes exactly the `k`-th buffer of `wrs`. -/
theorem hw : (ops : List (HloOp τ sig (Elt F))).map HloOp.writes
    = wrs.map fun r => ({Proc.devRef .tc r} : Finset (DevRef τ sig)) := rfl

end Cert.ReferenceIdeal.RunB

end
-- ==== Proof.LibFoldSteps.lean ====
/-
  A straight-line program in single-assignment form, read one operation at a time at the END valuation.

  A line of operations runs from given buffer contents; each operation rewrites the one buffer it writes, as a
  function of the contents of its operand buffers at that moment, and leaves every other buffer alone. Suppose each
  buffer is written by at most one operation of the line, and an operation's operands are written before it (or not
  at all). Then an operand is never written again after the operation has read it, and neither is the operation's
  own result: so at the END of the line the operation's buffer holds its function of the END contents of its
  operands. That is one equation per operation about one and the same valuation — the contents after the whole
  line — and the end contents of every buffer follow in program order, each from the equations of its operands; no
  composed term is ever built.

  The line is a list `ops`; `wrs` names, in order, the buffer each operation writes (one fact, `hw`, ties the two
  lists together), and "not written from the `k`-th operation on" is non-membership in `wrs.drop k`, decided over the
  references. `step_nullary … step_ternary` are the equation for an operation of zero to three operands, given which
  operation stands at position `k`. The variants `step_nullaryT … step_ternaryT` are the same for the operations of a
  called function, which carry each buffer with the type of the value it holds and move contents between that type and
  the buffer's own along the equation of the two: at a literal buffer that equation is `rfl`, the moves are the
  identity, and the variants' conclusion is the operation's own function at the operands' end contents, with no
  move left in it.
-/
import Idealize.ShloMosaic.Lib.StableHlo.Run

noncomputable section

namespace Cert.LibFoldSteps

open Idealize.ShloMosaic Idealize.ShloMosaic.TcCoe Idealize.SL.Sem Idealize.ShloMosaic.StableHlo

section General

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {ops : List (HloOp τ sig Val)} {wrs : List (Ref sig .tc)}

/-- A buffer that none of the operations from the `k`-th on writes keeps its contents through them: `wrs` names, in
    order, the one buffer each operation writes. -/
theorem after_drop_frame (hw : ops.map HloOp.writes = wrs.map fun r => ({Proc.devRef .tc r} : Finset (DevRef τ sig)))
    (k : ℕ) (X : Valuation τ sig Val) (r : Ref sig .tc) (hr : r ∉ wrs.drop k) :
    after (ops.drop k) X (Proc.devRef .tc r) = X (Proc.devRef .tc r) := by
  refine after_of_forall_not_mem _ X fun op hop hmem => hr ?_
  have h1 : op.writes ∈ ((ops.map HloOp.writes).drop k) := by
    rw [← List.map_drop]; exact List.mem_map_of_mem hop
  rw [hw, ← List.map_drop] at h1
  obtain ⟨r', hr', he⟩ := List.mem_map.mp h1
  rw [← he, Finset.mem_singleton] at hmem
  exact (Proc.devRef_injective _ hmem) ▸ hr'

/-- The line split at its `k`-th operation. -/
theorem after_split {k : ℕ} {op : HloOp τ sig Val} (hk : ops[k]? = some op) (V₀ : Valuation τ sig Val) :
    after ops V₀ = after (ops.drop (k + 1)) (op.result (after (ops.take k) V₀)) := by
  obtain ⟨h, rfl⟩ := List.getElem?_eq_some_iff.mp hk
  conv_lhs => rw [← List.take_append_drop k ops, after_append, List.drop_eq_getElem_cons h, after_cons]

/-- An operand of the `k`-th operation, not written from there on, holds at the end what it held before the operation. -/
theorem read_operand (hw : ops.map HloOp.writes = wrs.map fun r => ({Proc.devRef .tc r} : Finset (DevRef τ sig)))
    (k : ℕ) (V₀ : Valuation τ sig Val) (a : Ref sig .tc) (ha : a ∉ wrs.drop k) :
    after (ops.take k) V₀ (Proc.devRef .tc a) = after ops V₀ (Proc.devRef .tc a) := by
  conv_rhs => rw [← List.take_append_drop k ops, after_append]
  exact (after_drop_frame hw k _ a ha).symm

/-- The end contents of the buffer of a `k`-th operation without operands. -/
theorem step_nullary (hw : ops.map HloOp.writes = wrs.map fun r => ({Proc.devRef .tc r} : Finset (DevRef τ sig)))
    (k : ℕ) {y : Ref sig .tc} {v : y.ty.Contents Val} {hy}
    (hk : ops[k]? = some (nullary y v hy)) (hy' : y ∉ wrs.drop (k + 1)) (V₀ : Valuation τ sig Val) :
    after ops V₀ (Proc.devRef .tc y) = v := by
  rw [after_split hk V₀, after_drop_frame hw (k + 1) _ y hy', nullary_result]

/-- The end contents of the buffer of a `k`-th operation of one operand, from the operand's. -/
theorem step_unary (hw : ops.map HloOp.writes = wrs.map fun r => ({Proc.devRef .tc r} : Finset (DevRef τ sig)))
    (k : ℕ) {x y : Ref sig .tc} {f : x.ty.Contents Val → y.ty.Contents Val} {hx hy}
    (hk : ops[k]? = some (unary x y f hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = f vx := by
  rw [after_split hk V₀, after_drop_frame hw (k + 1) _ y hy', unary_result, read_operand hw k V₀ x hx', Hx]

/-- The same for two operands. -/
theorem step_binary (hw : ops.map HloOp.writes = wrs.map fun r => ({Proc.devRef .tc r} : Finset (DevRef τ sig)))
    (k : ℕ) {a b y : Ref sig .tc} {f : a.ty.Contents Val → b.ty.Contents Val → y.ty.Contents Val} {ha hb hy}
    (hk : ops[k]? = some (binary a b y f ha hb hy)) (hy' : y ∉ wrs.drop (k + 1)) (ha' : a ∉ wrs.drop k)
    (hb' : b ∉ wrs.drop k) (V₀ : Valuation τ sig Val) {va : a.ty.Contents Val} {vb : b.ty.Contents Val}
    (Ha : after ops V₀ (Proc.devRef .tc a) = va) (Hb : after ops V₀ (Proc.devRef .tc b) = vb) :
    after ops V₀ (Proc.devRef .tc y) = f va vb := by
  rw [after_split hk V₀, after_drop_frame hw (k + 1) _ y hy', binary_result, read_operand hw k V₀ a ha',
    read_operand hw k V₀ b hb', Ha, Hb]

/-- The same for three operands. -/
theorem step_ternary (hw : ops.map HloOp.writes = wrs.map fun r => ({Proc.devRef .tc r} : Finset (DevRef τ sig)))
    (k : ℕ) {c a b y : Ref sig .tc} {f : c.ty.Contents Val → a.ty.Contents Val → b.ty.Contents Val → y.ty.Contents Val}
    {hc ha hb hy}
    (hk : ops[k]? = some (ternary c a b y f hc ha hb hy)) (hy' : y ∉ wrs.drop (k + 1)) (hc' : c ∉ wrs.drop k)
    (ha' : a ∉ wrs.drop k) (hb' : b ∉ wrs.drop k) (V₀ : Valuation τ sig Val)
    {vc : c.ty.Contents Val} {va : a.ty.Contents Val} {vb : b.ty.Contents Val}
    (Hc : after ops V₀ (Proc.devRef .tc c) = vc) (Ha : after ops V₀ (Proc.devRef .tc a) = va)
    (Hb : after ops V₀ (Proc.devRef .tc b) = vb) :
    after ops V₀ (Proc.devRef .tc y) = f vc va vb := by
  rw [after_split hk V₀, after_drop_frame hw (k + 1) _ y hy', ternary_result, read_operand hw k V₀ c hc',
    read_operand hw k V₀ a ha', read_operand hw k V₀ b hb', Hc, Ha, Hb]

/-! A called function's operations carry each buffer with the type of the value it holds, and move contents between
that type and the buffer's own along the equation of the two; at a literal buffer the equation is `rfl` and the
moves are the identity. The four steps again for such operations, stated without the moves, so that what a step
concludes is the operation's own function at the operands' end contents. -/

/-- The end contents of the buffer of a `k`-th operation without operands, in a called function. -/
theorem step_nullaryT (hw : ops.map HloOp.writes = wrs.map fun r => ({Proc.devRef .tc r} : Finset (DevRef τ sig)))
    (k : ℕ) {ry : Ref sig .tc} {hdy : ry.space ≠ .host} {huy : ry.isScoped = false} {v : ry.ty.Contents Val}
    (hk : ops[k]? = some (TRef.nullary (TRef.of (T := ry.ty) ry rfl hdy huy) v))
    (hy' : ry ∉ wrs.drop (k + 1)) (V₀ : Valuation τ sig Val) :
    after ops V₀ (Proc.devRef .tc ry) = v :=
  step_nullary hw k hk hy' V₀

/-- One operand. -/
theorem step_unaryT (hw : ops.map HloOp.writes = wrs.map fun r => ({Proc.devRef .tc r} : Finset (DevRef τ sig)))
    (k : ℕ) {rx ry : Ref sig .tc} {hdx : rx.space ≠ .host} {hux : rx.isScoped = false}
    {hdy : ry.space ≠ .host} {huy : ry.isScoped = false} {f : rx.ty.Contents Val → ry.ty.Contents Val}
    (hk : ops[k]? = some (TRef.unary (TRef.of (T := rx.ty) rx rfl hdx hux) (TRef.of (T := ry.ty) ry rfl hdy huy) f))
    (hy' : ry ∉ wrs.drop (k + 1)) (hx' : rx ∉ wrs.drop k) (V₀ : Valuation τ sig Val)
    {vx : rx.ty.Contents Val} (Hx : after ops V₀ (Proc.devRef .tc rx) = vx) :
    after ops V₀ (Proc.devRef .tc ry) = f vx :=
  step_unary hw k hk hy' hx' V₀ Hx

/-- Two operands. -/
theorem step_binaryT (hw : ops.map HloOp.writes = wrs.map fun r => ({Proc.devRef .tc r} : Finset (DevRef τ sig)))
    (k : ℕ) {ra rb ry : Ref sig .tc} {hda : ra.space ≠ .host} {hua : ra.isScoped = false}
    {hdb : rb.space ≠ .host} {hub : rb.isScoped = false} {hdy : ry.space ≠ .host} {huy : ry.isScoped = false}
    {f : ra.ty.Contents Val → rb.ty.Contents Val → ry.ty.Contents Val}
    (hk : ops[k]? = some (TRef.binary (TRef.of (T := ra.ty) ra rfl hda hua) (TRef.of (T := rb.ty) rb rfl hdb hub)
      (TRef.of (T := ry.ty) ry rfl hdy huy) f))
    (hy' : ry ∉ wrs.drop (k + 1)) (ha' : ra ∉ wrs.drop k) (hb' : rb ∉ wrs.drop k) (V₀ : Valuation τ sig Val)
    {va : ra.ty.Contents Val} {vb : rb.ty.Contents Val}
    (Ha : after ops V₀ (Proc.devRef .tc ra) = va) (Hb : after ops V₀ (Proc.devRef .tc rb) = vb) :
    after ops V₀ (Proc.devRef .tc ry) = f va vb :=
  step_binary hw k hk hy' ha' hb' V₀ Ha Hb

/-- Three operands. -/
theorem step_ternaryT (hw : ops.map HloOp.writes = wrs.map fun r => ({Proc.devRef .tc r} : Finset (DevRef τ sig)))
    (k : ℕ) {rc ra rb ry : Ref sig .tc} {hdc : rc.space ≠ .host} {huc : rc.isScoped = false}
    {hda : ra.space ≠ .host} {hua : ra.isScoped = false}
    {hdb : rb.space ≠ .host} {hub : rb.isScoped = false} {hdy : ry.space ≠ .host} {huy : ry.isScoped = false}
    {f : rc.ty.Contents Val → ra.ty.Contents Val → rb.ty.Contents Val → ry.ty.Contents Val}
    (hk : ops[k]? = some (TRef.ternary (TRef.of (T := rc.ty) rc rfl hdc huc) (TRef.of (T := ra.ty) ra rfl hda hua)
      (TRef.of (T := rb.ty) rb rfl hdb hub) (TRef.of (T := ry.ty) ry rfl hdy huy) f))
    (hy' : ry ∉ wrs.drop (k + 1)) (hc' : rc ∉ wrs.drop k) (ha' : ra ∉ wrs.drop k) (hb' : rb ∉ wrs.drop k)
    (V₀ : Valuation τ sig Val)
    {vc : rc.ty.Contents Val} {va : ra.ty.Contents Val} {vb : rb.ty.Contents Val}
    (Hc : after ops V₀ (Proc.devRef .tc rc) = vc) (Ha : after ops V₀ (Proc.devRef .tc ra) = va)
    (Hb : after ops V₀ (Proc.devRef .tc rb) = vb) :
    after ops V₀ (Proc.devRef .tc ry) = f vc va vb :=
  step_ternary hw k hk hy' hc' ha' hb' V₀ Hc Ha Hb

end General

end Cert.LibFoldSteps

end
-- ==== Proof.RefSteps.lean ====
/-
  The reference program read one operation at a time.

  Because every buffer of the reference's line of operations is written once, and before it is read, the contents a
  buffer holds after the WHOLE line is its operation's function of what the operands hold after the whole line. So the
  end contents follow in program order, one equation per operation: each buffer ends holding the program's stage
  `val_<buffer>` of the argument buffers' contents — the stage's definition is that same function of its operands'
  stages. Nothing is composed: each equation cites its operands' equations by name. The argument buffers, which no
  operation writes, end as they started. The last equation is the result's, and with it the run: every weakly fair
  execution of @main terminates with the result buffer at the result stage of the launch arguments.
-/
import proofs.«174562_j58179626992425_1_alg».proof.Proof.Gen.ReferenceIdeal
import proofs.«174562_j58179626992425_1_alg».proof.Proof.RefReadP
import proofs.«174562_j58179626992425_1_alg».proof.Proof.RefOps
import proofs.«174562_j58179626992425_1_alg».proof.Proof.LibFoldSteps
import Idealize.ShloMosaic.Lib.StableHlo.Run

noncomputable section

namespace Cert.ReferenceIdeal.RunB

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The end contents of the buffer a `k`-th operation re-lays its operand into: the operand's, at the new shape. -/
theorem step_reshape {os : List (HloOp τ sig (Elt Ideal))} {ws : List (Ref sig .tc)}
    (h : os.map HloOp.writes = ws.map fun r => ({Proc.devRef .tc r} : Finset (DevRef τ sig)))
    (k : ℕ) {x y : Ref sig .tc} {he : x.ty.elt = y.ty.elt} {hn : x.ty.shape.ShapeCasts y.ty.shape} {hx hy}
    (hk : os[k]? = some (reshape x y he hn hx hy)) (hy' : y ∉ ws.drop (k + 1)) (hx' : x ∉ ws.drop k)
    (V₀ : Valuation τ sig (Elt Ideal)) {vx : x.ty.Contents (Elt Ideal)} (Hx : after os V₀ (Proc.devRef .tc x) = vx) :
    after os V₀ (Proc.devRef .tc y) = fun i => he ▸ shapeCast y.ty.shape vx hn i := by
  rw [Cert.LibFoldSteps.after_split hk V₀, Cert.LibFoldSteps.after_drop_frame h (k + 1) _ y hy', reshape_result,
    Cert.LibFoldSteps.read_operand h k V₀ x hx', Hx]

local notation "OPS" => (ops (F := Ideal))
local notation "HW" => (hw (F := Ideal))

/-! ## The argument buffers are never written -/
theorem E_main_arg0 (X : Valuation τ sig (Elt Ideal)) : after OPS X (Proc.devRef .tc main_arg0) = X (Proc.devRef .tc main_arg0) :=
  Cert.LibFoldSteps.after_drop_frame HW 0 X main_arg0 (by decide)
theorem E_main_arg1 (X : Valuation τ sig (Elt Ideal)) : after OPS X (Proc.devRef .tc main_arg1) = X (Proc.devRef .tc main_arg1) :=
  Cert.LibFoldSteps.after_drop_frame HW 0 X main_arg1 (by decide)
theorem E_main_arg2 (X : Valuation τ sig (Elt Ideal)) : after OPS X (Proc.devRef .tc main_arg2) = X (Proc.devRef .tc main_arg2) :=
  Cert.LibFoldSteps.after_drop_frame HW 0 X main_arg2 (by decide)
theorem E_main_arg3 (X : Valuation τ sig (Elt Ideal)) : after OPS X (Proc.devRef .tc main_arg3) = X (Proc.devRef .tc main_arg3) :=
  Cert.LibFoldSteps.after_drop_frame HW 0 X main_arg3 (by decide)
theorem E_main_arg4 (X : Valuation τ sig (Elt Ideal)) : after OPS X (Proc.devRef .tc main_arg4) = X (Proc.devRef .tc main_arg4) :=
  Cert.LibFoldSteps.after_drop_frame HW 0 X main_arg4 (by decide)
theorem E_main_arg5 (X : Valuation τ sig (Elt Ideal)) : after OPS X (Proc.devRef .tc main_arg5) = X (Proc.devRef .tc main_arg5) :=
  Cert.LibFoldSteps.after_drop_frame HW 0 X main_arg5 (by decide)
theorem E_main_arg6 (X : Valuation τ sig (Elt Ideal)) : after OPS X (Proc.devRef .tc main_arg6) = X (Proc.devRef .tc main_arg6) :=
  Cert.LibFoldSteps.after_drop_frame HW 0 X main_arg6 (by decide)
theorem E_main_arg7 (X : Valuation τ sig (Elt Ideal)) : after OPS X (Proc.devRef .tc main_arg7) = X (Proc.devRef .tc main_arg7) :=
  Cert.LibFoldSteps.after_drop_frame HW 0 X main_arg7 (by decide)
theorem E_main_arg8 (X : Valuation τ sig (Elt Ideal)) : after OPS X (Proc.devRef .tc main_arg8) = X (Proc.devRef .tc main_arg8) :=
  Cert.LibFoldSteps.after_drop_frame HW 0 X main_arg8 (by decide)

/-! ## One equation per operation, in program order -/
theorem E_main_v0 (X : Valuation τ sig (Elt Ideal)) : after OPS X (Proc.devRef .tc main_v0) = val_main_v0 (F := Ideal) (X (Proc.devRef .tc main_arg2)) :=
  Cert.LibFoldSteps.step_unary HW 0 (x := main_arg2) (y := main_v0) rfl (by decide) (by decide) X (E_main_arg2 X)
theorem E_main_v1 (X : Valuation τ sig (Elt Ideal)) : after OPS X (Proc.devRef .tc main_v1) = val_main_v1 (F := Ideal) (X (Proc.devRef .tc main_arg2)) :=
  step_reshape HW 1 (x := main_v0) (y := main_v1) rfl (by decide) (by decide) X (E_main_v0 X)
theorem E_main_c (X : Valuation τ sig (Elt Ideal)) : after OPS X (Proc.devRef .tc main_c) = val_main_c (F := Ideal) :=
  Cert.LibFoldSteps.step_nullary HW 2 (y := main_c) rfl (by decide) X
theorem E_main_v2 (X : Valuation τ sig (Elt Ideal)) : after OPS X (Proc.devRef .tc main_v2) = val_main_v2 (F := Ideal) :=
  Cert.LibFoldSteps.step_unary HW 3 (x := main_c) (y := main_v2) rfl (by decide) (by decide) X (E_main_c X)
theorem E_main_v3 (X : Valuation τ sig (Elt Ideal)) : after OPS X (Proc.devRef .tc main_v3) = val_main_v3 (F := Ideal) (X (Proc.devRef .tc main_arg2)) :=
  Cert.LibFoldSteps.step_binary HW 4 (a := main_v1) (b := main_v2) (y := main_v3) rfl (by decide) (by decide) (by decide) X (E_main_v1 X) (E_main_v2 X)
theorem E_main_c_0 (X : Valuation τ sig (Elt Ideal)) : after OPS X (Proc.devRef .tc main_c_0) = val_main_c_0 (F := Ideal) :=
  Cert.LibFoldSteps.step_nullary HW 5 (y := main_c_0) rfl (by decide) X
theorem E_main_v4 (X : Valuation τ sig (Elt Ideal)) : after OPS X (Proc.devRef .tc main_v4) = val_main_v4 (F := Ideal) :=
  Cert.LibFoldSteps.step_unary HW 6 (x := main_c_0) (y := main_v4) rfl (by decide) (by decide) X (E_main_c_0 X)
theorem E_main_v5 (X : Valuation τ sig (Elt Ideal)) : after OPS X (Proc.devRef .tc main_v5) = val_main_v5 (F := Ideal) (X (Proc.devRef .tc main_arg2)) :=
  Cert.LibFoldSteps.step_binary HW 7 (a := main_v1) (b := main_v4) (y := main_v5) rfl (by decide) (by decide) (by decide) X (E_main_v1 X) (E_main_v4 X)
theorem E_main_v6 (X : Valuation τ sig (Elt Ideal)) : after OPS X (Proc.devRef .tc main_v6) = val_main_v6 (F := Ideal) (X (Proc.devRef .tc main_arg2)) :=
  Cert.LibFoldSteps.step_ternary HW 8 (c := main_v3) (a := main_v5) (b := main_v1) (y := main_v6) rfl (by decide) (by decide) (by decide) (by decide) X (E_main_v3 X) (E_main_v5 X) (E_main_v1 X)
theorem E_main_v7 (X : Valuation τ sig (Elt Ideal)) : after OPS X (Proc.devRef .tc main_v7) = val_main_v7 (F := Ideal) (X (Proc.devRef .tc main_arg2)) :=
  Cert.LibFoldSteps.step_unary HW 9 (x := main_v6) (y := main_v7) rfl (by decide) (by decide) X (E_main_v6 X)
theorem E_main_v8 (X : Valuation τ sig (Elt Ideal)) : after OPS X (Proc.devRef .tc main_v8) = val_main_v8 (F := Ideal) (X (Proc.devRef .tc main_arg0)) (X (Proc.devRef .tc main_arg2)) :=
  Cert.LibFoldSteps.step_binary HW 10 (a := main_arg0) (b := main_v7) (y := main_v8) rfl (by decide) (by decide) (by decide) X (E_main_arg0 X) (E_main_v7 X)
theorem E_main_v9 (X : Valuation τ sig (Elt Ideal)) : after OPS X (Proc.devRef .tc main_v9) = val_main_v9 (F := Ideal) (X (Proc.devRef .tc main_arg2)) :=
  Cert.LibFoldSteps.step_unary HW 11 (x := main_arg2) (y := main_v9) rfl (by decide) (by decide) X (E_main_arg2 X)
theorem E_main_v10 (X : Valuation τ sig (Elt Ideal)) : after OPS X (Proc.devRef .tc main_v10) = val_main_v10 (F := Ideal) (X (Proc.devRef .tc main_arg2)) :=
  step_reshape HW 12 (x := main_v9) (y := main_v10) rfl (by decide) (by decide) X (E_main_v9 X)
theorem E_main_cst (X : Valuation τ sig (Elt Ideal)) : after OPS X (Proc.devRef .tc main_cst) = val_main_cst (F := Ideal) :=
  Cert.LibFoldSteps.step_nullary HW 13 (y := main_cst) rfl (by decide) X
theorem E_main_v11 (X : Valuation τ sig (Elt Ideal)) : after OPS X (Proc.devRef .tc main_v11) = val_main_v11 (F := Ideal) :=
  Cert.LibFoldSteps.step_unary HW 14 (x := main_cst) (y := main_v11) rfl (by decide) (by decide) X (E_main_cst X)
theorem E_main_v12 (X : Valuation τ sig (Elt Ideal)) : after OPS X (Proc.devRef .tc main_v12) = val_main_v12 (F := Ideal) (X (Proc.devRef .tc main_arg2)) :=
  Cert.LibFoldSteps.step_unary HW 15 (x := main_v10) (y := main_v12) rfl (by decide) (by decide) X (E_main_v10 X)
theorem E_main_v13 (X : Valuation τ sig (Elt Ideal)) : after OPS X (Proc.devRef .tc main_v13) = val_main_v13 (F := Ideal) (X (Proc.devRef .tc main_arg0)) (X (Proc.devRef .tc main_arg2)) :=
  Cert.LibFoldSteps.step_ternary HW 16 (c := main_v11) (a := main_v12) (b := main_v8) (y := main_v13) rfl (by decide) (by decide) (by decide) (by decide) X (E_main_v11 X) (E_main_v12 X) (E_main_v8 X)
theorem E_main_cst_1 (X : Valuation τ sig (Elt Ideal)) : after OPS X (Proc.devRef .tc main_cst_1) = val_main_cst_1 (F := Ideal) :=
  Cert.LibFoldSteps.step_nullary HW 17 (y := main_cst_1) rfl (by decide) X
theorem E_main_v14 (X : Valuation τ sig (Elt Ideal)) : after OPS X (Proc.devRef .tc main_v14) = val_main_v14 (F := Ideal) :=
  Cert.LibFoldSteps.step_unary HW 18 (x := main_cst_1) (y := main_v14) rfl (by decide) (by decide) X (E_main_cst_1 X)
theorem E_main_cst_2 (X : Valuation τ sig (Elt Ideal)) : after OPS X (Proc.devRef .tc main_cst_2) = val_main_cst_2 (F := Ideal) :=
  Cert.LibFoldSteps.step_nullary HW 19 (y := main_cst_2) rfl (by decide) X
theorem E_main_v15 (X : Valuation τ sig (Elt Ideal)) : after OPS X (Proc.devRef .tc main_v15) = val_main_v15 (F := Ideal) :=
  Cert.LibFoldSteps.step_unary HW 20 (x := main_cst_2) (y := main_v15) rfl (by decide) (by decide) X (E_main_cst_2 X)
theorem E_main_v16 (X : Valuation τ sig (Elt Ideal)) : after OPS X (Proc.devRef .tc main_v16) = val_main_v16 (F := Ideal) (X (Proc.devRef .tc main_arg2)) :=
  Cert.LibFoldSteps.step_unary HW 21 (x := main_v10) (y := main_v16) rfl (by decide) (by decide) X (E_main_v10 X)
theorem E_main_v17 (X : Valuation τ sig (Elt Ideal)) : after OPS X (Proc.devRef .tc main_v17) = val_main_v17 (F := Ideal) (X (Proc.devRef .tc main_arg2)) :=
  Cert.LibFoldSteps.step_ternary HW 22 (c := main_v15) (a := main_v16) (b := main_v14) (y := main_v17) rfl (by decide) (by decide) (by decide) (by decide) X (E_main_v15 X) (E_main_v16 X) (E_main_v14 X)
theorem E_main_cst_3 (X : Valuation τ sig (Elt Ideal)) : after OPS X (Proc.devRef .tc main_cst_3) = val_main_cst_3 (F := Ideal) :=
  Cert.LibFoldSteps.step_nullary HW 23 (y := main_cst_3) rfl (by decide) X
theorem E_main_v18 (X : Valuation τ sig (Elt Ideal)) : after OPS X (Proc.devRef .tc main_v18) = val_main_v18 (F := Ideal) :=
  Cert.LibFoldSteps.step_unary HW 24 (x := main_cst_3) (y := main_v18) rfl (by decide) (by decide) X (E_main_cst_3 X)
theorem E_main_v19 (X : Valuation τ sig (Elt Ideal)) : after OPS X (Proc.devRef .tc main_v19) = val_main_v19 (F := Ideal) (X (Proc.devRef .tc main_arg2)) :=
  Cert.LibFoldSteps.step_binary HW 25 (a := main_v17) (b := main_v18) (y := main_v19) rfl (by decide) (by decide) (by decide) X (E_main_v17 X) (E_main_v18 X)
theorem E_main_v20 (X : Valuation τ sig (Elt Ideal)) : after OPS X (Proc.devRef .tc main_v20) = val_main_v20 (F := Ideal) (X (Proc.devRef .tc main_arg2)) :=
  Cert.LibFoldSteps.step_unary HW 26 (x := main_v19) (y := main_v20) rfl (by decide) (by decide) X (E_main_v19 X)
theorem E_main_v21 (X : Valuation τ sig (Elt Ideal)) : after OPS X (Proc.devRef .tc main_v21) = val_main_v21 (F := Ideal) (X (Proc.devRef .tc main_arg0)) (X (Proc.devRef .tc main_arg2)) :=
  Cert.LibFoldSteps.step_binary HW 27 (a := main_v13) (b := main_v20) (y := main_v21) rfl (by decide) (by decide) (by decide) X (E_main_v13 X) (E_main_v20 X)
theorem E_main_v22 (X : Valuation τ sig (Elt Ideal)) : after OPS X (Proc.devRef .tc main_v22) = val_main_v22 (F := Ideal) (X (Proc.devRef .tc main_arg3)) :=
  Cert.LibFoldSteps.step_unary HW 28 (x := main_arg3) (y := main_v22) rfl (by decide) (by decide) X (E_main_arg3 X)
theorem E_main_v23 (X : Valuation τ sig (Elt Ideal)) : after OPS X (Proc.devRef .tc main_v23) = val_main_v23 (F := Ideal) (X (Proc.devRef .tc main_arg3)) :=
  step_reshape HW 29 (x := main_v22) (y := main_v23) rfl (by decide) (by decide) X (E_main_v22 X)
theorem E_main_c_4 (X : Valuation τ sig (Elt Ideal)) : after OPS X (Proc.devRef .tc main_c_4) = val_main_c_4 (F := Ideal) :=
  Cert.LibFoldSteps.step_nullary HW 30 (y := main_c_4) rfl (by decide) X
theorem E_main_v24 (X : Valuation τ sig (Elt Ideal)) : after OPS X (Proc.devRef .tc main_v24) = val_main_v24 (F := Ideal) :=
  Cert.LibFoldSteps.step_unary HW 31 (x := main_c_4) (y := main_v24) rfl (by decide) (by decide) X (E_main_c_4 X)
theorem E_main_v25 (X : Valuation τ sig (Elt Ideal)) : after OPS X (Proc.devRef .tc main_v25) = val_main_v25 (F := Ideal) (X (Proc.devRef .tc main_arg3)) :=
  Cert.LibFoldSteps.step_binary HW 32 (a := main_v23) (b := main_v24) (y := main_v25) rfl (by decide) (by decide) (by decide) X (E_main_v23 X) (E_main_v24 X)
theorem E_main_c_5 (X : Valuation τ sig (Elt Ideal)) : after OPS X (Proc.devRef .tc main_c_5) = val_main_c_5 (F := Ideal) :=
  Cert.LibFoldSteps.step_nullary HW 33 (y := main_c_5) rfl (by decide) X
theorem E_main_v26 (X : Valuation τ sig (Elt Ideal)) : after OPS X (Proc.devRef .tc main_v26) = val_main_v26 (F := Ideal) :=
  Cert.LibFoldSteps.step_unary HW 34 (x := main_c_5) (y := main_v26) rfl (by decide) (by decide) X (E_main_c_5 X)
theorem E_main_v27 (X : Valuation τ sig (Elt Ideal)) : after OPS X (Proc.devRef .tc main_v27) = val_main_v27 (F := Ideal) (X (Proc.devRef .tc main_arg3)) :=
  Cert.LibFoldSteps.step_binary HW 35 (a := main_v23) (b := main_v26) (y := main_v27) rfl (by decide) (by decide) (by decide) X (E_main_v23 X) (E_main_v26 X)
theorem E_main_v28 (X : Valuation τ sig (Elt Ideal)) : after OPS X (Proc.devRef .tc main_v28) = val_main_v28 (F := Ideal) (X (Proc.devRef .tc main_arg3)) :=
  Cert.LibFoldSteps.step_ternary HW 36 (c := main_v25) (a := main_v27) (b := main_v23) (y := main_v28) rfl (by decide) (by decide) (by decide) (by decide) X (E_main_v25 X) (E_main_v27 X) (E_main_v23 X)
theorem E_main_v29 (X : Valuation τ sig (Elt Ideal)) : after OPS X (Proc.devRef .tc main_v29) = val_main_v29 (F := Ideal) (X (Proc.devRef .tc main_arg3)) :=
  Cert.LibFoldSteps.step_unary HW 37 (x := main_v28) (y := main_v29) rfl (by decide) (by decide) X (E_main_v28 X)
theorem E_main_v30 (X : Valuation τ sig (Elt Ideal)) : after OPS X (Proc.devRef .tc main_v30) = val_main_v30 (F := Ideal) (X (Proc.devRef .tc main_arg1)) (X (Proc.devRef .tc main_arg3)) :=
  Cert.LibFoldSteps.step_binary HW 38 (a := main_arg1) (b := main_v29) (y := main_v30) rfl (by decide) (by decide) (by decide) X (E_main_arg1 X) (E_main_v29 X)
theorem E_main_v31 (X : Valuation τ sig (Elt Ideal)) : after OPS X (Proc.devRef .tc main_v31) = val_main_v31 (F := Ideal) (X (Proc.devRef .tc main_arg3)) :=
  Cert.LibFoldSteps.step_unary HW 39 (x := main_arg3) (y := main_v31) rfl (by decide) (by decide) X (E_main_arg3 X)
theorem E_main_v32 (X : Valuation τ sig (Elt Ideal)) : after OPS X (Proc.devRef .tc main_v32) = val_main_v32 (F := Ideal) (X (Proc.devRef .tc main_arg3)) :=
  step_reshape HW 40 (x := main_v31) (y := main_v32) rfl (by decide) (by decide) X (E_main_v31 X)
theorem E_main_cst_6 (X : Valuation τ sig (Elt Ideal)) : after OPS X (Proc.devRef .tc main_cst_6) = val_main_cst_6 (F := Ideal) :=
  Cert.LibFoldSteps.step_nullary HW 41 (y := main_cst_6) rfl (by decide) X
theorem E_main_v33 (X : Valuation τ sig (Elt Ideal)) : after OPS X (Proc.devRef .tc main_v33) = val_main_v33 (F := Ideal) :=
  Cert.LibFoldSteps.step_unary HW 42 (x := main_cst_6) (y := main_v33) rfl (by decide) (by decide) X (E_main_cst_6 X)
theorem E_main_v34 (X : Valuation τ sig (Elt Ideal)) : after OPS X (Proc.devRef .tc main_v34) = val_main_v34 (F := Ideal) (X (Proc.devRef .tc main_arg3)) :=
  Cert.LibFoldSteps.step_unary HW 43 (x := main_v32) (y := main_v34) rfl (by decide) (by decide) X (E_main_v32 X)
theorem E_main_v35 (X : Valuation τ sig (Elt Ideal)) : after OPS X (Proc.devRef .tc main_v35) = val_main_v35 (F := Ideal) (X (Proc.devRef .tc main_arg1)) (X (Proc.devRef .tc main_arg3)) :=
  Cert.LibFoldSteps.step_ternary HW 44 (c := main_v33) (a := main_v34) (b := main_v30) (y := main_v35) rfl (by decide) (by decide) (by decide) (by decide) X (E_main_v33 X) (E_main_v34 X) (E_main_v30 X)
theorem E_main_cst_7 (X : Valuation τ sig (Elt Ideal)) : after OPS X (Proc.devRef .tc main_cst_7) = val_main_cst_7 (F := Ideal) :=
  Cert.LibFoldSteps.step_nullary HW 45 (y := main_cst_7) rfl (by decide) X
theorem E_main_v36 (X : Valuation τ sig (Elt Ideal)) : after OPS X (Proc.devRef .tc main_v36) = val_main_v36 (F := Ideal) :=
  Cert.LibFoldSteps.step_unary HW 46 (x := main_cst_7) (y := main_v36) rfl (by decide) (by decide) X (E_main_cst_7 X)
theorem E_main_cst_8 (X : Valuation τ sig (Elt Ideal)) : after OPS X (Proc.devRef .tc main_cst_8) = val_main_cst_8 (F := Ideal) :=
  Cert.LibFoldSteps.step_nullary HW 47 (y := main_cst_8) rfl (by decide) X
theorem E_main_v37 (X : Valuation τ sig (Elt Ideal)) : after OPS X (Proc.devRef .tc main_v37) = val_main_v37 (F := Ideal) :=
  Cert.LibFoldSteps.step_unary HW 48 (x := main_cst_8) (y := main_v37) rfl (by decide) (by decide) X (E_main_cst_8 X)
theorem E_main_v38 (X : Valuation τ sig (Elt Ideal)) : after OPS X (Proc.devRef .tc main_v38) = val_main_v38 (F := Ideal) (X (Proc.devRef .tc main_arg3)) :=
  Cert.LibFoldSteps.step_unary HW 49 (x := main_v32) (y := main_v38) rfl (by decide) (by decide) X (E_main_v32 X)
theorem E_main_v39 (X : Valuation τ sig (Elt Ideal)) : after OPS X (Proc.devRef .tc main_v39) = val_main_v39 (F := Ideal) (X (Proc.devRef .tc main_arg3)) :=
  Cert.LibFoldSteps.step_ternary HW 50 (c := main_v37) (a := main_v38) (b := main_v36) (y := main_v39) rfl (by decide) (by decide) (by decide) (by decide) X (E_main_v37 X) (E_main_v38 X) (E_main_v36 X)
theorem E_main_cst_9 (X : Valuation τ sig (Elt Ideal)) : after OPS X (Proc.devRef .tc main_cst_9) = val_main_cst_9 (F := Ideal) :=
  Cert.LibFoldSteps.step_nullary HW 51 (y := main_cst_9) rfl (by decide) X
theorem E_main_v40 (X : Valuation τ sig (Elt Ideal)) : after OPS X (Proc.devRef .tc main_v40) = val_main_v40 (F := Ideal) :=
  Cert.LibFoldSteps.step_unary HW 52 (x := main_cst_9) (y := main_v40) rfl (by decide) (by decide) X (E_main_cst_9 X)
theorem E_main_v41 (X : Valuation τ sig (Elt Ideal)) : after OPS X (Proc.devRef .tc main_v41) = val_main_v41 (F := Ideal) (X (Proc.devRef .tc main_arg3)) :=
  Cert.LibFoldSteps.step_binary HW 53 (a := main_v39) (b := main_v40) (y := main_v41) rfl (by decide) (by decide) (by decide) X (E_main_v39 X) (E_main_v40 X)
theorem E_main_v42 (X : Valuation τ sig (Elt Ideal)) : after OPS X (Proc.devRef .tc main_v42) = val_main_v42 (F := Ideal) (X (Proc.devRef .tc main_arg3)) :=
  Cert.LibFoldSteps.step_unary HW 54 (x := main_v41) (y := main_v42) rfl (by decide) (by decide) X (E_main_v41 X)
theorem E_main_v43 (X : Valuation τ sig (Elt Ideal)) : after OPS X (Proc.devRef .tc main_v43) = val_main_v43 (F := Ideal) (X (Proc.devRef .tc main_arg1)) (X (Proc.devRef .tc main_arg3)) :=
  Cert.LibFoldSteps.step_binary HW 55 (a := main_v35) (b := main_v42) (y := main_v43) rfl (by decide) (by decide) (by decide) X (E_main_v35 X) (E_main_v42 X)
theorem E_main_v44 (X : Valuation τ sig (Elt Ideal)) : after OPS X (Proc.devRef .tc main_v44) = val_main_v44 (F := Ideal) (X (Proc.devRef .tc main_arg4)) :=
  Cert.LibFoldSteps.step_unary HW 56 (x := main_arg4) (y := main_v44) rfl (by decide) (by decide) X (E_main_arg4 X)
theorem E_main_v45 (X : Valuation τ sig (Elt Ideal)) : after OPS X (Proc.devRef .tc main_v45) = val_main_v45 (F := Ideal) (X (Proc.devRef .tc main_arg4)) :=
  step_reshape HW 57 (x := main_v44) (y := main_v45) rfl (by decide) (by decide) X (E_main_v44 X)
theorem E_main_v46 (X : Valuation τ sig (Elt Ideal)) : after OPS X (Proc.devRef .tc main_v46) = val_main_v46 (F := Ideal) (X (Proc.devRef .tc main_arg4)) :=
  Cert.LibFoldSteps.step_unary HW 58 (x := main_v45) (y := main_v46) rfl (by decide) (by decide) X (E_main_v45 X)
theorem E_main_v47 (X : Valuation τ sig (Elt Ideal)) : after OPS X (Proc.devRef .tc main_v47) = val_main_v47 (F := Ideal) (X (Proc.devRef .tc main_arg0)) (X (Proc.devRef .tc main_arg2)) (X (Proc.devRef .tc main_arg4)) :=
  Cert.LibFoldSteps.step_binary HW 59 (a := main_v21) (b := main_v46) (y := main_v47) rfl (by decide) (by decide) (by decide) X (E_main_v21 X) (E_main_v46 X)
theorem E_main_v48 (X : Valuation τ sig (Elt Ideal)) : after OPS X (Proc.devRef .tc main_v48) = val_main_v48 (F := Ideal) (X (Proc.devRef .tc main_arg5)) :=
  Cert.LibFoldSteps.step_unary HW 60 (x := main_arg5) (y := main_v48) rfl (by decide) (by decide) X (E_main_arg5 X)
theorem E_main_v49 (X : Valuation τ sig (Elt Ideal)) : after OPS X (Proc.devRef .tc main_v49) = val_main_v49 (F := Ideal) (X (Proc.devRef .tc main_arg5)) :=
  step_reshape HW 61 (x := main_v48) (y := main_v49) rfl (by decide) (by decide) X (E_main_v48 X)
theorem E_main_v50 (X : Valuation τ sig (Elt Ideal)) : after OPS X (Proc.devRef .tc main_v50) = val_main_v50 (F := Ideal) (X (Proc.devRef .tc main_arg5)) :=
  Cert.LibFoldSteps.step_unary HW 62 (x := main_v49) (y := main_v50) rfl (by decide) (by decide) X (E_main_v49 X)
theorem E_main_v51 (X : Valuation τ sig (Elt Ideal)) : after OPS X (Proc.devRef .tc main_v51) = val_main_v51 (F := Ideal) (X (Proc.devRef .tc main_arg5)) :=
  Cert.LibFoldSteps.step_unary HW 63 (x := main_v50) (y := main_v51) rfl (by decide) (by decide) X (E_main_v50 X)
theorem E_main_v52 (X : Valuation τ sig (Elt Ideal)) : after OPS X (Proc.devRef .tc main_v52) = val_main_v52 (F := Ideal) (X (Proc.devRef .tc main_arg0)) (X (Proc.devRef .tc main_arg2)) (X (Proc.devRef .tc main_arg4)) (X (Proc.devRef .tc main_arg5)) :=
  Cert.LibFoldSteps.step_binary HW 64 (a := main_v47) (b := main_v51) (y := main_v52) rfl (by decide) (by decide) (by decide) X (E_main_v47 X) (E_main_v51 X)
theorem E_main_v53 (X : Valuation τ sig (Elt Ideal)) : after OPS X (Proc.devRef .tc main_v53) = val_main_v53 (F := Ideal) (X (Proc.devRef .tc main_arg6)) :=
  Cert.LibFoldSteps.step_unary HW 65 (x := main_arg6) (y := main_v53) rfl (by decide) (by decide) X (E_main_arg6 X)
theorem E_main_v54 (X : Valuation τ sig (Elt Ideal)) : after OPS X (Proc.devRef .tc main_v54) = val_main_v54 (F := Ideal) (X (Proc.devRef .tc main_arg6)) :=
  step_reshape HW 66 (x := main_v53) (y := main_v54) rfl (by decide) (by decide) X (E_main_v53 X)
theorem E_main_v55 (X : Valuation τ sig (Elt Ideal)) : after OPS X (Proc.devRef .tc main_v55) = val_main_v55 (F := Ideal) (X (Proc.devRef .tc main_arg6)) :=
  Cert.LibFoldSteps.step_unary HW 67 (x := main_v54) (y := main_v55) rfl (by decide) (by decide) X (E_main_v54 X)
theorem E_main_v56 (X : Valuation τ sig (Elt Ideal)) : after OPS X (Proc.devRef .tc main_v56) = val_main_v56 (F := Ideal) (X (Proc.devRef .tc main_arg1)) (X (Proc.devRef .tc main_arg6)) :=
  Cert.LibFoldSteps.step_binary HW 68 (a := main_arg1) (b := main_v55) (y := main_v56) rfl (by decide) (by decide) (by decide) X (E_main_arg1 X) (E_main_v55 X)
theorem E_main_v57 (X : Valuation τ sig (Elt Ideal)) : after OPS X (Proc.devRef .tc main_v57) = val_main_v57 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 69 (a := main_v52) (b := main_v56) (y := main_v57) rfl (by decide) (by decide) (by decide) X (E_main_v52 X) (E_main_v56 X)
theorem E_main_v58 (X : Valuation τ sig (Elt Ideal)) : after OPS X (Proc.devRef .tc main_v58) = val_main_v58 (F := Ideal) (X (Proc.devRef .tc main_arg4)) :=
  Cert.LibFoldSteps.step_unary HW 70 (x := main_arg4) (y := main_v58) rfl (by decide) (by decide) X (E_main_arg4 X)
theorem E_main_v59 (X : Valuation τ sig (Elt Ideal)) : after OPS X (Proc.devRef .tc main_v59) = val_main_v59 (F := Ideal) (X (Proc.devRef .tc main_arg4)) :=
  step_reshape HW 71 (x := main_v58) (y := main_v59) rfl (by decide) (by decide) X (E_main_v58 X)
theorem E_main_v60 (X : Valuation τ sig (Elt Ideal)) : after OPS X (Proc.devRef .tc main_v60) = val_main_v60 (F := Ideal) (X (Proc.devRef .tc main_arg4)) :=
  Cert.LibFoldSteps.step_unary HW 72 (x := main_v59) (y := main_v60) rfl (by decide) (by decide) X (E_main_v59 X)
theorem E_main_v61 (X : Valuation τ sig (Elt Ideal)) : after OPS X (Proc.devRef .tc main_v61) = val_main_v61 (F := Ideal) (X (Proc.devRef .tc main_arg1)) (X (Proc.devRef .tc main_arg3)) (X (Proc.devRef .tc main_arg4)) :=
  Cert.LibFoldSteps.step_binary HW 73 (a := main_v43) (b := main_v60) (y := main_v61) rfl (by decide) (by decide) (by decide) X (E_main_v43 X) (E_main_v60 X)
theorem E_main_v62 (X : Valuation τ sig (Elt Ideal)) : after OPS X (Proc.devRef .tc main_v62) = val_main_v62 (F := Ideal) (X (Proc.devRef .tc main_arg5)) :=
  Cert.LibFoldSteps.step_unary HW 74 (x := main_arg5) (y := main_v62) rfl (by decide) (by decide) X (E_main_arg5 X)
theorem E_main_v63 (X : Valuation τ sig (Elt Ideal)) : after OPS X (Proc.devRef .tc main_v63) = val_main_v63 (F := Ideal) (X (Proc.devRef .tc main_arg5)) :=
  step_reshape HW 75 (x := main_v62) (y := main_v63) rfl (by decide) (by decide) X (E_main_v62 X)
theorem E_main_v64 (X : Valuation τ sig (Elt Ideal)) : after OPS X (Proc.devRef .tc main_v64) = val_main_v64 (F := Ideal) (X (Proc.devRef .tc main_arg5)) :=
  Cert.LibFoldSteps.step_unary HW 76 (x := main_v63) (y := main_v64) rfl (by decide) (by decide) X (E_main_v63 X)
theorem E_main_v65 (X : Valuation τ sig (Elt Ideal)) : after OPS X (Proc.devRef .tc main_v65) = val_main_v65 (F := Ideal) (X (Proc.devRef .tc main_arg5)) :=
  Cert.LibFoldSteps.step_unary HW 77 (x := main_v64) (y := main_v65) rfl (by decide) (by decide) X (E_main_v64 X)
theorem E_main_v66 (X : Valuation τ sig (Elt Ideal)) : after OPS X (Proc.devRef .tc main_v66) = val_main_v66 (F := Ideal) (X (Proc.devRef .tc main_arg1)) (X (Proc.devRef .tc main_arg3)) (X (Proc.devRef .tc main_arg4)) (X (Proc.devRef .tc main_arg5)) :=
  Cert.LibFoldSteps.step_binary HW 78 (a := main_v61) (b := main_v65) (y := main_v66) rfl (by decide) (by decide) (by decide) X (E_main_v61 X) (E_main_v65 X)
theorem E_main_v67 (X : Valuation τ sig (Elt Ideal)) : after OPS X (Proc.devRef .tc main_v67) = val_main_v67 (F := Ideal) (X (Proc.devRef .tc main_arg6)) :=
  Cert.LibFoldSteps.step_unary HW 79 (x := main_arg6) (y := main_v67) rfl (by decide) (by decide) X (E_main_arg6 X)
theorem E_main_v68 (X : Valuation τ sig (Elt Ideal)) : after OPS X (Proc.devRef .tc main_v68) = val_main_v68 (F := Ideal) (X (Proc.devRef .tc main_arg6)) :=
  step_reshape HW 80 (x := main_v67) (y := main_v68) rfl (by decide) (by decide) X (E_main_v67 X)
theorem E_main_v69 (X : Valuation τ sig (Elt Ideal)) : after OPS X (Proc.devRef .tc main_v69) = val_main_v69 (F := Ideal) (X (Proc.devRef .tc main_arg6)) :=
  Cert.LibFoldSteps.step_unary HW 81 (x := main_v68) (y := main_v69) rfl (by decide) (by decide) X (E_main_v68 X)
theorem E_main_v70 (X : Valuation τ sig (Elt Ideal)) : after OPS X (Proc.devRef .tc main_v70) = val_main_v70 (F := Ideal) (X (Proc.devRef .tc main_arg0)) (X (Proc.devRef .tc main_arg6)) :=
  Cert.LibFoldSteps.step_binary HW 82 (a := main_arg0) (b := main_v69) (y := main_v70) rfl (by decide) (by decide) (by decide) X (E_main_arg0 X) (E_main_v69 X)
theorem E_main_v71 (X : Valuation τ sig (Elt Ideal)) : after OPS X (Proc.devRef .tc main_v71) = val_main_v71 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 83 (a := main_v66) (b := main_v70) (y := main_v71) rfl (by decide) (by decide) (by decide) X (E_main_v66 X) (E_main_v70 X)
theorem E_main_v72 (X : Valuation τ sig (Elt Ideal)) : after OPS X (Proc.devRef .tc main_v72) = val_main_v72 (F := Ideal) (X (Proc.devRef .tc main_arg7)) :=
  Cert.LibFoldSteps.step_unary HW 84 (x := main_arg7) (y := main_v72) rfl (by decide) (by decide) X (E_main_arg7 X)
theorem E_main_v73 (X : Valuation τ sig (Elt Ideal)) : after OPS X (Proc.devRef .tc main_v73) = val_main_v73 (F := Ideal) (X (Proc.devRef .tc main_arg7)) :=
  step_reshape HW 85 (x := main_v72) (y := main_v73) rfl (by decide) (by decide) X (E_main_v72 X)
theorem E_main_v74 (X : Valuation τ sig (Elt Ideal)) : after OPS X (Proc.devRef .tc main_v74) = val_main_v74 (F := Ideal) (X (Proc.devRef .tc main_arg8)) :=
  Cert.LibFoldSteps.step_unary HW 86 (x := main_arg8) (y := main_v74) rfl (by decide) (by decide) X (E_main_arg8 X)
theorem E_main_v75 (X : Valuation τ sig (Elt Ideal)) : after OPS X (Proc.devRef .tc main_v75) = val_main_v75 (F := Ideal) (X (Proc.devRef .tc main_arg8)) :=
  step_reshape HW 87 (x := main_v74) (y := main_v75) rfl (by decide) (by decide) X (E_main_v74 X)
theorem E_main_cst_10 (X : Valuation τ sig (Elt Ideal)) : after OPS X (Proc.devRef .tc main_cst_10) = val_main_cst_10 (F := Ideal) :=
  Cert.LibFoldSteps.step_nullary HW 88 (y := main_cst_10) rfl (by decide) X
theorem E_main_v76 (X : Valuation τ sig (Elt Ideal)) : after OPS X (Proc.devRef .tc main_v76) = val_main_v76 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 89 (a := main_v71) (b := main_cst_10) (y := main_v76) rfl (by decide) (by decide) (by decide) X (E_main_v71 X) (E_main_cst_10 X)
theorem E_main_v77 (X : Valuation τ sig (Elt Ideal)) : after OPS X (Proc.devRef .tc main_v77) = val_main_v77 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_unary HW 90 (x := main_v76) (y := main_v77) rfl (by decide) (by decide) X (E_main_v76 X)
theorem E_main_cst_11 (X : Valuation τ sig (Elt Ideal)) : after OPS X (Proc.devRef .tc main_cst_11) = val_main_cst_11 (F := Ideal) :=
  Cert.LibFoldSteps.step_nullary HW 91 (y := main_cst_11) rfl (by decide) X
theorem E_main_v78 (X : Valuation τ sig (Elt Ideal)) : after OPS X (Proc.devRef .tc main_v78) = val_main_v78 (F := Ideal) :=
  Cert.LibFoldSteps.step_unary HW 92 (x := main_cst_11) (y := main_v78) rfl (by decide) (by decide) X (E_main_cst_11 X)
theorem E_main_v79 (X : Valuation τ sig (Elt Ideal)) : after OPS X (Proc.devRef .tc main_v79) = val_main_v79 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 93 (a := main_v77) (b := main_v78) (y := main_v79) rfl (by decide) (by decide) (by decide) X (E_main_v77 X) (E_main_v78 X)
theorem E_main_v80 (X : Valuation τ sig (Elt Ideal)) : after OPS X (Proc.devRef .tc main_v80) = val_main_v80 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_unary HW 94 (x := main_v79) (y := main_v80) rfl (by decide) (by decide) X (E_main_v79 X)
theorem E_main_v81 (X : Valuation τ sig (Elt Ideal)) : after OPS X (Proc.devRef .tc main_v81) = val_main_v81 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 95 (a := main_v71) (b := main_v80) (y := main_v81) rfl (by decide) (by decide) (by decide) X (E_main_v71 X) (E_main_v80 X)
theorem E_main_v82 (X : Valuation τ sig (Elt Ideal)) : after OPS X (Proc.devRef .tc main_v82) = val_main_v82 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 96 (a := main_v81) (b := main_v81) (y := main_v82) rfl (by decide) (by decide) (by decide) X (E_main_v81 X) (E_main_v81 X)
theorem E_main_cst_12 (X : Valuation τ sig (Elt Ideal)) : after OPS X (Proc.devRef .tc main_cst_12) = val_main_cst_12 (F := Ideal) :=
  Cert.LibFoldSteps.step_nullary HW 97 (y := main_cst_12) rfl (by decide) X
theorem E_main_v83 (X : Valuation τ sig (Elt Ideal)) : after OPS X (Proc.devRef .tc main_v83) = val_main_v83 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 98 (a := main_v82) (b := main_cst_12) (y := main_v83) rfl (by decide) (by decide) (by decide) X (E_main_v82 X) (E_main_cst_12 X)
theorem E_main_v84 (X : Valuation τ sig (Elt Ideal)) : after OPS X (Proc.devRef .tc main_v84) = val_main_v84 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_unary HW 99 (x := main_v83) (y := main_v84) rfl (by decide) (by decide) X (E_main_v83 X)
theorem E_main_cst_13 (X : Valuation τ sig (Elt Ideal)) : after OPS X (Proc.devRef .tc main_cst_13) = val_main_cst_13 (F := Ideal) :=
  Cert.LibFoldSteps.step_nullary HW 100 (y := main_cst_13) rfl (by decide) X
theorem E_main_v85 (X : Valuation τ sig (Elt Ideal)) : after OPS X (Proc.devRef .tc main_v85) = val_main_v85 (F := Ideal) :=
  Cert.LibFoldSteps.step_unary HW 101 (x := main_cst_13) (y := main_v85) rfl (by decide) (by decide) X (E_main_cst_13 X)
theorem E_main_v86 (X : Valuation τ sig (Elt Ideal)) : after OPS X (Proc.devRef .tc main_v86) = val_main_v86 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 102 (a := main_v84) (b := main_v85) (y := main_v86) rfl (by decide) (by decide) (by decide) X (E_main_v84 X) (E_main_v85 X)
theorem E_main_v87 (X : Valuation τ sig (Elt Ideal)) : after OPS X (Proc.devRef .tc main_v87) = val_main_v87 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_unary HW 103 (x := main_v79) (y := main_v87) rfl (by decide) (by decide) X (E_main_v79 X)
theorem E_main_v88 (X : Valuation τ sig (Elt Ideal)) : after OPS X (Proc.devRef .tc main_v88) = val_main_v88 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 104 (a := main_v71) (b := main_v87) (y := main_v88) rfl (by decide) (by decide) (by decide) X (E_main_v71 X) (E_main_v87 X)
theorem E_main_cst_14 (X : Valuation τ sig (Elt Ideal)) : after OPS X (Proc.devRef .tc main_cst_14) = val_main_cst_14 (F := Ideal) :=
  Cert.LibFoldSteps.step_nullary HW 105 (y := main_cst_14) rfl (by decide) X
theorem E_main_v89 (X : Valuation τ sig (Elt Ideal)) : after OPS X (Proc.devRef .tc main_v89) = val_main_v89 (F := Ideal) :=
  Cert.LibFoldSteps.step_unary HW 106 (x := main_cst_14) (y := main_v89) rfl (by decide) (by decide) X (E_main_cst_14 X)
theorem E_main_v90 (X : Valuation τ sig (Elt Ideal)) : after OPS X (Proc.devRef .tc main_v90) = val_main_v90 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 107 (a := main_v86) (b := main_v89) (y := main_v90) rfl (by decide) (by decide) (by decide) X (E_main_v86 X) (E_main_v89 X)
theorem E_main_v91 (X : Valuation τ sig (Elt Ideal)) : after OPS X (Proc.devRef .tc main_v91) = val_main_v91 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_unary HW 108 (x := main_v90) (y := main_v91) rfl (by decide) (by decide) X (E_main_v90 X)
theorem E_main_v92 (X : Valuation τ sig (Elt Ideal)) : after OPS X (Proc.devRef .tc main_v92) = val_main_v92 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_unary HW 109 (x := main_v91) (y := main_v92) rfl (by decide) (by decide) X (E_main_v91 X)
theorem E_main_v93 (X : Valuation τ sig (Elt Ideal)) : after OPS X (Proc.devRef .tc main_v93) = val_main_v93 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) :=
  Cert.LibFoldSteps.step_binary HW 110 (a := main_v88) (b := main_v92) (y := main_v93) rfl (by decide) (by decide) (by decide) X (E_main_v88 X) (E_main_v92 X)
theorem E_main_v94 (X : Valuation τ sig (Elt Ideal)) : after OPS X (Proc.devRef .tc main_v94) = val_main_v94 (F := Ideal) (X (Proc.devRef .tc main_arg7)) :=
  Cert.LibFoldSteps.step_unary HW 111 (x := main_v73) (y := main_v94) rfl (by decide) (by decide) X (E_main_v73 X)
theorem E_main_v95 (X : Valuation τ sig (Elt Ideal)) : after OPS X (Proc.devRef .tc main_v95) = val_main_v95 (F := Ideal) (X (Proc.devRef .tc main_arg7)) :=
  Cert.LibFoldSteps.step_unary HW 112 (x := main_v94) (y := main_v95) rfl (by decide) (by decide) X (E_main_v94 X)
theorem E_main_v96 (X : Valuation τ sig (Elt Ideal)) : after OPS X (Proc.devRef .tc main_v96) = val_main_v96 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) (X (Proc.devRef .tc main_arg7)) :=
  Cert.LibFoldSteps.step_binary HW 113 (a := main_v93) (b := main_v95) (y := main_v96) rfl (by decide) (by decide) (by decide) X (E_main_v93 X) (E_main_v95 X)
theorem E_main_v97 (X : Valuation τ sig (Elt Ideal)) : after OPS X (Proc.devRef .tc main_v97) = val_main_v97 (F := Ideal) (X (Proc.devRef .tc main_arg8)) :=
  Cert.LibFoldSteps.step_unary HW 114 (x := main_v75) (y := main_v97) rfl (by decide) (by decide) X (E_main_v75 X)
theorem E_main_v98 (X : Valuation τ sig (Elt Ideal)) : after OPS X (Proc.devRef .tc main_v98) = val_main_v98 (F := Ideal) (X (Proc.devRef .tc main_arg8)) :=
  Cert.LibFoldSteps.step_unary HW 115 (x := main_v97) (y := main_v98) rfl (by decide) (by decide) X (E_main_v97 X)
theorem E_main_v99 (X : Valuation τ sig (Elt Ideal)) : after OPS X (Proc.devRef .tc main_v99) = val_main_v99 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 116 (a := main_v96) (b := main_v98) (y := main_v99) rfl (by decide) (by decide) (by decide) X (E_main_v96 X) (E_main_v98 X)
theorem E_main_call0_cst (X : Valuation τ sig (Elt Ideal)) : after OPS X (Proc.devRef .tc main_call0_cst) = val_main_call0_cst (F := Ideal) :=
  Cert.LibFoldSteps.step_nullaryT HW 117 (ry := main_call0_cst) rfl (by decide) X
theorem E_main_call0_v0 (X : Valuation τ sig (Elt Ideal)) : after OPS X (Proc.devRef .tc main_call0_v0) = val_main_call0_v0 (F := Ideal) :=
  Cert.LibFoldSteps.step_unaryT HW 118 (rx := main_call0_cst) (ry := main_call0_v0) rfl (by decide) (by decide) X (E_main_call0_cst X)
theorem E_main_v100 (X : Valuation τ sig (Elt Ideal)) : after OPS X (Proc.devRef .tc main_v100) = val_main_v100 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binaryT HW 119 (ra := main_v99) (rb := main_call0_v0) (ry := main_v100) rfl (by decide) (by decide) (by decide) X (E_main_v99 X) (E_main_call0_v0 X)
theorem E_main_v101 (X : Valuation τ sig (Elt Ideal)) : after OPS X (Proc.devRef .tc main_v101) = val_main_v101 (F := Ideal) (X (Proc.devRef .tc main_arg7)) :=
  Cert.LibFoldSteps.step_unary HW 120 (x := main_arg7) (y := main_v101) rfl (by decide) (by decide) X (E_main_arg7 X)
theorem E_main_v102 (X : Valuation τ sig (Elt Ideal)) : after OPS X (Proc.devRef .tc main_v102) = val_main_v102 (F := Ideal) (X (Proc.devRef .tc main_arg7)) :=
  step_reshape HW 121 (x := main_v101) (y := main_v102) rfl (by decide) (by decide) X (E_main_v101 X)
theorem E_main_v103 (X : Valuation τ sig (Elt Ideal)) : after OPS X (Proc.devRef .tc main_v103) = val_main_v103 (F := Ideal) (X (Proc.devRef .tc main_arg8)) :=
  Cert.LibFoldSteps.step_unary HW 122 (x := main_arg8) (y := main_v103) rfl (by decide) (by decide) X (E_main_arg8 X)
theorem E_main_v104 (X : Valuation τ sig (Elt Ideal)) : after OPS X (Proc.devRef .tc main_v104) = val_main_v104 (F := Ideal) (X (Proc.devRef .tc main_arg8)) :=
  step_reshape HW 123 (x := main_v103) (y := main_v104) rfl (by decide) (by decide) X (E_main_v103 X)
theorem E_main_cst_15 (X : Valuation τ sig (Elt Ideal)) : after OPS X (Proc.devRef .tc main_cst_15) = val_main_cst_15 (F := Ideal) :=
  Cert.LibFoldSteps.step_nullary HW 124 (y := main_cst_15) rfl (by decide) X
theorem E_main_v105 (X : Valuation τ sig (Elt Ideal)) : after OPS X (Proc.devRef .tc main_v105) = val_main_v105 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 125 (a := main_v57) (b := main_cst_15) (y := main_v105) rfl (by decide) (by decide) (by decide) X (E_main_v57 X) (E_main_cst_15 X)
theorem E_main_v106 (X : Valuation τ sig (Elt Ideal)) : after OPS X (Proc.devRef .tc main_v106) = val_main_v106 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_unary HW 126 (x := main_v105) (y := main_v106) rfl (by decide) (by decide) X (E_main_v105 X)
theorem E_main_cst_16 (X : Valuation τ sig (Elt Ideal)) : after OPS X (Proc.devRef .tc main_cst_16) = val_main_cst_16 (F := Ideal) :=
  Cert.LibFoldSteps.step_nullary HW 127 (y := main_cst_16) rfl (by decide) X
theorem E_main_v107 (X : Valuation τ sig (Elt Ideal)) : after OPS X (Proc.devRef .tc main_v107) = val_main_v107 (F := Ideal) :=
  Cert.LibFoldSteps.step_unary HW 128 (x := main_cst_16) (y := main_v107) rfl (by decide) (by decide) X (E_main_cst_16 X)
theorem E_main_v108 (X : Valuation τ sig (Elt Ideal)) : after OPS X (Proc.devRef .tc main_v108) = val_main_v108 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 129 (a := main_v106) (b := main_v107) (y := main_v108) rfl (by decide) (by decide) (by decide) X (E_main_v106 X) (E_main_v107 X)
theorem E_main_v109 (X : Valuation τ sig (Elt Ideal)) : after OPS X (Proc.devRef .tc main_v109) = val_main_v109 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_unary HW 130 (x := main_v108) (y := main_v109) rfl (by decide) (by decide) X (E_main_v108 X)
theorem E_main_v110 (X : Valuation τ sig (Elt Ideal)) : after OPS X (Proc.devRef .tc main_v110) = val_main_v110 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 131 (a := main_v57) (b := main_v109) (y := main_v110) rfl (by decide) (by decide) (by decide) X (E_main_v57 X) (E_main_v109 X)
theorem E_main_v111 (X : Valuation τ sig (Elt Ideal)) : after OPS X (Proc.devRef .tc main_v111) = val_main_v111 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 132 (a := main_v110) (b := main_v110) (y := main_v111) rfl (by decide) (by decide) (by decide) X (E_main_v110 X) (E_main_v110 X)
theorem E_main_cst_17 (X : Valuation τ sig (Elt Ideal)) : after OPS X (Proc.devRef .tc main_cst_17) = val_main_cst_17 (F := Ideal) :=
  Cert.LibFoldSteps.step_nullary HW 133 (y := main_cst_17) rfl (by decide) X
theorem E_main_v112 (X : Valuation τ sig (Elt Ideal)) : after OPS X (Proc.devRef .tc main_v112) = val_main_v112 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 134 (a := main_v111) (b := main_cst_17) (y := main_v112) rfl (by decide) (by decide) (by decide) X (E_main_v111 X) (E_main_cst_17 X)
theorem E_main_v113 (X : Valuation τ sig (Elt Ideal)) : after OPS X (Proc.devRef .tc main_v113) = val_main_v113 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_unary HW 135 (x := main_v112) (y := main_v113) rfl (by decide) (by decide) X (E_main_v112 X)
theorem E_main_cst_18 (X : Valuation τ sig (Elt Ideal)) : after OPS X (Proc.devRef .tc main_cst_18) = val_main_cst_18 (F := Ideal) :=
  Cert.LibFoldSteps.step_nullary HW 136 (y := main_cst_18) rfl (by decide) X
theorem E_main_v114 (X : Valuation τ sig (Elt Ideal)) : after OPS X (Proc.devRef .tc main_v114) = val_main_v114 (F := Ideal) :=
  Cert.LibFoldSteps.step_unary HW 137 (x := main_cst_18) (y := main_v114) rfl (by decide) (by decide) X (E_main_cst_18 X)
theorem E_main_v115 (X : Valuation τ sig (Elt Ideal)) : after OPS X (Proc.devRef .tc main_v115) = val_main_v115 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 138 (a := main_v113) (b := main_v114) (y := main_v115) rfl (by decide) (by decide) (by decide) X (E_main_v113 X) (E_main_v114 X)
theorem E_main_v116 (X : Valuation τ sig (Elt Ideal)) : after OPS X (Proc.devRef .tc main_v116) = val_main_v116 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_unary HW 139 (x := main_v108) (y := main_v116) rfl (by decide) (by decide) X (E_main_v108 X)
theorem E_main_v117 (X : Valuation τ sig (Elt Ideal)) : after OPS X (Proc.devRef .tc main_v117) = val_main_v117 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 140 (a := main_v57) (b := main_v116) (y := main_v117) rfl (by decide) (by decide) (by decide) X (E_main_v57 X) (E_main_v116 X)
theorem E_main_cst_19 (X : Valuation τ sig (Elt Ideal)) : after OPS X (Proc.devRef .tc main_cst_19) = val_main_cst_19 (F := Ideal) :=
  Cert.LibFoldSteps.step_nullary HW 141 (y := main_cst_19) rfl (by decide) X
theorem E_main_v118 (X : Valuation τ sig (Elt Ideal)) : after OPS X (Proc.devRef .tc main_v118) = val_main_v118 (F := Ideal) :=
  Cert.LibFoldSteps.step_unary HW 142 (x := main_cst_19) (y := main_v118) rfl (by decide) (by decide) X (E_main_cst_19 X)
theorem E_main_v119 (X : Valuation τ sig (Elt Ideal)) : after OPS X (Proc.devRef .tc main_v119) = val_main_v119 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 143 (a := main_v115) (b := main_v118) (y := main_v119) rfl (by decide) (by decide) (by decide) X (E_main_v115 X) (E_main_v118 X)
theorem E_main_v120 (X : Valuation τ sig (Elt Ideal)) : after OPS X (Proc.devRef .tc main_v120) = val_main_v120 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_unary HW 144 (x := main_v119) (y := main_v120) rfl (by decide) (by decide) X (E_main_v119 X)
theorem E_main_v121 (X : Valuation τ sig (Elt Ideal)) : after OPS X (Proc.devRef .tc main_v121) = val_main_v121 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_unary HW 145 (x := main_v120) (y := main_v121) rfl (by decide) (by decide) X (E_main_v120 X)
theorem E_main_v122 (X : Valuation τ sig (Elt Ideal)) : after OPS X (Proc.devRef .tc main_v122) = val_main_v122 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) :=
  Cert.LibFoldSteps.step_binary HW 146 (a := main_v117) (b := main_v121) (y := main_v122) rfl (by decide) (by decide) (by decide) X (E_main_v117 X) (E_main_v121 X)
theorem E_main_v123 (X : Valuation τ sig (Elt Ideal)) : after OPS X (Proc.devRef .tc main_v123) = val_main_v123 (F := Ideal) (X (Proc.devRef .tc main_arg7)) :=
  Cert.LibFoldSteps.step_unary HW 147 (x := main_v102) (y := main_v123) rfl (by decide) (by decide) X (E_main_v102 X)
theorem E_main_v124 (X : Valuation τ sig (Elt Ideal)) : after OPS X (Proc.devRef .tc main_v124) = val_main_v124 (F := Ideal) (X (Proc.devRef .tc main_arg7)) :=
  Cert.LibFoldSteps.step_unary HW 148 (x := main_v123) (y := main_v124) rfl (by decide) (by decide) X (E_main_v123 X)
theorem E_main_v125 (X : Valuation τ sig (Elt Ideal)) : after OPS X (Proc.devRef .tc main_v125) = val_main_v125 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) (X (Proc.devRef .tc main_arg7)) :=
  Cert.LibFoldSteps.step_binary HW 149 (a := main_v122) (b := main_v124) (y := main_v125) rfl (by decide) (by decide) (by decide) X (E_main_v122 X) (E_main_v124 X)
theorem E_main_v126 (X : Valuation τ sig (Elt Ideal)) : after OPS X (Proc.devRef .tc main_v126) = val_main_v126 (F := Ideal) (X (Proc.devRef .tc main_arg8)) :=
  Cert.LibFoldSteps.step_unary HW 150 (x := main_v104) (y := main_v126) rfl (by decide) (by decide) X (E_main_v104 X)
theorem E_main_v127 (X : Valuation τ sig (Elt Ideal)) : after OPS X (Proc.devRef .tc main_v127) = val_main_v127 (F := Ideal) (X (Proc.devRef .tc main_arg8)) :=
  Cert.LibFoldSteps.step_unary HW 151 (x := main_v126) (y := main_v127) rfl (by decide) (by decide) X (E_main_v126 X)
theorem E_main_v128 (X : Valuation τ sig (Elt Ideal)) : after OPS X (Proc.devRef .tc main_v128) = val_main_v128 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 152 (a := main_v125) (b := main_v127) (y := main_v128) rfl (by decide) (by decide) (by decide) X (E_main_v125 X) (E_main_v127 X)
theorem E_main_call1_cst (X : Valuation τ sig (Elt Ideal)) : after OPS X (Proc.devRef .tc main_call1_cst) = val_main_call1_cst (F := Ideal) :=
  Cert.LibFoldSteps.step_nullaryT HW 153 (ry := main_call1_cst) rfl (by decide) X
theorem E_main_call1_v0 (X : Valuation τ sig (Elt Ideal)) : after OPS X (Proc.devRef .tc main_call1_v0) = val_main_call1_v0 (F := Ideal) :=
  Cert.LibFoldSteps.step_unaryT HW 154 (rx := main_call1_cst) (ry := main_call1_v0) rfl (by decide) (by decide) X (E_main_call1_cst X)
theorem E_main_v129 (X : Valuation τ sig (Elt Ideal)) : after OPS X (Proc.devRef .tc main_v129) = val_main_v129 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) (X (Proc.devRef .tc main_arg7)) (X (Proc.devRef .tc main_arg8)) :=
  Cert.LibFoldSteps.step_binaryT HW 155 (ra := main_v128) (rb := main_call1_v0) (ry := main_v129) rfl (by decide) (by decide) (by decide) X (E_main_v128 X) (E_main_call1_v0 X)
theorem E_main_v130 (X : Valuation τ sig (Elt Ideal)) : after OPS X (Proc.devRef .tc main_v130) = val_main_v130 (F := Ideal) (X (Proc.devRef .tc main_arg2)) :=
  Cert.LibFoldSteps.step_unary HW 156 (x := main_arg2) (y := main_v130) rfl (by decide) (by decide) X (E_main_arg2 X)
theorem E_main_v131 (X : Valuation τ sig (Elt Ideal)) : after OPS X (Proc.devRef .tc main_v131) = val_main_v131 (F := Ideal) (X (Proc.devRef .tc main_arg2)) :=
  step_reshape HW 157 (x := main_v130) (y := main_v131) rfl (by decide) (by decide) X (E_main_v130 X)
theorem E_main_c_20 (X : Valuation τ sig (Elt Ideal)) : after OPS X (Proc.devRef .tc main_c_20) = val_main_c_20 (F := Ideal) :=
  Cert.LibFoldSteps.step_nullary HW 158 (y := main_c_20) rfl (by decide) X
theorem E_main_v132 (X : Valuation τ sig (Elt Ideal)) : after OPS X (Proc.devRef .tc main_v132) = val_main_v132 (F := Ideal) :=
  Cert.LibFoldSteps.step_unary HW 159 (x := main_c_20) (y := main_v132) rfl (by decide) (by decide) X (E_main_c_20 X)
theorem E_main_v133 (X : Valuation τ sig (Elt Ideal)) : after OPS X (Proc.devRef .tc main_v133) = val_main_v133 (F := Ideal) (X (Proc.devRef .tc main_arg2)) :=
  Cert.LibFoldSteps.step_binary HW 160 (a := main_v131) (b := main_v132) (y := main_v133) rfl (by decide) (by decide) (by decide) X (E_main_v131 X) (E_main_v132 X)
theorem E_main_c_21 (X : Valuation τ sig (Elt Ideal)) : after OPS X (Proc.devRef .tc main_c_21) = val_main_c_21 (F := Ideal) :=
  Cert.LibFoldSteps.step_nullary HW 161 (y := main_c_21) rfl (by decide) X
theorem E_main_v134 (X : Valuation τ sig (Elt Ideal)) : after OPS X (Proc.devRef .tc main_v134) = val_main_v134 (F := Ideal) :=
  Cert.LibFoldSteps.step_unary HW 162 (x := main_c_21) (y := main_v134) rfl (by decide) (by decide) X (E_main_c_21 X)
theorem E_main_v135 (X : Valuation τ sig (Elt Ideal)) : after OPS X (Proc.devRef .tc main_v135) = val_main_v135 (F := Ideal) (X (Proc.devRef .tc main_arg2)) :=
  Cert.LibFoldSteps.step_binary HW 163 (a := main_v131) (b := main_v134) (y := main_v135) rfl (by decide) (by decide) (by decide) X (E_main_v131 X) (E_main_v134 X)
theorem E_main_v136 (X : Valuation τ sig (Elt Ideal)) : after OPS X (Proc.devRef .tc main_v136) = val_main_v136 (F := Ideal) (X (Proc.devRef .tc main_arg2)) :=
  Cert.LibFoldSteps.step_ternary HW 164 (c := main_v133) (a := main_v135) (b := main_v131) (y := main_v136) rfl (by decide) (by decide) (by decide) (by decide) X (E_main_v133 X) (E_main_v135 X) (E_main_v131 X)
theorem E_main_v137 (X : Valuation τ sig (Elt Ideal)) : after OPS X (Proc.devRef .tc main_v137) = val_main_v137 (F := Ideal) (X (Proc.devRef .tc main_arg2)) :=
  Cert.LibFoldSteps.step_unary HW 165 (x := main_v136) (y := main_v137) rfl (by decide) (by decide) X (E_main_v136 X)
theorem E_main_v138 (X : Valuation τ sig (Elt Ideal)) : after OPS X (Proc.devRef .tc main_v138) = val_main_v138 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 166 (a := main_v100) (b := main_v137) (y := main_v138) rfl (by decide) (by decide) (by decide) X (E_main_v100 X) (E_main_v137 X)
theorem E_main_v139 (X : Valuation τ sig (Elt Ideal)) : after OPS X (Proc.devRef .tc main_v139) = val_main_v139 (F := Ideal) (X (Proc.devRef .tc main_arg2)) :=
  Cert.LibFoldSteps.step_unary HW 167 (x := main_arg2) (y := main_v139) rfl (by decide) (by decide) X (E_main_arg2 X)
theorem E_main_v140 (X : Valuation τ sig (Elt Ideal)) : after OPS X (Proc.devRef .tc main_v140) = val_main_v140 (F := Ideal) (X (Proc.devRef .tc main_arg2)) :=
  step_reshape HW 168 (x := main_v139) (y := main_v140) rfl (by decide) (by decide) X (E_main_v139 X)
theorem E_main_cst_22 (X : Valuation τ sig (Elt Ideal)) : after OPS X (Proc.devRef .tc main_cst_22) = val_main_cst_22 (F := Ideal) :=
  Cert.LibFoldSteps.step_nullary HW 169 (y := main_cst_22) rfl (by decide) X
theorem E_main_v141 (X : Valuation τ sig (Elt Ideal)) : after OPS X (Proc.devRef .tc main_v141) = val_main_v141 (F := Ideal) :=
  Cert.LibFoldSteps.step_unary HW 170 (x := main_cst_22) (y := main_v141) rfl (by decide) (by decide) X (E_main_cst_22 X)
theorem E_main_v142 (X : Valuation τ sig (Elt Ideal)) : after OPS X (Proc.devRef .tc main_v142) = val_main_v142 (F := Ideal) (X (Proc.devRef .tc main_arg2)) :=
  Cert.LibFoldSteps.step_unary HW 171 (x := main_v140) (y := main_v142) rfl (by decide) (by decide) X (E_main_v140 X)
theorem E_main_v143 (X : Valuation τ sig (Elt Ideal)) : after OPS X (Proc.devRef .tc main_v143) = val_main_v143 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_ternary HW 172 (c := main_v141) (a := main_v142) (b := main_v138) (y := main_v143) rfl (by decide) (by decide) (by decide) (by decide) X (E_main_v141 X) (E_main_v142 X) (E_main_v138 X)
theorem E_main_cst_23 (X : Valuation τ sig (Elt Ideal)) : after OPS X (Proc.devRef .tc main_cst_23) = val_main_cst_23 (F := Ideal) :=
  Cert.LibFoldSteps.step_nullary HW 173 (y := main_cst_23) rfl (by decide) X
theorem E_main_v144 (X : Valuation τ sig (Elt Ideal)) : after OPS X (Proc.devRef .tc main_v144) = val_main_v144 (F := Ideal) :=
  Cert.LibFoldSteps.step_unary HW 174 (x := main_cst_23) (y := main_v144) rfl (by decide) (by decide) X (E_main_cst_23 X)
theorem E_main_cst_24 (X : Valuation τ sig (Elt Ideal)) : after OPS X (Proc.devRef .tc main_cst_24) = val_main_cst_24 (F := Ideal) :=
  Cert.LibFoldSteps.step_nullary HW 175 (y := main_cst_24) rfl (by decide) X
theorem E_main_v145 (X : Valuation τ sig (Elt Ideal)) : after OPS X (Proc.devRef .tc main_v145) = val_main_v145 (F := Ideal) :=
  Cert.LibFoldSteps.step_unary HW 176 (x := main_cst_24) (y := main_v145) rfl (by decide) (by decide) X (E_main_cst_24 X)
theorem E_main_v146 (X : Valuation τ sig (Elt Ideal)) : after OPS X (Proc.devRef .tc main_v146) = val_main_v146 (F := Ideal) (X (Proc.devRef .tc main_arg2)) :=
  Cert.LibFoldSteps.step_unary HW 177 (x := main_v140) (y := main_v146) rfl (by decide) (by decide) X (E_main_v140 X)
theorem E_main_v147 (X : Valuation τ sig (Elt Ideal)) : after OPS X (Proc.devRef .tc main_v147) = val_main_v147 (F := Ideal) (X (Proc.devRef .tc main_arg2)) :=
  Cert.LibFoldSteps.step_ternary HW 178 (c := main_v145) (a := main_v146) (b := main_v144) (y := main_v147) rfl (by decide) (by decide) (by decide) (by decide) X (E_main_v145 X) (E_main_v146 X) (E_main_v144 X)
theorem E_main_cst_25 (X : Valuation τ sig (Elt Ideal)) : after OPS X (Proc.devRef .tc main_cst_25) = val_main_cst_25 (F := Ideal) :=
  Cert.LibFoldSteps.step_nullary HW 179 (y := main_cst_25) rfl (by decide) X
theorem E_main_v148 (X : Valuation τ sig (Elt Ideal)) : after OPS X (Proc.devRef .tc main_v148) = val_main_v148 (F := Ideal) :=
  Cert.LibFoldSteps.step_unary HW 180 (x := main_cst_25) (y := main_v148) rfl (by decide) (by decide) X (E_main_cst_25 X)
theorem E_main_v149 (X : Valuation τ sig (Elt Ideal)) : after OPS X (Proc.devRef .tc main_v149) = val_main_v149 (F := Ideal) (X (Proc.devRef .tc main_arg2)) :=
  Cert.LibFoldSteps.step_binary HW 181 (a := main_v147) (b := main_v148) (y := main_v149) rfl (by decide) (by decide) (by decide) X (E_main_v147 X) (E_main_v148 X)
theorem E_main_v150 (X : Valuation τ sig (Elt Ideal)) : after OPS X (Proc.devRef .tc main_v150) = val_main_v150 (F := Ideal) (X (Proc.devRef .tc main_arg2)) :=
  Cert.LibFoldSteps.step_unary HW 182 (x := main_v149) (y := main_v150) rfl (by decide) (by decide) X (E_main_v149 X)
theorem E_main_v151 (X : Valuation τ sig (Elt Ideal)) : after OPS X (Proc.devRef .tc main_v151) = val_main_v151 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 183 (a := main_v143) (b := main_v150) (y := main_v151) rfl (by decide) (by decide) (by decide) X (E_main_v143 X) (E_main_v150 X)
theorem E_main_v152 (X : Valuation τ sig (Elt Ideal)) : after OPS X (Proc.devRef .tc main_v152) = val_main_v152 (F := Ideal) (X (Proc.devRef .tc main_arg3)) :=
  Cert.LibFoldSteps.step_unary HW 184 (x := main_arg3) (y := main_v152) rfl (by decide) (by decide) X (E_main_arg3 X)
theorem E_main_v153 (X : Valuation τ sig (Elt Ideal)) : after OPS X (Proc.devRef .tc main_v153) = val_main_v153 (F := Ideal) (X (Proc.devRef .tc main_arg3)) :=
  step_reshape HW 185 (x := main_v152) (y := main_v153) rfl (by decide) (by decide) X (E_main_v152 X)
theorem E_main_c_26 (X : Valuation τ sig (Elt Ideal)) : after OPS X (Proc.devRef .tc main_c_26) = val_main_c_26 (F := Ideal) :=
  Cert.LibFoldSteps.step_nullary HW 186 (y := main_c_26) rfl (by decide) X
theorem E_main_v154 (X : Valuation τ sig (Elt Ideal)) : after OPS X (Proc.devRef .tc main_v154) = val_main_v154 (F := Ideal) :=
  Cert.LibFoldSteps.step_unary HW 187 (x := main_c_26) (y := main_v154) rfl (by decide) (by decide) X (E_main_c_26 X)
theorem E_main_v155 (X : Valuation τ sig (Elt Ideal)) : after OPS X (Proc.devRef .tc main_v155) = val_main_v155 (F := Ideal) (X (Proc.devRef .tc main_arg3)) :=
  Cert.LibFoldSteps.step_binary HW 188 (a := main_v153) (b := main_v154) (y := main_v155) rfl (by decide) (by decide) (by decide) X (E_main_v153 X) (E_main_v154 X)
theorem E_main_c_27 (X : Valuation τ sig (Elt Ideal)) : after OPS X (Proc.devRef .tc main_c_27) = val_main_c_27 (F := Ideal) :=
  Cert.LibFoldSteps.step_nullary HW 189 (y := main_c_27) rfl (by decide) X
theorem E_main_v156 (X : Valuation τ sig (Elt Ideal)) : after OPS X (Proc.devRef .tc main_v156) = val_main_v156 (F := Ideal) :=
  Cert.LibFoldSteps.step_unary HW 190 (x := main_c_27) (y := main_v156) rfl (by decide) (by decide) X (E_main_c_27 X)
theorem E_main_v157 (X : Valuation τ sig (Elt Ideal)) : after OPS X (Proc.devRef .tc main_v157) = val_main_v157 (F := Ideal) (X (Proc.devRef .tc main_arg3)) :=
  Cert.LibFoldSteps.step_binary HW 191 (a := main_v153) (b := main_v156) (y := main_v157) rfl (by decide) (by decide) (by decide) X (E_main_v153 X) (E_main_v156 X)
theorem E_main_v158 (X : Valuation τ sig (Elt Ideal)) : after OPS X (Proc.devRef .tc main_v158) = val_main_v158 (F := Ideal) (X (Proc.devRef .tc main_arg3)) :=
  Cert.LibFoldSteps.step_ternary HW 192 (c := main_v155) (a := main_v157) (b := main_v153) (y := main_v158) rfl (by decide) (by decide) (by decide) (by decide) X (E_main_v155 X) (E_main_v157 X) (E_main_v153 X)
theorem E_main_v159 (X : Valuation τ sig (Elt Ideal)) : after OPS X (Proc.devRef .tc main_v159) = val_main_v159 (F := Ideal) (X (Proc.devRef .tc main_arg3)) :=
  Cert.LibFoldSteps.step_unary HW 193 (x := main_v158) (y := main_v159) rfl (by decide) (by decide) X (E_main_v158 X)
theorem E_main_v160 (X : Valuation τ sig (Elt Ideal)) : after OPS X (Proc.devRef .tc main_v160) = val_main_v160 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 194 (a := main_v129) (b := main_v159) (y := main_v160) rfl (by decide) (by decide) (by decide) X (E_main_v129 X) (E_main_v159 X)
theorem E_main_v161 (X : Valuation τ sig (Elt Ideal)) : after OPS X (Proc.devRef .tc main_v161) = val_main_v161 (F := Ideal) (X (Proc.devRef .tc main_arg3)) :=
  Cert.LibFoldSteps.step_unary HW 195 (x := main_arg3) (y := main_v161) rfl (by decide) (by decide) X (E_main_arg3 X)
theorem E_main_v162 (X : Valuation τ sig (Elt Ideal)) : after OPS X (Proc.devRef .tc main_v162) = val_main_v162 (F := Ideal) (X (Proc.devRef .tc main_arg3)) :=
  step_reshape HW 196 (x := main_v161) (y := main_v162) rfl (by decide) (by decide) X (E_main_v161 X)
theorem E_main_cst_28 (X : Valuation τ sig (Elt Ideal)) : after OPS X (Proc.devRef .tc main_cst_28) = val_main_cst_28 (F := Ideal) :=
  Cert.LibFoldSteps.step_nullary HW 197 (y := main_cst_28) rfl (by decide) X
theorem E_main_v163 (X : Valuation τ sig (Elt Ideal)) : after OPS X (Proc.devRef .tc main_v163) = val_main_v163 (F := Ideal) :=
  Cert.LibFoldSteps.step_unary HW 198 (x := main_cst_28) (y := main_v163) rfl (by decide) (by decide) X (E_main_cst_28 X)
theorem E_main_v164 (X : Valuation τ sig (Elt Ideal)) : after OPS X (Proc.devRef .tc main_v164) = val_main_v164 (F := Ideal) (X (Proc.devRef .tc main_arg3)) :=
  Cert.LibFoldSteps.step_unary HW 199 (x := main_v162) (y := main_v164) rfl (by decide) (by decide) X (E_main_v162 X)
theorem E_main_v165 (X : Valuation τ sig (Elt Ideal)) : after OPS X (Proc.devRef .tc main_v165) = val_main_v165 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_ternary HW 200 (c := main_v163) (a := main_v164) (b := main_v160) (y := main_v165) rfl (by decide) (by decide) (by decide) (by decide) X (E_main_v163 X) (E_main_v164 X) (E_main_v160 X)
theorem E_main_cst_29 (X : Valuation τ sig (Elt Ideal)) : after OPS X (Proc.devRef .tc main_cst_29) = val_main_cst_29 (F := Ideal) :=
  Cert.LibFoldSteps.step_nullary HW 201 (y := main_cst_29) rfl (by decide) X
theorem E_main_v166 (X : Valuation τ sig (Elt Ideal)) : after OPS X (Proc.devRef .tc main_v166) = val_main_v166 (F := Ideal) :=
  Cert.LibFoldSteps.step_unary HW 202 (x := main_cst_29) (y := main_v166) rfl (by decide) (by decide) X (E_main_cst_29 X)
theorem E_main_cst_30 (X : Valuation τ sig (Elt Ideal)) : after OPS X (Proc.devRef .tc main_cst_30) = val_main_cst_30 (F := Ideal) :=
  Cert.LibFoldSteps.step_nullary HW 203 (y := main_cst_30) rfl (by decide) X
theorem E_main_v167 (X : Valuation τ sig (Elt Ideal)) : after OPS X (Proc.devRef .tc main_v167) = val_main_v167 (F := Ideal) :=
  Cert.LibFoldSteps.step_unary HW 204 (x := main_cst_30) (y := main_v167) rfl (by decide) (by decide) X (E_main_cst_30 X)
theorem E_main_v168 (X : Valuation τ sig (Elt Ideal)) : after OPS X (Proc.devRef .tc main_v168) = val_main_v168 (F := Ideal) (X (Proc.devRef .tc main_arg3)) :=
  Cert.LibFoldSteps.step_unary HW 205 (x := main_v162) (y := main_v168) rfl (by decide) (by decide) X (E_main_v162 X)
theorem E_main_v169 (X : Valuation τ sig (Elt Ideal)) : after OPS X (Proc.devRef .tc main_v169) = val_main_v169 (F := Ideal) (X (Proc.devRef .tc main_arg3)) :=
  Cert.LibFoldSteps.step_ternary HW 206 (c := main_v167) (a := main_v168) (b := main_v166) (y := main_v169) rfl (by decide) (by decide) (by decide) (by decide) X (E_main_v167 X) (E_main_v168 X) (E_main_v166 X)
theorem E_main_cst_31 (X : Valuation τ sig (Elt Ideal)) : after OPS X (Proc.devRef .tc main_cst_31) = val_main_cst_31 (F := Ideal) :=
  Cert.LibFoldSteps.step_nullary HW 207 (y := main_cst_31) rfl (by decide) X
theorem E_main_v170 (X : Valuation τ sig (Elt Ideal)) : after OPS X (Proc.devRef .tc main_v170) = val_main_v170 (F := Ideal) :=
  Cert.LibFoldSteps.step_unary HW 208 (x := main_cst_31) (y := main_v170) rfl (by decide) (by decide) X (E_main_cst_31 X)
theorem E_main_v171 (X : Valuation τ sig (Elt Ideal)) : after OPS X (Proc.devRef .tc main_v171) = val_main_v171 (F := Ideal) (X (Proc.devRef .tc main_arg3)) :=
  Cert.LibFoldSteps.step_binary HW 209 (a := main_v169) (b := main_v170) (y := main_v171) rfl (by decide) (by decide) (by decide) X (E_main_v169 X) (E_main_v170 X)
theorem E_main_v172 (X : Valuation τ sig (Elt Ideal)) : after OPS X (Proc.devRef .tc main_v172) = val_main_v172 (F := Ideal) (X (Proc.devRef .tc main_arg3)) :=
  Cert.LibFoldSteps.step_unary HW 210 (x := main_v171) (y := main_v172) rfl (by decide) (by decide) X (E_main_v171 X)
theorem E_main_v173 (X : Valuation τ sig (Elt Ideal)) : after OPS X (Proc.devRef .tc main_v173) = val_main_v173 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 211 (a := main_v165) (b := main_v172) (y := main_v173) rfl (by decide) (by decide) (by decide) X (E_main_v165 X) (E_main_v172 X)
theorem E_main_v174 (X : Valuation τ sig (Elt Ideal)) : after OPS X (Proc.devRef .tc main_v174) = val_main_v174 (F := Ideal) (X (Proc.devRef .tc main_arg4)) :=
  Cert.LibFoldSteps.step_unary HW 212 (x := main_arg4) (y := main_v174) rfl (by decide) (by decide) X (E_main_arg4 X)
theorem E_main_v175 (X : Valuation τ sig (Elt Ideal)) : after OPS X (Proc.devRef .tc main_v175) = val_main_v175 (F := Ideal) (X (Proc.devRef .tc main_arg4)) :=
  step_reshape HW 213 (x := main_v174) (y := main_v175) rfl (by decide) (by decide) X (E_main_v174 X)
theorem E_main_v176 (X : Valuation τ sig (Elt Ideal)) : after OPS X (Proc.devRef .tc main_v176) = val_main_v176 (F := Ideal) (X (Proc.devRef .tc main_arg4)) :=
  Cert.LibFoldSteps.step_unary HW 214 (x := main_v175) (y := main_v176) rfl (by decide) (by decide) X (E_main_v175 X)
theorem E_main_v177 (X : Valuation τ sig (Elt Ideal)) : after OPS X (Proc.devRef .tc main_v177) = val_main_v177 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 215 (a := main_v151) (b := main_v176) (y := main_v177) rfl (by decide) (by decide) (by decide) X (E_main_v151 X) (E_main_v176 X)
theorem E_main_v178 (X : Valuation τ sig (Elt Ideal)) : after OPS X (Proc.devRef .tc main_v178) = val_main_v178 (F := Ideal) (X (Proc.devRef .tc main_arg5)) :=
  Cert.LibFoldSteps.step_unary HW 216 (x := main_arg5) (y := main_v178) rfl (by decide) (by decide) X (E_main_arg5 X)
theorem E_main_v179 (X : Valuation τ sig (Elt Ideal)) : after OPS X (Proc.devRef .tc main_v179) = val_main_v179 (F := Ideal) (X (Proc.devRef .tc main_arg5)) :=
  step_reshape HW 217 (x := main_v178) (y := main_v179) rfl (by decide) (by decide) X (E_main_v178 X)
theorem E_main_v180 (X : Valuation τ sig (Elt Ideal)) : after OPS X (Proc.devRef .tc main_v180) = val_main_v180 (F := Ideal) (X (Proc.devRef .tc main_arg5)) :=
  Cert.LibFoldSteps.step_unary HW 218 (x := main_v179) (y := main_v180) rfl (by decide) (by decide) X (E_main_v179 X)
theorem E_main_v181 (X : Valuation τ sig (Elt Ideal)) : after OPS X (Proc.devRef .tc main_v181) = val_main_v181 (F := Ideal) (X (Proc.devRef .tc main_arg5)) :=
  Cert.LibFoldSteps.step_unary HW 219 (x := main_v180) (y := main_v181) rfl (by decide) (by decide) X (E_main_v180 X)
theorem E_main_v182 (X : Valuation τ sig (Elt Ideal)) : after OPS X (Proc.devRef .tc main_v182) = val_main_v182 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 220 (a := main_v177) (b := main_v181) (y := main_v182) rfl (by decide) (by decide) (by decide) X (E_main_v177 X) (E_main_v181 X)
theorem E_main_v183 (X : Valuation τ sig (Elt Ideal)) : after OPS X (Proc.devRef .tc main_v183) = val_main_v183 (F := Ideal) (X (Proc.devRef .tc main_arg6)) :=
  Cert.LibFoldSteps.step_unary HW 221 (x := main_arg6) (y := main_v183) rfl (by decide) (by decide) X (E_main_arg6 X)
theorem E_main_v184 (X : Valuation τ sig (Elt Ideal)) : after OPS X (Proc.devRef .tc main_v184) = val_main_v184 (F := Ideal) (X (Proc.devRef .tc main_arg6)) :=
  step_reshape HW 222 (x := main_v183) (y := main_v184) rfl (by decide) (by decide) X (E_main_v183 X)
theorem E_main_v185 (X : Valuation τ sig (Elt Ideal)) : after OPS X (Proc.devRef .tc main_v185) = val_main_v185 (F := Ideal) (X (Proc.devRef .tc main_arg6)) :=
  Cert.LibFoldSteps.step_unary HW 223 (x := main_v184) (y := main_v185) rfl (by decide) (by decide) X (E_main_v184 X)
theorem E_main_v186 (X : Valuation τ sig (Elt Ideal)) : after OPS X (Proc.devRef .tc main_v186) = val_main_v186 (F := Ideal) (X (Proc.devRef .tc main_arg0)) (X (Proc.devRef .tc main_arg1)) (X (Proc.devRef .tc main_arg2)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 224 (a := main_v129) (b := main_v185) (y := main_v186) rfl (by decide) (by decide) (by decide) X (E_main_v129 X) (E_main_v185 X)
theorem E_main_v187 (X : Valuation τ sig (Elt Ideal)) : after OPS X (Proc.devRef .tc main_v187) = val_main_v187 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 225 (a := main_v182) (b := main_v186) (y := main_v187) rfl (by decide) (by decide) (by decide) X (E_main_v182 X) (E_main_v186 X)
theorem E_main_v188 (X : Valuation τ sig (Elt Ideal)) : after OPS X (Proc.devRef .tc main_v188) = val_main_v188 (F := Ideal) (X (Proc.devRef .tc main_arg4)) :=
  Cert.LibFoldSteps.step_unary HW 226 (x := main_arg4) (y := main_v188) rfl (by decide) (by decide) X (E_main_arg4 X)
theorem E_main_v189 (X : Valuation τ sig (Elt Ideal)) : after OPS X (Proc.devRef .tc main_v189) = val_main_v189 (F := Ideal) (X (Proc.devRef .tc main_arg4)) :=
  step_reshape HW 227 (x := main_v188) (y := main_v189) rfl (by decide) (by decide) X (E_main_v188 X)
theorem E_main_v190 (X : Valuation τ sig (Elt Ideal)) : after OPS X (Proc.devRef .tc main_v190) = val_main_v190 (F := Ideal) (X (Proc.devRef .tc main_arg4)) :=
  Cert.LibFoldSteps.step_unary HW 228 (x := main_v189) (y := main_v190) rfl (by decide) (by decide) X (E_main_v189 X)
theorem E_main_v191 (X : Valuation τ sig (Elt Ideal)) : after OPS X (Proc.devRef .tc main_v191) = val_main_v191 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 229 (a := main_v173) (b := main_v190) (y := main_v191) rfl (by decide) (by decide) (by decide) X (E_main_v173 X) (E_main_v190 X)
theorem E_main_v192 (X : Valuation τ sig (Elt Ideal)) : after OPS X (Proc.devRef .tc main_v192) = val_main_v192 (F := Ideal) (X (Proc.devRef .tc main_arg5)) :=
  Cert.LibFoldSteps.step_unary HW 230 (x := main_arg5) (y := main_v192) rfl (by decide) (by decide) X (E_main_arg5 X)
theorem E_main_v193 (X : Valuation τ sig (Elt Ideal)) : after OPS X (Proc.devRef .tc main_v193) = val_main_v193 (F := Ideal) (X (Proc.devRef .tc main_arg5)) :=
  step_reshape HW 231 (x := main_v192) (y := main_v193) rfl (by decide) (by decide) X (E_main_v192 X)
theorem E_main_v194 (X : Valuation τ sig (Elt Ideal)) : after OPS X (Proc.devRef .tc main_v194) = val_main_v194 (F := Ideal) (X (Proc.devRef .tc main_arg5)) :=
  Cert.LibFoldSteps.step_unary HW 232 (x := main_v193) (y := main_v194) rfl (by decide) (by decide) X (E_main_v193 X)
theorem E_main_v195 (X : Valuation τ sig (Elt Ideal)) : after OPS X (Proc.devRef .tc main_v195) = val_main_v195 (F := Ideal) (X (Proc.devRef .tc main_arg5)) :=
  Cert.LibFoldSteps.step_unary HW 233 (x := main_v194) (y := main_v195) rfl (by decide) (by decide) X (E_main_v194 X)
theorem E_main_v196 (X : Valuation τ sig (Elt Ideal)) : after OPS X (Proc.devRef .tc main_v196) = val_main_v196 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 234 (a := main_v191) (b := main_v195) (y := main_v196) rfl (by decide) (by decide) (by decide) X (E_main_v191 X) (E_main_v195 X)
theorem E_main_v197 (X : Valuation τ sig (Elt Ideal)) : after OPS X (Proc.devRef .tc main_v197) = val_main_v197 (F := Ideal) (X (Proc.devRef .tc main_arg6)) :=
  Cert.LibFoldSteps.step_unary HW 235 (x := main_arg6) (y := main_v197) rfl (by decide) (by decide) X (E_main_arg6 X)
theorem E_main_v198 (X : Valuation τ sig (Elt Ideal)) : after OPS X (Proc.devRef .tc main_v198) = val_main_v198 (F := Ideal) (X (Proc.devRef .tc main_arg6)) :=
  step_reshape HW 236 (x := main_v197) (y := main_v198) rfl (by decide) (by decide) X (E_main_v197 X)
theorem E_main_v199 (X : Valuation τ sig (Elt Ideal)) : after OPS X (Proc.devRef .tc main_v199) = val_main_v199 (F := Ideal) (X (Proc.devRef .tc main_arg6)) :=
  Cert.LibFoldSteps.step_unary HW 237 (x := main_v198) (y := main_v199) rfl (by decide) (by decide) X (E_main_v198 X)
theorem E_main_v200 (X : Valuation τ sig (Elt Ideal)) : after OPS X (Proc.devRef .tc main_v200) = val_main_v200 (F := Ideal) (X (Proc.devRef .tc main_arg0)) (X (Proc.devRef .tc main_arg1)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 238 (a := main_v100) (b := main_v199) (y := main_v200) rfl (by decide) (by decide) (by decide) X (E_main_v100 X) (E_main_v199 X)
theorem E_main_v201 (X : Valuation τ sig (Elt Ideal)) : after OPS X (Proc.devRef .tc main_v201) = val_main_v201 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 239 (a := main_v196) (b := main_v200) (y := main_v201) rfl (by decide) (by decide) (by decide) X (E_main_v196 X) (E_main_v200 X)
theorem E_main_v202 (X : Valuation τ sig (Elt Ideal)) : after OPS X (Proc.devRef .tc main_v202) = val_main_v202 (F := Ideal) (X (Proc.devRef .tc main_arg7)) :=
  Cert.LibFoldSteps.step_unary HW 240 (x := main_arg7) (y := main_v202) rfl (by decide) (by decide) X (E_main_arg7 X)
theorem E_main_v203 (X : Valuation τ sig (Elt Ideal)) : after OPS X (Proc.devRef .tc main_v203) = val_main_v203 (F := Ideal) (X (Proc.devRef .tc main_arg7)) :=
  step_reshape HW 241 (x := main_v202) (y := main_v203) rfl (by decide) (by decide) X (E_main_v202 X)
theorem E_main_v204 (X : Valuation τ sig (Elt Ideal)) : after OPS X (Proc.devRef .tc main_v204) = val_main_v204 (F := Ideal) (X (Proc.devRef .tc main_arg8)) :=
  Cert.LibFoldSteps.step_unary HW 242 (x := main_arg8) (y := main_v204) rfl (by decide) (by decide) X (E_main_arg8 X)
theorem E_main_v205 (X : Valuation τ sig (Elt Ideal)) : after OPS X (Proc.devRef .tc main_v205) = val_main_v205 (F := Ideal) (X (Proc.devRef .tc main_arg8)) :=
  step_reshape HW 243 (x := main_v204) (y := main_v205) rfl (by decide) (by decide) X (E_main_v204 X)
theorem E_main_cst_32 (X : Valuation τ sig (Elt Ideal)) : after OPS X (Proc.devRef .tc main_cst_32) = val_main_cst_32 (F := Ideal) :=
  Cert.LibFoldSteps.step_nullary HW 244 (y := main_cst_32) rfl (by decide) X
theorem E_main_v206 (X : Valuation τ sig (Elt Ideal)) : after OPS X (Proc.devRef .tc main_v206) = val_main_v206 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 245 (a := main_v201) (b := main_cst_32) (y := main_v206) rfl (by decide) (by decide) (by decide) X (E_main_v201 X) (E_main_cst_32 X)
theorem E_main_v207 (X : Valuation τ sig (Elt Ideal)) : after OPS X (Proc.devRef .tc main_v207) = val_main_v207 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 246 (x := main_v206) (y := main_v207) rfl (by decide) (by decide) X (E_main_v206 X)
theorem E_main_cst_33 (X : Valuation τ sig (Elt Ideal)) : after OPS X (Proc.devRef .tc main_cst_33) = val_main_cst_33 (F := Ideal) :=
  Cert.LibFoldSteps.step_nullary HW 247 (y := main_cst_33) rfl (by decide) X
theorem E_main_v208 (X : Valuation τ sig (Elt Ideal)) : after OPS X (Proc.devRef .tc main_v208) = val_main_v208 (F := Ideal) :=
  Cert.LibFoldSteps.step_unary HW 248 (x := main_cst_33) (y := main_v208) rfl (by decide) (by decide) X (E_main_cst_33 X)
theorem E_main_v209 (X : Valuation τ sig (Elt Ideal)) : after OPS X (Proc.devRef .tc main_v209) = val_main_v209 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 249 (a := main_v207) (b := main_v208) (y := main_v209) rfl (by decide) (by decide) (by decide) X (E_main_v207 X) (E_main_v208 X)
theorem E_main_v210 (X : Valuation τ sig (Elt Ideal)) : after OPS X (Proc.devRef .tc main_v210) = val_main_v210 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 250 (x := main_v209) (y := main_v210) rfl (by decide) (by decide) X (E_main_v209 X)
theorem E_main_v211 (X : Valuation τ sig (Elt Ideal)) : after OPS X (Proc.devRef .tc main_v211) = val_main_v211 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 251 (a := main_v201) (b := main_v210) (y := main_v211) rfl (by decide) (by decide) (by decide) X (E_main_v201 X) (E_main_v210 X)
theorem E_main_v212 (X : Valuation τ sig (Elt Ideal)) : after OPS X (Proc.devRef .tc main_v212) = val_main_v212 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 252 (a := main_v211) (b := main_v211) (y := main_v212) rfl (by decide) (by decide) (by decide) X (E_main_v211 X) (E_main_v211 X)
theorem E_main_cst_34 (X : Valuation τ sig (Elt Ideal)) : after OPS X (Proc.devRef .tc main_cst_34) = val_main_cst_34 (F := Ideal) :=
  Cert.LibFoldSteps.step_nullary HW 253 (y := main_cst_34) rfl (by decide) X
theorem E_main_v213 (X : Valuation τ sig (Elt Ideal)) : after OPS X (Proc.devRef .tc main_v213) = val_main_v213 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 254 (a := main_v212) (b := main_cst_34) (y := main_v213) rfl (by decide) (by decide) (by decide) X (E_main_v212 X) (E_main_cst_34 X)
theorem E_main_v214 (X : Valuation τ sig (Elt Ideal)) : after OPS X (Proc.devRef .tc main_v214) = val_main_v214 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 255 (x := main_v213) (y := main_v214) rfl (by decide) (by decide) X (E_main_v213 X)
theorem E_main_cst_35 (X : Valuation τ sig (Elt Ideal)) : after OPS X (Proc.devRef .tc main_cst_35) = val_main_cst_35 (F := Ideal) :=
  Cert.LibFoldSteps.step_nullary HW 256 (y := main_cst_35) rfl (by decide) X
theorem E_main_v215 (X : Valuation τ sig (Elt Ideal)) : after OPS X (Proc.devRef .tc main_v215) = val_main_v215 (F := Ideal) :=
  Cert.LibFoldSteps.step_unary HW 257 (x := main_cst_35) (y := main_v215) rfl (by decide) (by decide) X (E_main_cst_35 X)
theorem E_main_v216 (X : Valuation τ sig (Elt Ideal)) : after OPS X (Proc.devRef .tc main_v216) = val_main_v216 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 258 (a := main_v214) (b := main_v215) (y := main_v216) rfl (by decide) (by decide) (by decide) X (E_main_v214 X) (E_main_v215 X)
theorem E_main_v217 (X : Valuation τ sig (Elt Ideal)) : after OPS X (Proc.devRef .tc main_v217) = val_main_v217 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 259 (x := main_v209) (y := main_v217) rfl (by decide) (by decide) X (E_main_v209 X)
theorem E_main_v218 (X : Valuation τ sig (Elt Ideal)) : after OPS X (Proc.devRef .tc main_v218) = val_main_v218 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 260 (a := main_v201) (b := main_v217) (y := main_v218) rfl (by decide) (by decide) (by decide) X (E_main_v201 X) (E_main_v217 X)
theorem E_main_cst_36 (X : Valuation τ sig (Elt Ideal)) : after OPS X (Proc.devRef .tc main_cst_36) = val_main_cst_36 (F := Ideal) :=
  Cert.LibFoldSteps.step_nullary HW 261 (y := main_cst_36) rfl (by decide) X
theorem E_main_v219 (X : Valuation τ sig (Elt Ideal)) : after OPS X (Proc.devRef .tc main_v219) = val_main_v219 (F := Ideal) :=
  Cert.LibFoldSteps.step_unary HW 262 (x := main_cst_36) (y := main_v219) rfl (by decide) (by decide) X (E_main_cst_36 X)
theorem E_main_v220 (X : Valuation τ sig (Elt Ideal)) : after OPS X (Proc.devRef .tc main_v220) = val_main_v220 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 263 (a := main_v216) (b := main_v219) (y := main_v220) rfl (by decide) (by decide) (by decide) X (E_main_v216 X) (E_main_v219 X)
theorem E_main_v221 (X : Valuation τ sig (Elt Ideal)) : after OPS X (Proc.devRef .tc main_v221) = val_main_v221 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 264 (x := main_v220) (y := main_v221) rfl (by decide) (by decide) X (E_main_v220 X)
theorem E_main_v222 (X : Valuation τ sig (Elt Ideal)) : after OPS X (Proc.devRef .tc main_v222) = val_main_v222 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 265 (x := main_v221) (y := main_v222) rfl (by decide) (by decide) X (E_main_v221 X)
theorem E_main_v223 (X : Valuation τ sig (Elt Ideal)) : after OPS X (Proc.devRef .tc main_v223) = val_main_v223 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 266 (a := main_v218) (b := main_v222) (y := main_v223) rfl (by decide) (by decide) (by decide) X (E_main_v218 X) (E_main_v222 X)
theorem E_main_v224 (X : Valuation τ sig (Elt Ideal)) : after OPS X (Proc.devRef .tc main_v224) = val_main_v224 (F := Ideal) (X (Proc.devRef .tc main_arg7)) :=
  Cert.LibFoldSteps.step_unary HW 267 (x := main_v203) (y := main_v224) rfl (by decide) (by decide) X (E_main_v203 X)
theorem E_main_v225 (X : Valuation τ sig (Elt Ideal)) : after OPS X (Proc.devRef .tc main_v225) = val_main_v225 (F := Ideal) (X (Proc.devRef .tc main_arg7)) :=
  Cert.LibFoldSteps.step_unary HW 268 (x := main_v224) (y := main_v225) rfl (by decide) (by decide) X (E_main_v224 X)
theorem E_main_v226 (X : Valuation τ sig (Elt Ideal)) : after OPS X (Proc.devRef .tc main_v226) = val_main_v226 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 269 (a := main_v223) (b := main_v225) (y := main_v226) rfl (by decide) (by decide) (by decide) X (E_main_v223 X) (E_main_v225 X)
theorem E_main_v227 (X : Valuation τ sig (Elt Ideal)) : after OPS X (Proc.devRef .tc main_v227) = val_main_v227 (F := Ideal) (X (Proc.devRef .tc main_arg8)) :=
  Cert.LibFoldSteps.step_unary HW 270 (x := main_v205) (y := main_v227) rfl (by decide) (by decide) X (E_main_v205 X)
theorem E_main_v228 (X : Valuation τ sig (Elt Ideal)) : after OPS X (Proc.devRef .tc main_v228) = val_main_v228 (F := Ideal) (X (Proc.devRef .tc main_arg8)) :=
  Cert.LibFoldSteps.step_unary HW 271 (x := main_v227) (y := main_v228) rfl (by decide) (by decide) X (E_main_v227 X)
theorem E_main_v229 (X : Valuation τ sig (Elt Ideal)) : after OPS X (Proc.devRef .tc main_v229) = val_main_v229 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 272 (a := main_v226) (b := main_v228) (y := main_v229) rfl (by decide) (by decide) (by decide) X (E_main_v226 X) (E_main_v228 X)
theorem E_main_call2_cst (X : Valuation τ sig (Elt Ideal)) : after OPS X (Proc.devRef .tc main_call2_cst) = val_main_call2_cst (F := Ideal) :=
  Cert.LibFoldSteps.step_nullaryT HW 273 (ry := main_call2_cst) rfl (by decide) X
theorem E_main_call2_v0 (X : Valuation τ sig (Elt Ideal)) : after OPS X (Proc.devRef .tc main_call2_v0) = val_main_call2_v0 (F := Ideal) :=
  Cert.LibFoldSteps.step_unaryT HW 274 (rx := main_call2_cst) (ry := main_call2_v0) rfl (by decide) (by decide) X (E_main_call2_cst X)
theorem E_main_v230 (X : Valuation τ sig (Elt Ideal)) : after OPS X (Proc.devRef .tc main_v230) = val_main_v230 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binaryT HW 275 (ra := main_v229) (rb := main_call2_v0) (ry := main_v230) rfl (by decide) (by decide) (by decide) X (E_main_v229 X) (E_main_call2_v0 X)
theorem E_main_v231 (X : Valuation τ sig (Elt Ideal)) : after OPS X (Proc.devRef .tc main_v231) = val_main_v231 (F := Ideal) (X (Proc.devRef .tc main_arg7)) :=
  Cert.LibFoldSteps.step_unary HW 276 (x := main_arg7) (y := main_v231) rfl (by decide) (by decide) X (E_main_arg7 X)
theorem E_main_v232 (X : Valuation τ sig (Elt Ideal)) : after OPS X (Proc.devRef .tc main_v232) = val_main_v232 (F := Ideal) (X (Proc.devRef .tc main_arg7)) :=
  step_reshape HW 277 (x := main_v231) (y := main_v232) rfl (by decide) (by decide) X (E_main_v231 X)
theorem E_main_v233 (X : Valuation τ sig (Elt Ideal)) : after OPS X (Proc.devRef .tc main_v233) = val_main_v233 (F := Ideal) (X (Proc.devRef .tc main_arg8)) :=
  Cert.LibFoldSteps.step_unary HW 278 (x := main_arg8) (y := main_v233) rfl (by decide) (by decide) X (E_main_arg8 X)
theorem E_main_v234 (X : Valuation τ sig (Elt Ideal)) : after OPS X (Proc.devRef .tc main_v234) = val_main_v234 (F := Ideal) (X (Proc.devRef .tc main_arg8)) :=
  step_reshape HW 279 (x := main_v233) (y := main_v234) rfl (by decide) (by decide) X (E_main_v233 X)
theorem E_main_cst_37 (X : Valuation τ sig (Elt Ideal)) : after OPS X (Proc.devRef .tc main_cst_37) = val_main_cst_37 (F := Ideal) :=
  Cert.LibFoldSteps.step_nullary HW 280 (y := main_cst_37) rfl (by decide) X
theorem E_main_v235 (X : Valuation τ sig (Elt Ideal)) : after OPS X (Proc.devRef .tc main_v235) = val_main_v235 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 281 (a := main_v187) (b := main_cst_37) (y := main_v235) rfl (by decide) (by decide) (by decide) X (E_main_v187 X) (E_main_cst_37 X)
theorem E_main_v236 (X : Valuation τ sig (Elt Ideal)) : after OPS X (Proc.devRef .tc main_v236) = val_main_v236 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 282 (x := main_v235) (y := main_v236) rfl (by decide) (by decide) X (E_main_v235 X)
theorem E_main_cst_38 (X : Valuation τ sig (Elt Ideal)) : after OPS X (Proc.devRef .tc main_cst_38) = val_main_cst_38 (F := Ideal) :=
  Cert.LibFoldSteps.step_nullary HW 283 (y := main_cst_38) rfl (by decide) X
theorem E_main_v237 (X : Valuation τ sig (Elt Ideal)) : after OPS X (Proc.devRef .tc main_v237) = val_main_v237 (F := Ideal) :=
  Cert.LibFoldSteps.step_unary HW 284 (x := main_cst_38) (y := main_v237) rfl (by decide) (by decide) X (E_main_cst_38 X)
theorem E_main_v238 (X : Valuation τ sig (Elt Ideal)) : after OPS X (Proc.devRef .tc main_v238) = val_main_v238 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 285 (a := main_v236) (b := main_v237) (y := main_v238) rfl (by decide) (by decide) (by decide) X (E_main_v236 X) (E_main_v237 X)
theorem E_main_v239 (X : Valuation τ sig (Elt Ideal)) : after OPS X (Proc.devRef .tc main_v239) = val_main_v239 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 286 (x := main_v238) (y := main_v239) rfl (by decide) (by decide) X (E_main_v238 X)
theorem E_main_v240 (X : Valuation τ sig (Elt Ideal)) : after OPS X (Proc.devRef .tc main_v240) = val_main_v240 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 287 (a := main_v187) (b := main_v239) (y := main_v240) rfl (by decide) (by decide) (by decide) X (E_main_v187 X) (E_main_v239 X)
theorem E_main_v241 (X : Valuation τ sig (Elt Ideal)) : after OPS X (Proc.devRef .tc main_v241) = val_main_v241 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 288 (a := main_v240) (b := main_v240) (y := main_v241) rfl (by decide) (by decide) (by decide) X (E_main_v240 X) (E_main_v240 X)
theorem E_main_cst_39 (X : Valuation τ sig (Elt Ideal)) : after OPS X (Proc.devRef .tc main_cst_39) = val_main_cst_39 (F := Ideal) :=
  Cert.LibFoldSteps.step_nullary HW 289 (y := main_cst_39) rfl (by decide) X
theorem E_main_v242 (X : Valuation τ sig (Elt Ideal)) : after OPS X (Proc.devRef .tc main_v242) = val_main_v242 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 290 (a := main_v241) (b := main_cst_39) (y := main_v242) rfl (by decide) (by decide) (by decide) X (E_main_v241 X) (E_main_cst_39 X)
theorem E_main_v243 (X : Valuation τ sig (Elt Ideal)) : after OPS X (Proc.devRef .tc main_v243) = val_main_v243 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 291 (x := main_v242) (y := main_v243) rfl (by decide) (by decide) X (E_main_v242 X)
theorem E_main_cst_40 (X : Valuation τ sig (Elt Ideal)) : after OPS X (Proc.devRef .tc main_cst_40) = val_main_cst_40 (F := Ideal) :=
  Cert.LibFoldSteps.step_nullary HW 292 (y := main_cst_40) rfl (by decide) X
theorem E_main_v244 (X : Valuation τ sig (Elt Ideal)) : after OPS X (Proc.devRef .tc main_v244) = val_main_v244 (F := Ideal) :=
  Cert.LibFoldSteps.step_unary HW 293 (x := main_cst_40) (y := main_v244) rfl (by decide) (by decide) X (E_main_cst_40 X)
theorem E_main_v245 (X : Valuation τ sig (Elt Ideal)) : after OPS X (Proc.devRef .tc main_v245) = val_main_v245 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 294 (a := main_v243) (b := main_v244) (y := main_v245) rfl (by decide) (by decide) (by decide) X (E_main_v243 X) (E_main_v244 X)
theorem E_main_v246 (X : Valuation τ sig (Elt Ideal)) : after OPS X (Proc.devRef .tc main_v246) = val_main_v246 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 295 (x := main_v238) (y := main_v246) rfl (by decide) (by decide) X (E_main_v238 X)
theorem E_main_v247 (X : Valuation τ sig (Elt Ideal)) : after OPS X (Proc.devRef .tc main_v247) = val_main_v247 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 296 (a := main_v187) (b := main_v246) (y := main_v247) rfl (by decide) (by decide) (by decide) X (E_main_v187 X) (E_main_v246 X)
theorem E_main_cst_41 (X : Valuation τ sig (Elt Ideal)) : after OPS X (Proc.devRef .tc main_cst_41) = val_main_cst_41 (F := Ideal) :=
  Cert.LibFoldSteps.step_nullary HW 297 (y := main_cst_41) rfl (by decide) X
theorem E_main_v248 (X : Valuation τ sig (Elt Ideal)) : after OPS X (Proc.devRef .tc main_v248) = val_main_v248 (F := Ideal) :=
  Cert.LibFoldSteps.step_unary HW 298 (x := main_cst_41) (y := main_v248) rfl (by decide) (by decide) X (E_main_cst_41 X)
theorem E_main_v249 (X : Valuation τ sig (Elt Ideal)) : after OPS X (Proc.devRef .tc main_v249) = val_main_v249 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 299 (a := main_v245) (b := main_v248) (y := main_v249) rfl (by decide) (by decide) (by decide) X (E_main_v245 X) (E_main_v248 X)
theorem E_main_v250 (X : Valuation τ sig (Elt Ideal)) : after OPS X (Proc.devRef .tc main_v250) = val_main_v250 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 300 (x := main_v249) (y := main_v250) rfl (by decide) (by decide) X (E_main_v249 X)
theorem E_main_v251 (X : Valuation τ sig (Elt Ideal)) : after OPS X (Proc.devRef .tc main_v251) = val_main_v251 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_unary HW 301 (x := main_v250) (y := main_v251) rfl (by decide) (by decide) X (E_main_v250 X)
theorem E_main_v252 (X : Valuation τ sig (Elt Ideal)) : after OPS X (Proc.devRef .tc main_v252) = val_main_v252 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 302 (a := main_v247) (b := main_v251) (y := main_v252) rfl (by decide) (by decide) (by decide) X (E_main_v247 X) (E_main_v251 X)
theorem E_main_v253 (X : Valuation τ sig (Elt Ideal)) : after OPS X (Proc.devRef .tc main_v253) = val_main_v253 (F := Ideal) (X (Proc.devRef .tc main_arg7)) :=
  Cert.LibFoldSteps.step_unary HW 303 (x := main_v232) (y := main_v253) rfl (by decide) (by decide) X (E_main_v232 X)
theorem E_main_v254 (X : Valuation τ sig (Elt Ideal)) : after OPS X (Proc.devRef .tc main_v254) = val_main_v254 (F := Ideal) (X (Proc.devRef .tc main_arg7)) :=
  Cert.LibFoldSteps.step_unary HW 304 (x := main_v253) (y := main_v254) rfl (by decide) (by decide) X (E_main_v253 X)
theorem E_main_v255 (X : Valuation τ sig (Elt Ideal)) : after OPS X (Proc.devRef .tc main_v255) = val_main_v255 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 305 (a := main_v252) (b := main_v254) (y := main_v255) rfl (by decide) (by decide) (by decide) X (E_main_v252 X) (E_main_v254 X)
theorem E_main_v256 (X : Valuation τ sig (Elt Ideal)) : after OPS X (Proc.devRef .tc main_v256) = val_main_v256 (F := Ideal) (X (Proc.devRef .tc main_arg8)) :=
  Cert.LibFoldSteps.step_unary HW 306 (x := main_v234) (y := main_v256) rfl (by decide) (by decide) X (E_main_v234 X)
theorem E_main_v257 (X : Valuation τ sig (Elt Ideal)) : after OPS X (Proc.devRef .tc main_v257) = val_main_v257 (F := Ideal) (X (Proc.devRef .tc main_arg8)) :=
  Cert.LibFoldSteps.step_unary HW 307 (x := main_v256) (y := main_v257) rfl (by decide) (by decide) X (E_main_v256 X)
theorem E_main_v258 (X : Valuation τ sig (Elt Ideal)) : after OPS X (Proc.devRef .tc main_v258) = val_main_v258 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 308 (a := main_v255) (b := main_v257) (y := main_v258) rfl (by decide) (by decide) (by decide) X (E_main_v255 X) (E_main_v257 X)
theorem E_main_call3_cst (X : Valuation τ sig (Elt Ideal)) : after OPS X (Proc.devRef .tc main_call3_cst) = val_main_call3_cst (F := Ideal) :=
  Cert.LibFoldSteps.step_nullaryT HW 309 (ry := main_call3_cst) rfl (by decide) X
theorem E_main_call3_v0 (X : Valuation τ sig (Elt Ideal)) : after OPS X (Proc.devRef .tc main_call3_v0) = val_main_call3_v0 (F := Ideal) :=
  Cert.LibFoldSteps.step_unaryT HW 310 (rx := main_call3_cst) (ry := main_call3_v0) rfl (by decide) (by decide) X (E_main_call3_cst X)
theorem E_main_v259 (X : Valuation τ sig (Elt Ideal)) : after OPS X (Proc.devRef .tc main_v259) = val_main_v259 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binaryT HW 311 (ra := main_v258) (rb := main_call3_v0) (ry := main_v259) rfl (by decide) (by decide) (by decide) X (E_main_v258 X) (E_main_call3_v0 X)
theorem E_main_v260 (X : Valuation τ sig (Elt Ideal)) : after OPS X (Proc.devRef .tc main_v260) = val_main_v260 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  Cert.LibFoldSteps.step_binary HW 312 (a := main_v230) (b := main_v259) (y := main_v260) rfl (by decide) (by decide) (by decide) X (E_main_v230 X) (E_main_v259 X)

/-! ## The run -/

/-- On every device, from any memory with zero counters: every weakly fair execution of @main terminates with the
    result buffer at the result stage of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v260) = val_main_v260 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v260).trans (E_main_v260 (launchContents m c)),
      (h c main_arg0).trans (E_main_arg0 (launchContents m c)),
      (h c main_arg1).trans (E_main_arg1 (launchContents m c)),
      (h c main_arg2).trans (E_main_arg2 (launchContents m c)),
      (h c main_arg3).trans (E_main_arg3 (launchContents m c)),
      (h c main_arg4).trans (E_main_arg4 (launchContents m c)),
      (h c main_arg5).trans (E_main_arg5 (launchContents m c)),
      (h c main_arg6).trans (E_main_arg6 (launchContents m c)),
      (h c main_arg7).trans (E_main_arg7 (launchContents m c)),
      (h c main_arg8).trans (E_main_arg8 (launchContents m c))⟩)
    (run_seq scopedRefs_eq scopedSems_eq defs main (fun _ => ops) main_eq (fun _ => ops_sub) m ρ (fun _ => ops_fresh))

end Cert.ReferenceIdeal.RunB

end
-- ==== Proof.KernelRun.lean ====
/- The run of the idealized kernel's @main, with the result buffer named.

   The generated frame module proves that every weakly fair execution of @main on the TensorCores terminates with
   the nine argument buffers as launched. Its proof passes through a stronger fact: at the end of the run EVERY
   unscoped buffer of a core holds the last segment boundary's contents `Gen.W7`. This module states the same run
   with one more conclusion read off that fact: the result buffer `main_v152` ends at `Gen.W7 m ρ c` of itself
   (the contents left by the last host stretch over the fourth region's exit contents), and the arguments are
   unchanged. -/
import proofs.«174562_j58179626992425_1_alg».proof.Proof.Gen.KernelIdeal.Frame
import Idealize.ShloMosaic.PureOps.Ideal

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- the launch lemma's implicit arguments are found by unifying its conclusion with this one, which takes unfolding
-- plain definitions in a metavariable's type
set_option backward.isDefEq.respectTransparency.types false in
/-- From any memory with zero counters, every weakly fair execution of @main on the TensorCores terminates, nothing
    faulting, and in every final state the result buffer `main_v152` of each core holds the last boundary's contents
    `Gen.W7 m ρ c` at that buffer, and the nine argument buffers hold what they were launched with. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v152) = Gen.W7 m ρ c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v152 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunV

end
-- ==== Proof.Spec.lean ====
/-
  One layer of the network, as a function on extended reals.

  A node's new features are computed from its aggregated neighbour features `agg` and its own features `root`:
  first the affine part, row by row,
    z c = (∑ k, agg (n, k) · wl (k, c) + bl c) + ∑ k, root (n, k) · wr (k, c),
  then the normalisation of the row `z` over its 128 channels — mean μ = (∑ z) / 128, centred row d = z − μ,
  variance v = (∑ d · d) / 128 —, scaled by g and shifted by b, and finally the positive part:
    out c = max ((d c · rsqrt (v + ε)) · g c + b c) 0.
  Every operation is the exact one on the extended reals; the constants 128, ε and 0 are kept as the binary words the
  programs write, so that nothing here depends on their values. Row `n` of the result depends on row `n` of `agg` and
  of `root` only, which is what lets a computation cut into blocks of rows agree with one over all rows at once.
-/
import Idealize.ShloMosaic.PureOps.Ideal
import Idealize.ShloMosaic.Lib.ValueIdx

noncomputable section

namespace Cert.Spec

open Idealize.ShloMosaic Idealize.ShloMosaic.ValueIdx
open scoped BigOperators

/-- The affine part at row `n`, channel `c`: the aggregated row against `wl`, plus the bias, plus the node's own row
    against `wr` (both matrices indexed (input channel, output channel)). -/
def pre {N : ℕ} (agg root : (⟨2, ![N, 128]⟩ : Shape).Idx → EReal) (wl wr : (⟨2, ![128, 128]⟩ : Shape).Idx → EReal)
    (bl : Fin 128 → EReal) (n : Fin N) (c : Fin 128) : EReal :=
  ((∑ k : Fin 128, agg (ix2 n k) * wl (ix2 k c)) + bl c) + ∑ k : Fin 128, root (ix2 n k) * wr (ix2 k c)

/-- The mean of a row of 128 entries: their sum divided by the word for 128. -/
def mean (z : Fin 128 → EReal) : EReal := Ideal.div (∑ k : Fin 128, z k) (Ideal.ofBits .f32 0x43000000#32)

/-- A row normalised over its channels, scaled, shifted, and cut at zero. -/
def layerRow (z g b : Fin 128 → EReal) (c : Fin 128) : EReal :=
  max ((((z c - mean z) * Ideal.rsqrt (mean (fun k => (z k - mean z) * (z k - mean z)) + Ideal.ofBits .f32 0x3727C5AC#32)) * g c)
    + b c) (Ideal.ofBits .f32 0x00000000#32)

/-- The layer over all rows. -/
def layerG {N : ℕ} (agg root : (⟨2, ![N, 128]⟩ : Shape).Idx → EReal) (wl wr : (⟨2, ![128, 128]⟩ : Shape).Idx → EReal)
    (bl g b : Fin 128 → EReal) : (⟨2, ![N, 128]⟩ : Shape).Idx → EReal :=
  fun i => layerRow (pre agg root wl wr bl (i 0)) g b (i 1)

theorem layerG_ix2 {N : ℕ} (agg root : (⟨2, ![N, 128]⟩ : Shape).Idx → EReal) (wl wr : (⟨2, ![128, 128]⟩ : Shape).Idx → EReal)
    (bl g b : Fin 128 → EReal) (p : Fin N) (q : Fin 128) :
    layerG agg root wl wr bl g b (ix2 p q) = layerRow (pre agg root wl wr bl p) g b q := rfl

/-- The layer's row `n` only reads row `n` of the two feature arrays: two pairs of arrays that agree on that row give
    the same affine part there. -/
theorem pre_congr {N M : ℕ} (agg root : (⟨2, ![N, 128]⟩ : Shape).Idx → EReal) (agg' root' : (⟨2, ![M, 128]⟩ : Shape).Idx → EReal)
    (wl wr : (⟨2, ![128, 128]⟩ : Shape).Idx → EReal) (bl : Fin 128 → EReal) (n : Fin N) (n' : Fin M)
    (ha : ∀ k, agg (ix2 n k) = agg' (ix2 n' k)) (hr : ∀ k, root (ix2 n k) = root' (ix2 n' k)) :
    pre agg root wl wr bl n = pre agg' root' wl wr bl n' := by
  funext c
  unfold pre
  simp only [ha, hr]

end Cert.Spec

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Payload.lean ====
/-
  The kernel body's arithmetic, read at an index.

  The body computes, from a block of 2000 rows of aggregated features `x0`, the same rows of the nodes' own features
  `x1`, two 128 × 128 matrices `x2`, `x4` and three rows `x3` (bias), `x5` (scale), `x6` (shift), the block
  `max (normalise (x0 · x2 + x3 + x1 · x4) · x5 + x6) 0`. Over the extended reals the narrowing of the matrix
  product's operands is the identity and a matrix product into the zero accumulator is a plain sum over the shared
  axis, so at row `p`, channel `q` the block holds `Spec.layerRow (Spec.pre x0 x1 x2 x4 bias p) scale shift q`: the
  layer's value for that row, which reads nothing outside row `p` of `x0` and `x1`.
  The proof splits the body in two: the affine part `affine` (two products and the bias), and the normalisation
  `normed` of an arbitrary block `z`; the body is `normed (affine …)` by unfolding.
-/
import proofs.«174562_j58179626992425_1_alg».proof.Proof.Gen.KernelIdeal.Skeleton
import proofs.«174562_j58179626992425_1_alg».proof.Proof.Spec
import proofs.«174562_j58179626992425_1_alg».proof.Proof.LibKeepdims
import proofs.«174562_j58179626992425_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The affine part of the body: the aggregated block against `x2`, plus the bias row repeated down the block, plus
    the nodes' own block against `x4`. -/
def affine (x0 x1 : Vec Ideal S2000x128 .f32) (x2 x4 : Vec Ideal S128x128 .f32) (x3 : Vec Ideal S1x128 .f32) :
    FVec Ideal S2000x128 .f32 :=
  addf (addf (matmul dot_S2000x128_S128x128_S2000x128_1_0_0_1_n_n none
        (truncf .bf16 (shapeCast S2000x128 x0 shapeCasts_S2000x128_S2000x128) bitsLt_bf16_f32)
        (truncf .bf16 (shapeCast S128x128 x2 shapeCasts_S128x128_S128x128) bitsLt_bf16_f32)
        (constant (F := Ideal) S2000x128 .f32 0x00000000#32))
      (broadcastTo S2000x128 (shapeCast S1x128 x3 shapeCasts_S1x128_S1x128) broadcasts_S1x128_S2000x128))
    (matmul dot_S2000x128_S128x128_S2000x128_1_0_0_1_n_n none
      (truncf .bf16 x1 bitsLt_bf16_f32)
      (truncf .bf16 (shapeCast S128x128 x4 shapeCasts_S128x128_S128x128) bitsLt_bf16_f32)
      (constant (F := Ideal) S2000x128 .f32 0x00000000#32))

/-- The mean of each row of a block, kept as a column: the row sums, re-laid as a column, divided by 128. -/
def rowMean (z : FVec Ideal S2000x128 .f32) : FVec Ideal S2000x1 .f32 :=
  divf (shapeCast S2000x1 (multiReduction (F := Ideal) .add [1] S2000 z 0x00000000#32 reduces_S2000x128_S2000 (.inl rfl) rfl)
      shapeCasts_S2000_S2000x1)
    (broadcast S2000x1 (Scalar.ofBits (F := Ideal) .f32 0x43000000#32))

/-- A block centred row by row. -/
def centred (z : FVec Ideal S2000x128 .f32) : FVec Ideal S2000x128 .f32 :=
  subf z (broadcastTo S2000x128 (rowMean z) broadcasts_S2000x1_S2000x128)

/-- The normalisation of a block: centred, divided by the root of the rows' variance plus ε, scaled by the row `x5`,
    shifted by the row `x6`, cut at zero. -/
def normed (z : FVec Ideal S2000x128 .f32) (x5 x6 : Vec Ideal S1x128 .f32) : FVec Ideal S2000x128 .f32 :=
  maximumf
    (addf
      (mulf
        (mulf (centred z)
          (broadcastTo S2000x128
            (rsqrt (addf (rowMean (mulf (centred z) (centred z)))
              (broadcast S2000x1 (Scalar.ofBits (F := Ideal) .f32 0x3727C5AC#32))))
            broadcasts_S2000x1_S2000x128))
        (broadcastTo S2000x128 (shapeCast S1x128 x5 shapeCasts_S1x128_S1x128) broadcasts_S1x128_S2000x128))
      (broadcastTo S2000x128 (shapeCast S1x128 x6 shapeCasts_S1x128_S1x128) broadcasts_S1x128_S2000x128))
    (broadcast S2000x128 (Scalar.ofBits (F := Ideal) .f32 0x00000000#32))

/-- The body's stored value is the normalisation of its affine part (the body's text, regrouped). -/
theorem pay_eq (x0 x1 : Vec Ideal S2000x128 .f32) (x2 x4 : Vec Ideal S128x128 .f32) (x3 x5 x6 : Vec Ideal S1x128 .f32) :
    k0_pay1 (F := Ideal) (k0_pay2 (F := Ideal) x0 x1 x2 x4 x3 x5) x6 = normed (affine x0 x1 x2 x4 x3) x5 x6 := rfl

/-- A row repeated down a block reads, at (p, q), the row at q. -/
theorem row_rep (x : Vec Ideal S1x128 .f32) (p : Fin 2000) (q : Fin 128) :
    broadcastTo S2000x128 (shapeCast S1x128 x shapeCasts_S1x128_S1x128) broadcasts_S1x128_S2000x128 (ix2 p q)
      = x (ix2 (0 : Fin 1) q) := by
  rw [shapeCast_self]
  exact broadcastTo_1b_ab_apply x broadcasts_S1x128_S2000x128 p q

/-- A column repeated along the rows reads, at (p, q), the column at p. -/
theorem col_rep (v : FVec Ideal S2000x1 .f32) (p : Fin 2000) (q : Fin 128) :
    broadcastTo S2000x128 v broadcasts_S2000x1_S2000x128 (ix2 p q) = v (ix2 p (0 : Fin 1)) :=
  Cert.LibKeepdims.broadcastTo_a1_ab_apply v broadcasts_S2000x1_S2000x128 p q

/-- The affine part at (p, q). -/
theorem affine_apply (x0 x1 : Vec Ideal S2000x128 .f32) (x2 x4 : Vec Ideal S128x128 .f32) (x3 : Vec Ideal S1x128 .f32)
    (p : Fin 2000) (q : Fin 128) :
    affine x0 x1 x2 x4 x3 (ix2 p q) = Cert.Spec.pre x0 x1 x2 x4 (fun c => x3 (ix2 (0 : Fin 1) c)) p q := by
  unfold affine Cert.Spec.pre
  rw [addf_apply, addf_apply, row_rep]
  refine congrArg₂ (· + ·) (congrArg₂ (· + ·) ?_ rfl) ?_
  · refine (Cert.LibPlainMatmul.matmul_zero_plain _ _ _ p q).trans ?_
    rw [shapeCast_self, shapeCast_self]
    rfl
  · refine (Cert.LibPlainMatmul.matmul_zero_plain _ _ _ p q).trans ?_
    rw [shapeCast_self]
    rfl

/-- The mean column at row p is the mean of row p. -/
theorem rowMean_apply (z : FVec Ideal S2000x128 .f32) (p : Fin 2000) :
    rowMean z (ix2 p (0 : Fin 1)) = Cert.Spec.mean (fun c => z (ix2 p c)) := by
  unfold rowMean Cert.Spec.mean
  rw [divf_apply, Cert.LibKeepdims.shapeCast_a_a1_apply]
  exact congrArg₂ Ideal.div (Cert.LibKeepdims.multiReduction_add_row z _ _ _ _ p) rfl

/-- The centred block at (p, q). -/
theorem centred_apply (z : FVec Ideal S2000x128 .f32) (p : Fin 2000) (q : Fin 128) :
    centred z (ix2 p q) = z (ix2 p q) - Cert.Spec.mean (fun c => z (ix2 p c)) := by
  unfold centred
  rw [subf_apply, col_rep, rowMean_apply]

/-- The normalisation at (p, q) is the specification's normalised row. -/
theorem normed_apply (z : FVec Ideal S2000x128 .f32) (x5 x6 : Vec Ideal S1x128 .f32) (p : Fin 2000) (q : Fin 128) :
    normed z x5 x6 (ix2 p q)
      = Cert.Spec.layerRow (fun c => z (ix2 p c)) (fun c => x5 (ix2 (0 : Fin 1) c)) (fun c => x6 (ix2 (0 : Fin 1) c)) q := by
  unfold normed Cert.Spec.layerRow
  rw [maximumf_apply, addf_apply, mulf_apply, mulf_apply, row_rep, row_rep, col_rep, centred_apply]
  have hv : rowMean (mulf (centred z) (centred z)) (ix2 p (0 : Fin 1))
      = Cert.Spec.mean (fun k => (z (ix2 p k) - Cert.Spec.mean (fun c => z (ix2 p c))) * (z (ix2 p k) - Cert.Spec.mean (fun c => z (ix2 p c)))) := by
    rw [rowMean_apply]
    refine congrArg Cert.Spec.mean (funext fun k => ?_)
    rw [mulf_apply, centred_apply]
  show max (((z (ix2 p q) - Cert.Spec.mean fun c => z (ix2 p c)) *
      Ideal.rsqrt (rowMean (mulf (centred z) (centred z)) (ix2 p (0 : Fin 1)) + Ideal.ofBits .f32 0x3727C5AC#32)) * x5 (ix2 (0 : Fin 1) q)
      + x6 (ix2 (0 : Fin 1) q)) (Ideal.ofBits .f32 0x00000000#32) = _
  rw [hv]

/-- The body's stored block at (p, q): the layer's value for row p of the two feature blocks. -/
theorem pay_apply (x0 x1 : Vec Ideal S2000x128 .f32) (x2 x4 : Vec Ideal S128x128 .f32) (x3 x5 x6 : Vec Ideal S1x128 .f32)
    (p : Fin 2000) (q : Fin 128) :
    k0_pay1 (F := Ideal) (k0_pay2 (F := Ideal) x0 x1 x2 x4 x3 x5) x6 (ix2 p q)
      = Cert.Spec.layerRow (Cert.Spec.pre x0 x1 x2 x4 (fun c => x3 (ix2 (0 : Fin 1) c)) p)
          (fun c => x5 (ix2 (0 : Fin 1) c)) (fun c => x6 (ix2 (0 : Fin 1) c)) q := by
  rw [pay_eq, normed_apply]
  refine congrArg (fun z => Cert.Spec.layerRow z _ _ q) (funext fun c => ?_)
  exact affine_apply x0 x1 x2 x4 x3 p c

end Cert.KernelIdeal.Body

end
-- ==== Proof.Blocks0.lean ====
/-
  From blocks to the whole array, for the first pallas region.

  The region cuts the 100000 rows into 50 blocks of 2000; at grid point `t` the body reads rows 2000·t … 2000·t + 1999 of
  the two feature arrays, the whole of the two matrices and of the three rows, and writes back rows 2000·t … of the
  output. Because the layer's value at row `n` reads row `n` of the feature arrays only (`Spec.pre_congr`), what point `t`
  writes back is block `t` of ONE whole-array function, the layer of the arrays as the region finds them; the 50 blocks
  cover the output, so after the region the output array IS that function. Everything is stated for arbitrary contents
  `V` at the region's entry.
-/
import proofs.«174562_j58179626992425_1_alg».proof.Proof.Gen.KernelIdeal.Frame
import proofs.«174562_j58179626992425_1_alg».proof.Proof.Payload
import Idealize.ShloMosaic.Lib.Pipeline.Value
import Idealize.ShloMosaic.Lib.ValueLayout

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: aggregated features, own features, the two matrices, and the three
    rows read along their one row. -/
def G (c : Dev nD) : S100000x128.Idx → EReal :=
  Cert.Spec.layerG (N := 100000) (V c main_v21 : S100000x128.Idx → EReal) (V c main_arg1 : S100000x128.Idx → EReal)
    (V c main_v46 : S128x128.Idx → EReal) (V c main_v49 : S128x128.Idx → EReal)
    (fun q => (V c main_v52 : S1x128.Idx → EReal) (ix2 (0 : Fin 1) q))
    (fun q => (V c main_v55 : S1x128.Idx → EReal) (ix2 (0 : Fin 1) q))
    (fun q => (V c main_v58 : S1x128.Idx → EReal) (ix2 (0 : Fin 1) q))

/-- The printed index maps over the grid: the row-blocked windows sit at block `t`, column block 0; the small operands
    at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of block `t` is row 2000·t + p of the array. -/
def row (t : Fin cfg0.N) (p : Fin 2000) : Fin 100000 :=
  ⟨t.val * 2000 + p.val, by
    have ht : t.val < 50 := lt_of_lt_of_eq t.isLt (show cfg0.N = 50 from N_0)
    have hp := p.isLt
    omega⟩

/-- A row-blocked input's block at (p, k) is the array at (2000·t + p, k): window 0. -/
theorem blk0_apply (c : Dev nD) (t : Fin cfg0.N) (p : Fin 2000) (k : Fin 128) :
    (iblk0 V c 0 t : S2000x128.Idx → EReal) (ix2 p k) = (V c main_v21 : S100000x128.Idx → EReal) (ix2 (row t p) k) := by
  obtain ⟨e00, e01, -⟩ := idx_facts t
  show (V c main_v21 : S100000x128.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The same for window 1. -/
theorem blk1_apply (c : Dev nD) (t : Fin cfg0.N) (p : Fin 2000) (k : Fin 128) :
    (iblk0 V c 1 t : S2000x128.Idx → EReal) (ix2 p k) = (V c main_arg1 : S100000x128.Idx → EReal) (ix2 (row t p) k) := by
  obtain ⟨-, -, e10, e11, -⟩ := idx_facts t
  show (V c main_arg1 : S100000x128.Idx → EReal) (((cfg0.win 1).blk t).view.emb (ix2 p k)) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- A matrix operand's block is the whole matrix: windows 2 and 4. -/
theorem blk2_apply (c : Dev nD) (t : Fin cfg0.N) (k q : Fin 128) :
    (iblk0 V c 2 t : S128x128.Idx → EReal) (ix2 k q) = (V c main_v46 : S128x128.Idx → EReal) (ix2 k q) := by
  obtain ⟨-, -, -, -, e20, e21, -⟩ := idx_facts t
  show (V c main_v46 : S128x128.Idx → EReal) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem blk4_apply (c : Dev nD) (t : Fin cfg0.N) (k q : Fin 128) :
    (iblk0 V c 4 t : S128x128.Idx → EReal) (ix2 k q) = (V c main_v49 : S128x128.Idx → EReal) (ix2 k q) := by
  obtain ⟨-, -, -, -, -, -, -, -, e40, e41, -⟩ := idx_facts t
  show (V c main_v49 : S128x128.Idx → EReal) (((cfg0.win 4).blk t).view.emb (ix2 k q)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- A row operand's block is the whole row: windows 3, 5 and 6. -/
theorem blk3_apply (c : Dev nD) (t : Fin cfg0.N) (q : Fin 128) :
    (iblk0 V c 3 t : S1x128.Idx → EReal) (ix2 (0 : Fin 1) q) = (V c main_v52 : S1x128.Idx → EReal) (ix2 (0 : Fin 1) q) := by
  obtain ⟨-, -, -, -, -, -, e30, e31, -⟩ := idx_facts t
  show (V c main_v52 : S1x128.Idx → EReal) (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem blk5_apply (c : Dev nD) (t : Fin cfg0.N) (q : Fin 128) :
    (iblk0 V c 5 t : S1x128.Idx → EReal) (ix2 (0 : Fin 1) q) = (V c main_v55 : S1x128.Idx → EReal) (ix2 (0 : Fin 1) q) := by
  obtain ⟨-, -, -, -, -, -, -, -, -, -, e50, e51, -⟩ := idx_facts t
  show (V c main_v55 : S1x128.Idx → EReal) (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

theorem blk6_apply (c : Dev nD) (t : Fin cfg0.N) (q : Fin 128) :
    (iblk0 V c 6 t : S1x128.Idx → EReal) (ix2 (0 : Fin 1) q) = (V c main_v58 : S1x128.Idx → EReal) (ix2 (0 : Fin 1) q) := by
  obtain ⟨-, -, -, -, -, -, -, -, -, -, -, -, e60, e61, -⟩ := idx_facts t
  show (V c main_v58 : S1x128.Idx → EReal) (((cfg0.win 6).blk t).view.emb (ix2 (0 : Fin 1) q)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-- The output's block `t` embeds (p, q) at (2000·t + p, q). -/
theorem emb7 (t : Fin cfg0.N) (p : Fin 2000) (q : Fin 128) :
    (((cfg0.win 7).blk t).view.emb (ix2 p q) : S100000x128.Idx) = ix2 (row t p) q := by
  obtain ⟨-, -, -, -, -, -, -, -, -, -, -, -, -, -, e70, e71⟩ := idx_facts t
  refine funext fun a => Fin.ext ?_
  match a with
  | ⟨0, _⟩ => show win0_7.index t (0 : Fin 2) * 2000 + 1 * p.val = t.val * 2000 + p.val; omega
  | ⟨1, _⟩ => show win0_7.index t (1 : Fin 2) * 128 + 1 * q.val = q.val; omega

/-- What point `t` writes back is block `t` of the layer of the arrays the region finds. -/
theorem flushed_eq (c : Dev nD) (t : Fin cfg0.N) :
    (dat0 (F := Ideal) V c).flushed 7 t = ((cfg0.win 7).blk t).view.read (Elt Ideal) (G V c) := by
  show (cfg0.win 7).cut (grid0.coords t) ((dat0 (F := Ideal) V c).after 7 t) = _
  rw [after0_7]
  unfold out0_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (Cert.KernelIdeal.Body.pay_apply (iblk0 V c 0 t) (iblk0 V c 1 t) (iblk0 V c 2 t) (iblk0 V c 4 t) (iblk0 V c 3 t)
    (iblk0 V c 5 t) (iblk0 V c 6 t) p q).trans ?_
  show _ = G V c (((cfg0.win 7).blk t).view.emb (ix2 p q))
  rw [emb7 t p q]
  unfold G
  rw [Cert.Spec.layerG_ix2]
  have hpre : Cert.Spec.pre (iblk0 V c 0 t : S2000x128.Idx → EReal) (iblk0 V c 1 t : S2000x128.Idx → EReal)
        (iblk0 V c 2 t : S128x128.Idx → EReal) (iblk0 V c 4 t : S128x128.Idx → EReal)
        (fun q => (iblk0 V c 3 t : S1x128.Idx → EReal) (ix2 (0 : Fin 1) q)) p
      = Cert.Spec.pre (N := 100000) (V c main_v21 : S100000x128.Idx → EReal) (V c main_arg1 : S100000x128.Idx → EReal)
        (V c main_v46 : S128x128.Idx → EReal) (V c main_v49 : S128x128.Idx → EReal)
        (fun q => (V c main_v52 : S1x128.Idx → EReal) (ix2 (0 : Fin 1) q)) (row t p) := by
    funext cc
    unfold Cert.Spec.pre
    simp only [blk0_apply V c t, blk1_apply V c t, blk2_apply V c t, blk4_apply V c t, blk3_apply V c t]
  rw [hpre]
  simp only [blk5_apply V c t, blk6_apply V c t]

/-- An index of the output is in point `t`'s block iff its row is among the block's 2000. -/
theorem mem_blk (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v74).slice (win0_7.rect t)).set ↔ _
  rw [View.set_slice_whole, Rect.mem_set_unit]
  exact Iff.rfl

/-- Every index of the output lies in the block of the point its row falls in. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 2000, by rw [show cfg0.N = 50 from N_0]; omega⟩
  obtain ⟨-, -, -, -, -, -, -, -, -, -, -, -, -, -, e70, e71⟩ := idx_facts t
  have ht : t.val = (i 0).val / 2000 := rfl
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- After the region its output array is the layer of the arrays it found. -/
theorem final (c : Dev nD) : (dat0 (F := Ideal) V c).arrAt 7 cfg0.N = G V c :=
  (dat0 (F := Ideal) V c).arrAt_eq_of_cover 7 (G V c) (fun t _ => flushed_eq V c t) (cover)

/-- The same with the region's seven input arrays named, the three rows given as 128-vectors re-laid as one row: a
    re-laid vector reads, along its one row, the vector. -/
theorem final_vec (c : Dev nD) (A0 A1 : S100000x128.Idx → EReal) (A2 A4 : S128x128.Idx → EReal) (b3 b5 b6 : S128.Idx → EReal)
    (h0 : (V c main_v21 : S100000x128.Idx → EReal) = A0) (h1 : (V c main_arg1 : S100000x128.Idx → EReal) = A1)
    (h2 : (V c main_v46 : S128x128.Idx → EReal) = A2) (h4 : (V c main_v49 : S128x128.Idx → EReal) = A4)
    (h3 : (V c main_v52 : S1x128.Idx → EReal) = shapeCast S1x128 b3 shapeCasts_S128_S1x128)
    (h5 : (V c main_v55 : S1x128.Idx → EReal) = shapeCast S1x128 b5 shapeCasts_S128_S1x128)
    (h6 : (V c main_v58 : S1x128.Idx → EReal) = shapeCast S1x128 b6 shapeCasts_S128_S1x128) :
    (dat0 (F := Ideal) V c).arrAt 7 cfg0.N
      = Cert.Spec.layerG (N := 100000) A0 A1 A2 A4 (fun q => b3 (ix1 q)) (fun q => b5 (ix1 q)) (fun q => b6 (ix1 q)) := by
  have e : ∀ (b : S128.Idx → EReal) (q : Fin 128),
      shapeCast S1x128 b shapeCasts_S128_S1x128 (ix2 (0 : Fin 1) q) = b (ix1 q) :=
    fun b q => shapeCast_a_1a_apply b shapeCasts_S128_S1x128 0 q
  rw [final V c]
  unfold G
  rw [h0, h1, h2, h4, h3, h5, h6]
  simp only [e]

end Cert.KernelIdeal.Blocks0

end
-- ==== Proof.Blocks1.lean ====
/-
  From blocks to the whole array, for the second pallas region.

  The region cuts the 100000 rows into 50 blocks of 2000; at grid point `t` the body reads rows 2000·t … 2000·t + 1999 of
  the two feature arrays, the whole of the two matrices and of the three rows, and writes back rows 2000·t … of the
  output. Because the layer's value at row `n` reads row `n` of the feature arrays only (`Spec.pre_congr`), what point `t`
  writes back is block `t` of ONE whole-array function, the layer of the arrays as the region finds them; the 50 blocks
  cover the output, so after the region the output array IS that function. Everything is stated for arbitrary contents
  `V` at the region's entry.
-/
import proofs.«174562_j58179626992425_1_alg».proof.Proof.Gen.KernelIdeal.Frame
import proofs.«174562_j58179626992425_1_alg».proof.Proof.Payload
import Idealize.ShloMosaic.Lib.Pipeline.Value
import Idealize.ShloMosaic.Lib.ValueLayout

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: aggregated features, own features, the two matrices, and the three
    rows read along their one row. -/
def G (c : Dev nD) : S100000x128.Idx → EReal :=
  Cert.Spec.layerG (N := 100000) (V c main_v43 : S100000x128.Idx → EReal) (V c main_arg0 : S100000x128.Idx → EReal)
    (V c main_v61 : S128x128.Idx → EReal) (V c main_v64 : S128x128.Idx → EReal)
    (fun q => (V c main_v67 : S1x128.Idx → EReal) (ix2 (0 : Fin 1) q))
    (fun q => (V c main_v70 : S1x128.Idx → EReal) (ix2 (0 : Fin 1) q))
    (fun q => (V c main_v73 : S1x128.Idx → EReal) (ix2 (0 : Fin 1) q))

/-- The printed index maps over the grid: the row-blocked windows sit at block `t`, column block 0; the small operands
    at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of block `t` is row 2000·t + p of the array. -/
def row (t : Fin cfg1.N) (p : Fin 2000) : Fin 100000 :=
  ⟨t.val * 2000 + p.val, by
    have ht : t.val < 50 := lt_of_lt_of_eq t.isLt (show cfg1.N = 50 from N_1)
    have hp := p.isLt
    omega⟩

/-- A row-blocked input's block at (p, k) is the array at (2000·t + p, k): window 0. -/
theorem blk0_apply (c : Dev nD) (t : Fin cfg1.N) (p : Fin 2000) (k : Fin 128) :
    (iblk1 V c 0 t : S2000x128.Idx → EReal) (ix2 p k) = (V c main_v43 : S100000x128.Idx → EReal) (ix2 (row t p) k) := by
  obtain ⟨e00, e01, -⟩ := idx_facts t
  show (V c main_v43 : S100000x128.Idx → EReal) (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- The same for window 1. -/
theorem blk1_apply (c : Dev nD) (t : Fin cfg1.N) (p : Fin 2000) (k : Fin 128) :
    (iblk1 V c 1 t : S2000x128.Idx → EReal) (ix2 p k) = (V c main_arg0 : S100000x128.Idx → EReal) (ix2 (row t p) k) := by
  obtain ⟨-, -, e10, e11, -⟩ := idx_facts t
  show (V c main_arg0 : S100000x128.Idx → EReal) (((cfg1.win 1).blk t).view.emb (ix2 p k)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

/-- A matrix operand's block is the whole matrix: windows 2 and 4. -/
theorem blk2_apply (c : Dev nD) (t : Fin cfg1.N) (k q : Fin 128) :
    (iblk1 V c 2 t : S128x128.Idx → EReal) (ix2 k q) = (V c main_v61 : S128x128.Idx → EReal) (ix2 k q) := by
  obtain ⟨-, -, -, -, e20, e21, -⟩ := idx_facts t
  show (V c main_v61 : S128x128.Idx → EReal) (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem blk4_apply (c : Dev nD) (t : Fin cfg1.N) (k q : Fin 128) :
    (iblk1 V c 4 t : S128x128.Idx → EReal) (ix2 k q) = (V c main_v64 : S128x128.Idx → EReal) (ix2 k q) := by
  obtain ⟨-, -, -, -, -, -, -, -, e40, e41, -⟩ := idx_facts t
  show (V c main_v64 : S128x128.Idx → EReal) (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- A row operand's block is the whole row: windows 3, 5 and 6. -/
theorem blk3_apply (c : Dev nD) (t : Fin cfg1.N) (q : Fin 128) :
    (iblk1 V c 3 t : S1x128.Idx → EReal) (ix2 (0 : Fin 1) q) = (V c main_v67 : S1x128.Idx → EReal) (ix2 (0 : Fin 1) q) := by
  obtain ⟨-, -, -, -, -, -, e30, e31, -⟩ := idx_facts t
  show (V c main_v67 : S1x128.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem blk5_apply (c : Dev nD) (t : Fin cfg1.N) (q : Fin 128) :
    (iblk1 V c 5 t : S1x128.Idx → EReal) (ix2 (0 : Fin 1) q) = (V c main_v70 : S1x128.Idx → EReal) (ix2 (0 : Fin 1) q) := by
  obtain ⟨-, -, -, -, -, -, -, -, -, -, e50, e51, -⟩ := idx_facts t
  show (V c main_v70 : S1x128.Idx → EReal) (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

theorem blk6_apply (c : Dev nD) (t : Fin cfg1.N) (q : Fin 128) :
    (iblk1 V c 6 t : S1x128.Idx → EReal) (ix2 (0 : Fin 1) q) = (V c main_v73 : S1x128.Idx → EReal) (ix2 (0 : Fin 1) q) := by
  obtain ⟨-, -, -, -, -, -, -, -, -, -, -, -, e60, e61, -⟩ := idx_facts t
  show (V c main_v73 : S1x128.Idx → EReal) (((cfg1.win 6).blk t).view.emb (ix2 (0 : Fin 1) q)) = _
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * q.val = q.val; omega

/-- The output's block `t` embeds (p, q) at (2000·t + p, q). -/
theorem emb7 (t : Fin cfg1.N) (p : Fin 2000) (q : Fin 128) :
    (((cfg1.win 7).blk t).view.emb (ix2 p q) : S100000x128.Idx) = ix2 (row t p) q := by
  obtain ⟨-, -, -, -, -, -, -, -, -, -, -, -, -, -, e70, e71⟩ := idx_facts t
  refine funext fun a => Fin.ext ?_
  match a with
  | ⟨0, _⟩ => show win1_7.index t (0 : Fin 2) * 2000 + 1 * p.val = t.val * 2000 + p.val; omega
  | ⟨1, _⟩ => show win1_7.index t (1 : Fin 2) * 128 + 1 * q.val = q.val; omega

/-- This region's stored value is the normalisation of its affine part (the body's text, regrouped). -/
theorem pay_eq (x0 x1 : Vec Ideal S2000x128 .f32) (x2 x4 : Vec Ideal S128x128 .f32) (x3 x5 x6 : Vec Ideal S1x128 .f32) :
    k1_pay1 (F := Ideal) (k1_pay2 (F := Ideal) x0 x1 x2 x4 x3 x5) x6
      = Cert.KernelIdeal.Body.normed (Cert.KernelIdeal.Body.affine x0 x1 x2 x4 x3) x5 x6 := rfl

/-- This region's stored block at (p, q): the layer's value for row p of the two feature blocks. -/
theorem pay_apply (x0 x1 : Vec Ideal S2000x128 .f32) (x2 x4 : Vec Ideal S128x128 .f32) (x3 x5 x6 : Vec Ideal S1x128 .f32)
    (p : Fin 2000) (q : Fin 128) :
    k1_pay1 (F := Ideal) (k1_pay2 (F := Ideal) x0 x1 x2 x4 x3 x5) x6 (ix2 p q)
      = Cert.Spec.layerRow (Cert.Spec.pre x0 x1 x2 x4 (fun c => x3 (ix2 (0 : Fin 1) c)) p)
          (fun c => x5 (ix2 (0 : Fin 1) c)) (fun c => x6 (ix2 (0 : Fin 1) c)) q := by
  rw [pay_eq, Cert.KernelIdeal.Body.normed_apply]
  refine congrArg (fun z => Cert.Spec.layerRow z _ _ q) (funext fun c => ?_)
  exact Cert.KernelIdeal.Body.affine_apply x0 x1 x2 x4 x3 p c

/-- What point `t` writes back is block `t` of the layer of the arrays the region finds. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (pay_apply (iblk1 V c 0 t) (iblk1 V c 1 t) (iblk1 V c 2 t) (iblk1 V c 4 t) (iblk1 V c 3 t)
    (iblk1 V c 5 t) (iblk1 V c 6 t) p q).trans ?_
  show _ = G V c (((cfg1.win 7).blk t).view.emb (ix2 p q))
  rw [emb7 t p q]
  unfold G
  rw [Cert.Spec.layerG_ix2]
  have hpre : Cert.Spec.pre (iblk1 V c 0 t : S2000x128.Idx → EReal) (iblk1 V c 1 t : S2000x128.Idx → EReal)
        (iblk1 V c 2 t : S128x128.Idx → EReal) (iblk1 V c 4 t : S128x128.Idx → EReal)
        (fun q => (iblk1 V c 3 t : S1x128.Idx → EReal) (ix2 (0 : Fin 1) q)) p
      = Cert.Spec.pre (N := 100000) (V c main_v43 : S100000x128.Idx → EReal) (V c main_arg0 : S100000x128.Idx → EReal)
        (V c main_v61 : S128x128.Idx → EReal) (V c main_v64 : S128x128.Idx → EReal)
        (fun q => (V c main_v67 : S1x128.Idx → EReal) (ix2 (0 : Fin 1) q)) (row t p) := by
    funext cc
    unfold Cert.Spec.pre
    simp only [blk0_apply V c t, blk1_apply V c t, blk2_apply V c t, blk4_apply V c t, blk3_apply V c t]
  rw [hpre]
  simp only [blk5_apply V c t, blk6_apply V c t]

/-- An index of the output is in point `t`'s block iff its row is among the block's 2000. -/
theorem mem_blk (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v75).slice (win1_7.rect t)).set ↔ _
  rw [View.set_slice_whole, Rect.mem_set_unit]
  exact Iff.rfl

/-- Every index of the output lies in the block of the point its row falls in. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  let t : Fin cfg1.N := ⟨(i 0).val / 2000, by rw [show cfg1.N = 50 from N_1]; omega⟩
  obtain ⟨-, -, -, -, -, -, -, -, -, -, -, -, -, -, e70, e71⟩ := idx_facts t
  have ht : t.val = (i 0).val / 2000 := rfl
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- After the region its output array is the layer of the arrays it found. -/
theorem final (c : Dev nD) : (dat1 (F := Ideal) V c).arrAt 7 cfg1.N = G V c :=
  (dat1 (F := Ideal) V c).arrAt_eq_of_cover 7 (G V c) (fun t _ => flushed_eq V c t) (cover)

/-- The same with the region's seven input arrays named, the three rows given as 128-vectors re-laid as one row: a
    re-laid vector reads, along its one row, the vector. -/
theorem final_vec (c : Dev nD) (A0 A1 : S100000x128.Idx → EReal) (A2 A4 : S128x128.Idx → EReal) (b3 b5 b6 : S128.Idx → EReal)
    (h0 : (V c main_v43 : S100000x128.Idx → EReal) = A0) (h1 : (V c main_arg0 : S100000x128.Idx → EReal) = A1)
    (h2 : (V c main_v61 : S128x128.Idx → EReal) = A2) (h4 : (V c main_v64 : S128x128.Idx → EReal) = A4)
    (h3 : (V c main_v67 : S1x128.Idx → EReal) = shapeCast S1x128 b3 shapeCasts_S128_S1x128)
    (h5 : (V c main_v70 : S1x128.Idx → EReal) = shapeCast S1x128 b5 shapeCasts_S128_S1x128)
    (h6 : (V c main_v73 : S1x128.Idx → EReal) = shapeCast S1x128 b6 shapeCasts_S128_S1x128) :
    (dat1 (F := Ideal) V c).arrAt 7 cfg1.N
      = Cert.Spec.layerG (N := 100000) A0 A1 A2 A4 (fun q => b3 (ix1 q)) (fun q => b5 (ix1 q)) (fun q => b6 (ix1 q)) := by
  have e : ∀ (b : S128.Idx → EReal) (q : Fin 128),
      shapeCast S1x128 b shapeCasts_S128_S1x128 (ix2 (0 : Fin 1) q) = b (ix1 q) :=
    fun b q => shapeCast_a_1a_apply b shapeCasts_S128_S1x128 0 q
  rw [final V c]
  unfold G
  rw [h0, h1, h2, h4, h3, h5, h6]
  simp only [e]

end Cert.KernelIdeal.Blocks1

end
-- ==== Proof.Blocks2.lean ====
/-
  From blocks to the whole array, for the third pallas region.

  The region cuts the 100000 rows into 50 blocks of 2000; at grid point `t` the body reads rows 2000·t … 2000·t + 1999 of
  the two feature arrays, the whole of the two matrices and of the three rows, and writes back rows 2000·t … of the
  output. Because the layer's value at row `n` reads row `n` of the feature arrays only (`Spec.pre_congr`), what point `t`
  writes back is block `t` of ONE whole-array function, the layer of the arrays as the region finds them; the 50 blocks
  cover the output, so after the region the output array IS that function. Everything is stated for arbitrary contents
  `V` at the region's entry.
-/
import proofs.«174562_j58179626992425_1_alg».proof.Proof.Gen.KernelIdeal.Frame
import proofs.«174562_j58179626992425_1_alg».proof.Proof.Payload
import Idealize.ShloMosaic.Lib.Pipeline.Value
import Idealize.ShloMosaic.Lib.ValueLayout

set_option maxRecDepth 16384

noncomputable section

namespace Cert.KernelIdeal.Blocks2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: aggregated features, own features, the two matrices, and the three
    rows read along their one row. -/
def G (c : Dev nD) : S100000x128.Idx → EReal :=
  Cert.Spec.layerG (N := 100000) (V c main_v97 : S100000x128.Idx → EReal) (V c main_v74 : S100000x128.Idx → EReal)
    (V c main_v122 : S128x128.Idx → EReal) (V c main_v125 : S128x128.Idx → EReal)
    (fun q => (V c main_v128 : S1x128.Idx → EReal) (ix2 (0 : Fin 1) q))
    (fun q => (V c main_v131 : S1x128.Idx → EReal) (ix2 (0 : Fin 1) q))
    (fun q => (V c main_v134 : S1x128.Idx → EReal) (ix2 (0 : Fin 1) q))

/-- The printed index maps over the grid: the row-blocked windows sit at block `t`, column block 0; the small operands
    at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of block `t` is row 2000·t + p of the array. -/
def row (t : Fin cfg2.N) (p : Fin 2000) : Fin 100000 :=
  ⟨t.val * 2000 + p.val, by
    have ht : t.val < 50 := lt_of_lt_of_eq t.isLt (show cfg2.N = 50 from N_2)
    have hp := p.isLt
    omega⟩

/-- A row-blocked input's block at (p, k) is the array at (2000·t + p, k): window 0. -/
theorem blk0_apply (c : Dev nD) (t : Fin cfg2.N) (p : Fin 2000) (k : Fin 128) :
    (iblk2 V c 0 t : S2000x128.Idx → EReal) (ix2 p k) = (V c main_v97 : S100000x128.Idx → EReal) (ix2 (row t p) k) := by
  obtain ⟨e00, e01, -⟩ := idx_facts t
  show (V c main_v97 : S100000x128.Idx → EReal) (((cfg2.win 0).blk t).view.emb (ix2 p k)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

/-- The same for window 1. -/
theorem blk1_apply (c : Dev nD) (t : Fin cfg2.N) (p : Fin 2000) (k : Fin 128) :
    (iblk2 V c 1 t : S2000x128.Idx → EReal) (ix2 p k) = (V c main_v74 : S100000x128.Idx → EReal) (ix2 (row t p) k) := by
  obtain ⟨-, -, e10, e11, -⟩ := idx_facts t
  show (V c main_v74 : S100000x128.Idx → EReal) (((cfg2.win 1).blk t).view.emb (ix2 p k)) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

/-- A matrix operand's block is the whole matrix: windows 2 and 4. -/
theorem blk2_apply (c : Dev nD) (t : Fin cfg2.N) (k q : Fin 128) :
    (iblk2 V c 2 t : S128x128.Idx → EReal) (ix2 k q) = (V c main_v122 : S128x128.Idx → EReal) (ix2 k q) := by
  obtain ⟨-, -, -, -, e20, e21, -⟩ := idx_facts t
  show (V c main_v122 : S128x128.Idx → EReal) (((cfg2.win 2).blk t).view.emb (ix2 k q)) = _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem blk4_apply (c : Dev nD) (t : Fin cfg2.N) (k q : Fin 128) :
    (iblk2 V c 4 t : S128x128.Idx → EReal) (ix2 k q) = (V c main_v125 : S128x128.Idx → EReal) (ix2 k q) := by
  obtain ⟨-, -, -, -, -, -, -, -, e40, e41, -⟩ := idx_facts t
  show (V c main_v125 : S128x128.Idx → EReal) (((cfg2.win 4).blk t).view.emb (ix2 k q)) = _
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- A row operand's block is the whole row: windows 3, 5 and 6. -/
theorem blk3_apply (c : Dev nD) (t : Fin cfg2.N) (q : Fin 128) :
    (iblk2 V c 3 t : S1x128.Idx → EReal) (ix2 (0 : Fin 1) q) = (V c main_v128 : S1x128.Idx → EReal) (ix2 (0 : Fin 1) q) := by
  obtain ⟨-, -, -, -, -, -, e30, e31, -⟩ := idx_facts t
  show (V c main_v128 : S1x128.Idx → EReal) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

theorem blk5_apply (c : Dev nD) (t : Fin cfg2.N) (q : Fin 128) :
    (iblk2 V c 5 t : S1x128.Idx → EReal) (ix2 (0 : Fin 1) q) = (V c main_v131 : S1x128.Idx → EReal) (ix2 (0 : Fin 1) q) := by
  obtain ⟨-, -, -, -, -, -, -, -, -, -, e50, e51, -⟩ := idx_facts t
  show (V c main_v131 : S1x128.Idx → EReal) (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

theorem blk6_apply (c : Dev nD) (t : Fin cfg2.N) (q : Fin 128) :
    (iblk2 V c 6 t : S1x128.Idx → EReal) (ix2 (0 : Fin 1) q) = (V c main_v134 : S1x128.Idx → EReal) (ix2 (0 : Fin 1) q) := by
  obtain ⟨-, -, -, -, -, -, -, -, -, -, -, -, e60, e61, -⟩ := idx_facts t
  show (V c main_v134 : S1x128.Idx → EReal) (((cfg2.win 6).blk t).view.emb (ix2 (0 : Fin 1) q)) = _
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * q.val = q.val; omega

/-- The output's block `t` embeds (p, q) at (2000·t + p, q). -/
theorem emb7 (t : Fin cfg2.N) (p : Fin 2000) (q : Fin 128) :
    (((cfg2.win 7).blk t).view.emb (ix2 p q) : S100000x128.Idx) = ix2 (row t p) q := by
  obtain ⟨-, -, -, -, -, -, -, -, -, -, -, -, -, -, e70, e71⟩ := idx_facts t
  refine funext fun a => Fin.ext ?_
  match a with
  | ⟨0, _⟩ => show win2_7.index t (0 : Fin 2) * 2000 + 1 * p.val = t.val * 2000 + p.val; omega
  | ⟨1, _⟩ => show win2_7.index t (1 : Fin 2) * 128 + 1 * q.val = q.val; omega

/-- This region's affine part as its body spells it: the nodes' own block passes through one more re-laying onto its
    own shape, which changes nothing, before the product. -/
def affineR (x0 x1 : Vec Ideal S2000x128 .f32) (x2 x4 : Vec Ideal S128x128 .f32) (x3 : Vec Ideal S1x128 .f32) :
    FVec Ideal S2000x128 .f32 :=
  addf (addf (matmul dot_S2000x128_S128x128_S2000x128_1_0_0_1_n_n none
        (truncf .bf16 (shapeCast S2000x128 x0 shapeCasts_S2000x128_S2000x128) bitsLt_bf16_f32)
        (truncf .bf16 (shapeCast S128x128 x2 shapeCasts_S128x128_S128x128) bitsLt_bf16_f32)
        (constant (F := Ideal) S2000x128 .f32 0x00000000#32))
      (broadcastTo S2000x128 (shapeCast S1x128 x3 shapeCasts_S1x128_S1x128) broadcasts_S1x128_S2000x128))
    (matmul dot_S2000x128_S128x128_S2000x128_1_0_0_1_n_n none
      (truncf .bf16 (shapeCast S2000x128 x1 shapeCasts_S2000x128_S2000x128) bitsLt_bf16_f32)
      (truncf .bf16 (shapeCast S128x128 x4 shapeCasts_S128x128_S128x128) bitsLt_bf16_f32)
      (constant (F := Ideal) S2000x128 .f32 0x00000000#32))

theorem affineR_eq (x0 x1 : Vec Ideal S2000x128 .f32) (x2 x4 : Vec Ideal S128x128 .f32) (x3 : Vec Ideal S1x128 .f32) :
    affineR x0 x1 x2 x4 x3 = Cert.KernelIdeal.Body.affine x0 x1 x2 x4 x3 := by
  unfold affineR Cert.KernelIdeal.Body.affine
  rw [shapeCast_self x1 shapeCasts_S2000x128_S2000x128]

/-- This region's stored value is the normalisation of its affine part (the body's text, regrouped). -/
theorem pay_eq (x0 x1 : Vec Ideal S2000x128 .f32) (x2 x4 : Vec Ideal S128x128 .f32) (x3 x5 x6 : Vec Ideal S1x128 .f32) :
    k2_pay1 (F := Ideal) (k2_pay2 (F := Ideal) x0 x1 x2 x4 x3 x5) x6
      = Cert.KernelIdeal.Body.normed (Cert.KernelIdeal.Body.affine x0 x1 x2 x4 x3) x5 x6 := by
  have h : k2_pay1 (F := Ideal) (k2_pay2 (F := Ideal) x0 x1 x2 x4 x3 x5) x6
      = Cert.KernelIdeal.Body.normed (affineR x0 x1 x2 x4 x3) x5 x6 := rfl
  rw [h, affineR_eq]

/-- This region's stored block at (p, q): the layer's value for row p of the two feature blocks. -/
theorem pay_apply (x0 x1 : Vec Ideal S2000x128 .f32) (x2 x4 : Vec Ideal S128x128 .f32) (x3 x5 x6 : Vec Ideal S1x128 .f32)
    (p : Fin 2000) (q : Fin 128) :
    k2_pay1 (F := Ideal) (k2_pay2 (F := Ideal) x0 x1 x2 x4 x3 x5) x6 (ix2 p q)
      = Cert.Spec.layerRow (Cert.Spec.pre x0 x1 x2 x4 (fun c => x3 (ix2 (0 : Fin 1) c)) p)
          (fun c => x5 (ix2 (0 : Fin 1) c)) (fun c => x6 (ix2 (0 : Fin 1) c)) q := by
  rw [pay_eq, Cert.KernelIdeal.Body.normed_apply]
  refine congrArg (fun z => Cert.Spec.layerRow z _ _ q) (funext fun c => ?_)
  exact Cert.KernelIdeal.Body.affine_apply x0 x1 x2 x4 x3 p c

/-- What point `t` writes back is block `t` of the layer of the arrays the region finds. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  unfold out2_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (pay_apply (iblk2 V c 0 t) (iblk2 V c 1 t) (iblk2 V c 2 t) (iblk2 V c 4 t) (iblk2 V c 3 t)
    (iblk2 V c 5 t) (iblk2 V c 6 t) p q).trans ?_
  show _ = G V c (((cfg2.win 7).blk t).view.emb (ix2 p q))
  rw [emb7 t p q]
  unfold G
  rw [Cert.Spec.layerG_ix2]
  have hpre : Cert.Spec.pre (iblk2 V c 0 t : S2000x128.Idx → EReal) (iblk2 V c 1 t : S2000x128.Idx → EReal)
        (iblk2 V c 2 t : S128x128.Idx → EReal) (iblk2 V c 4 t : S128x128.Idx → EReal)
        (fun q => (iblk2 V c 3 t : S1x128.Idx → EReal) (ix2 (0 : Fin 1) q)) p
      = Cert.Spec.pre (N := 100000) (V c main_v97 : S100000x128.Idx → EReal) (V c main_v74 : S100000x128.Idx → EReal)
        (V c main_v122 : S128x128.Idx → EReal) (V c main_v125 : S128x128.Idx → EReal)
        (fun q => (V c main_v128 : S1x128.Idx → EReal) (ix2 (0 : Fin 1) q)) (row t p) := by
    funext cc
    unfold Cert.Spec.pre
    simp only [blk0_apply V c t, blk1_apply V c t, blk2_apply V c t, blk4_apply V c t, blk3_apply V c t]
  rw [hpre]
  simp only [blk5_apply V c t, blk6_apply V c t]

/-- An index of the output is in point `t`'s block iff its row is among the block's 2000. -/
theorem mem_blk (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v150).slice (win2_7.rect t)).set ↔ _
  rw [View.set_slice_whole, Rect.mem_set_unit]
  exact Iff.rfl

/-- Every index of the output lies in the block of the point its row falls in. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  let t : Fin cfg2.N := ⟨(i 0).val / 2000, by rw [show cfg2.N = 50 from N_2]; omega⟩
  obtain ⟨-, -, -, -, -, -, -, -, -, -, -, -, -, -, e70, e71⟩ := idx_facts t
  have ht : t.val = (i 0).val / 2000 := rfl
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- After the region its output array is the layer of the arrays it found. -/
theorem final (c : Dev nD) : (dat2 (F := Ideal) V c).arrAt 7 cfg2.N = G V c :=
  (dat2 (F := Ideal) V c).arrAt_eq_of_cover 7 (G V c) (fun t _ => flushed_eq V c t) (cover)

/-- The same with the region's seven input arrays named, the three rows given as 128-vectors re-laid as one row: a
    re-laid vector reads, along its one row, the vector. -/
theorem final_vec (c : Dev nD) (A0 A1 : S100000x128.Idx → EReal) (A2 A4 : S128x128.Idx → EReal) (b3 b5 b6 : S128.Idx → EReal)
    (h0 : (V c main_v97 : S100000x128.Idx → EReal) = A0) (h1 : (V c main_v74 : S100000x128.Idx → EReal) = A1)
    (h2 : (V c main_v122 : S128x128.Idx → EReal) = A2) (h4 : (V c main_v125 : S128x128.Idx → EReal) = A4)
    (h3 : (V c main_v128 : S1x128.Idx → EReal) = shapeCast S1x128 b3 shapeCasts_S128_S1x128)
    (h5 : (V c main_v131 : S1x128.Idx → EReal) = shapeCast S1x128 b5 shapeCasts_S128_S1x128)
    (h6 : (V c main_v134 : S1x128.Idx → EReal) = shapeCast S1x128 b6 shapeCasts_S128_S1x128) :
    (dat2 (F := Ideal) V c).arrAt 7 cfg2.N
      = Cert.Spec.layerG (N := 100000) A0 A1 A2 A4 (fun q => b3 (ix1 q)) (fun q => b5 (ix1 q)) (fun q => b6 (ix1 q)) := by
  have e : ∀ (b : S128.Idx → EReal) (q : Fin 128),
      shapeCast S1x128 b shapeCasts_S128_S1x128 (ix2 (0 : Fin 1) q) = b (ix1 q) :=
    fun b q => shapeCast_a_1a_apply b shapeCasts_S128_S1x128 0 q
  rw [final V c]
  unfold G
  rw [h0, h1, h2, h4, h3, h5, h6]
  simp only [e]

end Cert.KernelIdeal.Blocks2

end
-- ==== Proof.Blocks3.lean ====
/-
  From blocks to the whole array, for the fourth pallas region.

  The region cuts the 100000 rows into 50 blocks of 2000; at grid point `t` the body reads rows 2000·t … 2000·t + 1999 of
  the two feature arrays, the whole of the two matrices and of the three rows, and writes back rows 2000·t … of the
  output. Because the layer's value at row `n` reads row `n` of the feature arrays only (`Spec.pre_congr`), what point `t`
  writes back is block `t` of ONE whole-array function, the layer of the arrays as the region finds them; the 50 blocks
  cover the output, so after the region the output array IS that function. Everything is stated for arbitrary contents
  `V` at the region's entry.
-/
import proofs.«174562_j58179626992425_1_alg».proof.Proof.Gen.KernelIdeal.Frame
import proofs.«174562_j58179626992425_1_alg».proof.Proof.Payload
import Idealize.ShloMosaic.Lib.Pipeline.Value
import Idealize.ShloMosaic.Lib.ValueLayout

set_option maxRecDepth 16384

noncomputable section

namespace Cert.KernelIdeal.Blocks3

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: aggregated features, own features, the two matrices, and the three
    rows read along their one row. -/
def G (c : Dev nD) : S100000x128.Idx → EReal :=
  Cert.Spec.layerG (N := 100000) (V c main_v119 : S100000x128.Idx → EReal) (V c main_v75 : S100000x128.Idx → EReal)
    (V c main_v137 : S128x128.Idx → EReal) (V c main_v140 : S128x128.Idx → EReal)
    (fun q => (V c main_v143 : S1x128.Idx → EReal) (ix2 (0 : Fin 1) q))
    (fun q => (V c main_v146 : S1x128.Idx → EReal) (ix2 (0 : Fin 1) q))
    (fun q => (V c main_v149 : S1x128.Idx → EReal) (ix2 (0 : Fin 1) q))

/-- The printed index maps over the grid: the row-blocked windows sit at block `t`, column block 0; the small operands
    at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row `p` of block `t` is row 2000·t + p of the array. -/
def row (t : Fin cfg3.N) (p : Fin 2000) : Fin 100000 :=
  ⟨t.val * 2000 + p.val, by
    have ht : t.val < 50 := lt_of_lt_of_eq t.isLt (show cfg3.N = 50 from N_3)
    have hp := p.isLt
    omega⟩

/-- A row-blocked input's block at (p, k) is the array at (2000·t + p, k): window 0. -/
theorem blk0_apply (c : Dev nD) (t : Fin cfg3.N) (p : Fin 2000) (k : Fin 128) :
    (iblk3 V c 0 t : S2000x128.Idx → EReal) (ix2 p k) = (V c main_v119 : S100000x128.Idx → EReal) (ix2 (row t p) k) := by
  obtain ⟨e00, e01, -⟩ := idx_facts t
  show (V c main_v119 : S100000x128.Idx → EReal) (((cfg3.win 0).blk t).view.emb (ix2 p k)) = _
  refine congrArg _ (funext fun a => Fin.ext ?_)
  match a with
  | ⟨0, _⟩ => show win3_0.index t (0 : Fin 2) * 2000 + 1 * p.val = t.val * 2000 + p.val; omega
  | ⟨1, _⟩ => show win3_0.index t (1 : Fin 2) * 128 + 1 * k.val = k.val; omega

/-- The same for window 1. -/
theorem blk1_apply (c : Dev nD) (t : Fin cfg3.N) (p : Fin 2000) (k : Fin 128) :
    (iblk3 V c 1 t : S2000x128.Idx → EReal) (ix2 p k) = (V c main_v75 : S100000x128.Idx → EReal) (ix2 (row t p) k) := by
  obtain ⟨-, -, e10, e11, -⟩ := idx_facts t
  show (V c main_v75 : S100000x128.Idx → EReal) (((cfg3.win 1).blk t).view.emb (ix2 p k)) = _
  refine congrArg _ (funext fun a => Fin.ext ?_)
  match a with
  | ⟨0, _⟩ => show win3_1.index t (0 : Fin 2) * 2000 + 1 * p.val = t.val * 2000 + p.val; omega
  | ⟨1, _⟩ => show win3_1.index t (1 : Fin 2) * 128 + 1 * k.val = k.val; omega

/-- A matrix operand's block is the whole matrix: windows 2 and 4. -/
theorem blk2_apply (c : Dev nD) (t : Fin cfg3.N) (k q : Fin 128) :
    (iblk3 V c 2 t : S128x128.Idx → EReal) (ix2 k q) = (V c main_v137 : S128x128.Idx → EReal) (ix2 k q) := by
  obtain ⟨-, -, -, -, e20, e21, -⟩ := idx_facts t
  show (V c main_v137 : S128x128.Idx → EReal) (((cfg3.win 2).blk t).view.emb (ix2 k q)) = _
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

theorem blk4_apply (c : Dev nD) (t : Fin cfg3.N) (k q : Fin 128) :
    (iblk3 V c 4 t : S128x128.Idx → EReal) (ix2 k q) = (V c main_v140 : S128x128.Idx → EReal) (ix2 k q) := by
  obtain ⟨-, -, -, -, -, -, -, -, e40, e41, -⟩ := idx_facts t
  show (V c main_v140 : S128x128.Idx → EReal) (((cfg3.win 4).blk t).view.emb (ix2 k q)) = _
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- A row operand's block is the whole row: windows 3, 5 and 6. -/
theorem blk3_apply (c : Dev nD) (t : Fin cfg3.N) (q : Fin 128) :
    (iblk3 V c 3 t : S1x128.Idx → EReal) (ix2 (0 : Fin 1) q) = (V c main_v143 : S1x128.Idx → EReal) (ix2 (0 : Fin 1) q) := by
  obtain ⟨-, -, -, -, -, -, e30, e31, -⟩ := idx_facts t
  show (V c main_v143 : S1x128.Idx → EReal) (((cfg3.win 3).blk t).view.emb (ix2 (0 : Fin 1) q)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

theorem blk5_apply (c : Dev nD) (t : Fin cfg3.N) (q : Fin 128) :
    (iblk3 V c 5 t : S1x128.Idx → EReal) (ix2 (0 : Fin 1) q) = (V c main_v146 : S1x128.Idx → EReal) (ix2 (0 : Fin 1) q) := by
  obtain ⟨-, -, -, -, -, -, -, -, -, -, e50, e51, -⟩ := idx_facts t
  show (V c main_v146 : S1x128.Idx → EReal) (((cfg3.win 5).blk t).view.emb (ix2 (0 : Fin 1) q)) = _
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

theorem blk6_apply (c : Dev nD) (t : Fin cfg3.N) (q : Fin 128) :
    (iblk3 V c 6 t : S1x128.Idx → EReal) (ix2 (0 : Fin 1) q) = (V c main_v149 : S1x128.Idx → EReal) (ix2 (0 : Fin 1) q) := by
  obtain ⟨-, -, -, -, -, -, -, -, -, -, -, -, e60, e61, -⟩ := idx_facts t
  show (V c main_v149 : S1x128.Idx → EReal) (((cfg3.win 6).blk t).view.emb (ix2 (0 : Fin 1) q)) = _
  refine congrArg _ (funext fun a => Fin.ext ?_)
  match a with
  | ⟨0, _⟩ => show win3_6.index t (0 : Fin 2) * 1 + 1 * 0 = 0; omega
  | ⟨1, _⟩ => show win3_6.index t (1 : Fin 2) * 128 + 1 * q.val = q.val; omega

/-- The output's block `t` embeds (p, q) at (2000·t + p, q). -/
theorem emb7 (t : Fin cfg3.N) (p : Fin 2000) (q : Fin 128) :
    (((cfg3.win 7).blk t).view.emb (ix2 p q) : S100000x128.Idx) = ix2 (row t p) q := by
  obtain ⟨-, -, -, -, -, -, -, -, -, -, -, -, -, -, e70, e71⟩ := idx_facts t
  refine funext fun a => Fin.ext ?_
  match a with
  | ⟨0, _⟩ => show win3_7.index t (0 : Fin 2) * 2000 + 1 * p.val = t.val * 2000 + p.val; omega
  | ⟨1, _⟩ => show win3_7.index t (1 : Fin 2) * 128 + 1 * q.val = q.val; omega

/-- This region's affine part as its body spells it: the nodes' own block passes through one more re-laying onto its
    own shape, which changes nothing, before the product. -/
def affineR (x0 x1 : Vec Ideal S2000x128 .f32) (x2 x4 : Vec Ideal S128x128 .f32) (x3 : Vec Ideal S1x128 .f32) :
    FVec Ideal S2000x128 .f32 :=
  addf (addf (matmul dot_S2000x128_S128x128_S2000x128_1_0_0_1_n_n none
        (truncf .bf16 (shapeCast S2000x128 x0 shapeCasts_S2000x128_S2000x128) bitsLt_bf16_f32)
        (truncf .bf16 (shapeCast S128x128 x2 shapeCasts_S128x128_S128x128) bitsLt_bf16_f32)
        (constant (F := Ideal) S2000x128 .f32 0x00000000#32))
      (broadcastTo S2000x128 (shapeCast S1x128 x3 shapeCasts_S1x128_S1x128) broadcasts_S1x128_S2000x128))
    (matmul dot_S2000x128_S128x128_S2000x128_1_0_0_1_n_n none
      (truncf .bf16 (shapeCast S2000x128 x1 shapeCasts_S2000x128_S2000x128) bitsLt_bf16_f32)
      (truncf .bf16 (shapeCast S128x128 x4 shapeCasts_S128x128_S128x128) bitsLt_bf16_f32)
      (constant (F := Ideal) S2000x128 .f32 0x00000000#32))

theorem affineR_eq (x0 x1 : Vec Ideal S2000x128 .f32) (x2 x4 : Vec Ideal S128x128 .f32) (x3 : Vec Ideal S1x128 .f32) :
    affineR x0 x1 x2 x4 x3 = Cert.KernelIdeal.Body.affine x0 x1 x2 x4 x3 := by
  unfold affineR Cert.KernelIdeal.Body.affine
  rw [shapeCast_self x1 shapeCasts_S2000x128_S2000x128]

/-- This region's stored value is the normalisation of its affine part (the body's text, regrouped). -/
theorem pay_eq (x0 x1 : Vec Ideal S2000x128 .f32) (x2 x4 : Vec Ideal S128x128 .f32) (x3 x5 x6 : Vec Ideal S1x128 .f32) :
    k3_pay1 (F := Ideal) (k3_pay2 (F := Ideal) x0 x1 x2 x4 x3 x5) x6
      = Cert.KernelIdeal.Body.normed (Cert.KernelIdeal.Body.affine x0 x1 x2 x4 x3) x5 x6 := by
  have h : k3_pay1 (F := Ideal) (k3_pay2 (F := Ideal) x0 x1 x2 x4 x3 x5) x6
      = Cert.KernelIdeal.Body.normed (affineR x0 x1 x2 x4 x3) x5 x6 := rfl
  rw [h, affineR_eq]

/-- This region's stored block at (p, q): the layer's value for row p of the two feature blocks. -/
theorem pay_apply (x0 x1 : Vec Ideal S2000x128 .f32) (x2 x4 : Vec Ideal S128x128 .f32) (x3 x5 x6 : Vec Ideal S1x128 .f32)
    (p : Fin 2000) (q : Fin 128) :
    k3_pay1 (F := Ideal) (k3_pay2 (F := Ideal) x0 x1 x2 x4 x3 x5) x6 (ix2 p q)
      = Cert.Spec.layerRow (Cert.Spec.pre x0 x1 x2 x4 (fun c => x3 (ix2 (0 : Fin 1) c)) p)
          (fun c => x5 (ix2 (0 : Fin 1) c)) (fun c => x6 (ix2 (0 : Fin 1) c)) q := by
  rw [pay_eq, Cert.KernelIdeal.Body.normed_apply]
  refine congrArg (fun z => Cert.Spec.layerRow z _ _ q) (funext fun c => ?_)
  exact Cert.KernelIdeal.Body.affine_apply x0 x1 x2 x4 x3 p c

/-- What point `t` writes back is block `t` of the layer of the arrays the region finds. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  unfold out3_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (pay_apply (iblk3 V c 0 t) (iblk3 V c 1 t) (iblk3 V c 2 t) (iblk3 V c 4 t) (iblk3 V c 3 t)
    (iblk3 V c 5 t) (iblk3 V c 6 t) p q).trans ?_
  show _ = G V c (((cfg3.win 7).blk t).view.emb (ix2 p q))
  rw [emb7 t p q]
  unfold G
  rw [Cert.Spec.layerG_ix2]
  have hpre : Cert.Spec.pre (iblk3 V c 0 t : S2000x128.Idx → EReal) (iblk3 V c 1 t : S2000x128.Idx → EReal)
        (iblk3 V c 2 t : S128x128.Idx → EReal) (iblk3 V c 4 t : S128x128.Idx → EReal)
        (fun q => (iblk3 V c 3 t : S1x128.Idx → EReal) (ix2 (0 : Fin 1) q)) p
      = Cert.Spec.pre (N := 100000) (V c main_v119 : S100000x128.Idx → EReal) (V c main_v75 : S100000x128.Idx → EReal)
        (V c main_v137 : S128x128.Idx → EReal) (V c main_v140 : S128x128.Idx → EReal)
        (fun q => (V c main_v143 : S1x128.Idx → EReal) (ix2 (0 : Fin 1) q)) (row t p) := by
    funext cc
    unfold Cert.Spec.pre
    simp only [blk0_apply V c t, blk1_apply V c t, blk2_apply V c t, blk4_apply V c t, blk3_apply V c t]
  rw [hpre]
  simp only [blk5_apply V c t, blk6_apply V c t]

/-- An index of the output is in point `t`'s block iff its row is among the block's 2000. -/
theorem mem_blk (t : Fin cfg3.N) (i : S100000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v151).slice (win3_7.rect t)).set ↔ _
  rw [View.set_slice_whole, Rect.mem_set_unit]
  exact Iff.rfl

/-- Every index of the output lies in the block of the point its row falls in. -/
theorem cover (i : S100000x128.Idx) : ∃ t : Fin cfg3.N, (cfg3.win 7).flush t = true ∧ i ∈ ((cfg3.win 7).blk t).view.set := by
  have hi0 : (i 0).val < 100000 := (i 0).isLt
  have hi1 : (i 1).val < 128 := (i 1).isLt
  let t : Fin cfg3.N := ⟨(i 0).val / 2000, by rw [show cfg3.N = 50 from N_3]; omega⟩
  obtain ⟨-, -, -, -, -, -, -, -, -, -, -, -, -, -, e70, e71⟩ := idx_facts t
  have ht : t.val = (i 0).val / 2000 := rfl
  refine ⟨t, flush3_7 t, ?_⟩
  rw [mem_blk]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

/-- After the region its output array is the layer of the arrays it found. -/
theorem final (c : Dev nD) : (dat3 (F := Ideal) V c).arrAt 7 cfg3.N = G V c :=
  (dat3 (F := Ideal) V c).arrAt_eq_of_cover 7 (G V c) (fun t _ => flushed_eq V c t) (cover)

/-- The same with the region's seven input arrays named, the three rows given as 128-vectors re-laid as one row: a
    re-laid vector reads, along its one row, the vector. -/
theorem final_vec (c : Dev nD) (A0 A1 : S100000x128.Idx → EReal) (A2 A4 : S128x128.Idx → EReal) (b3 b5 b6 : S128.Idx → EReal)
    (h0 : (V c main_v119 : S100000x128.Idx → EReal) = A0) (h1 : (V c main_v75 : S100000x128.Idx → EReal) = A1)
    (h2 : (V c main_v137 : S128x128.Idx → EReal) = A2) (h4 : (V c main_v140 : S128x128.Idx → EReal) = A4)
    (h3 : (V c main_v143 : S1x128.Idx → EReal) = shapeCast S1x128 b3 shapeCasts_S128_S1x128)
    (h5 : (V c main_v146 : S1x128.Idx → EReal) = shapeCast S1x128 b5 shapeCasts_S128_S1x128)
    (h6 : (V c main_v149 : S1x128.Idx → EReal) = shapeCast S1x128 b6 shapeCasts_S128_S1x128) :
    (dat3 (F := Ideal) V c).arrAt 7 cfg3.N
      = Cert.Spec.layerG (N := 100000) A0 A1 A2 A4 (fun q => b3 (ix1 q)) (fun q => b5 (ix1 q)) (fun q => b6 (ix1 q)) := by
  have e : ∀ (b : S128.Idx → EReal) (q : Fin 128),
      shapeCast S1x128 b shapeCasts_S128_S1x128 (ix2 (0 : Fin 1) q) = b (ix1 q) :=
    fun b q => shapeCast_a_1a_apply b shapeCasts_S128_S1x128 0 q
  rw [final V c]
  unfold G
  rw [h0, h1, h2, h4, h3, h5, h6]
  simp only [e]

end Cert.KernelIdeal.Blocks3

end
-- ==== Proof.HostGlue.lean ====
/- What the host stretches of the idealized kernel's @main leave in the buffers its regions read.

   @main alternates stretches of host operations with pipelined regions. Each stretch is a straight line of
   operations in single-assignment form, so the contents it leaves in a buffer is a fixed expression in the contents
   the stretch started from. This module names those expressions and reads them off, for ANY start valuation `X`:
   * stretch 0 computes, from the arguments, the segment means of the two feature tables (`segMean`: gather the rows
     named by the first row of an edge list, add them up at the rows named by its second row, divide by the clamped
     counts) and the slices of the weight and bias arguments the first layer uses (`wT`, `vec`, `row`);
   * stretch 2 does the same for the second layer, reading the first layer's two outputs in place of the two
     feature arguments;
   * stretch 4 joins the second layer's two outputs along the row axis.
   Each equation is closed by unfolding the fold over the stretch: what is left is the named expression, by
   definition. No stretch writes an argument buffer, and stretch 2 leaves the first layer's outputs in place. -/
import proofs.«174562_j58179626992425_1_alg».proof.Proof.Gen.KernelIdeal.Launch
import Idealize.ShloMosaic.Lib.StableHlo.Run
import Idealize.ShloMosaic.PureOps.Ideal

noncomputable section

namespace Cert.KernelIdeal.Glue

open Idealize.ShloMosaic Idealize.ShloMosaic.TcCoe Idealize.SL.Sem Idealize.ShloMosaic.StableHlo
open Cert.KernelIdeal Cert.KernelIdeal.Gen

/-! ## The stretches' values, as functions of the buffers they read -/

/-- Row 0 of an edge list (the rows gathered FROM), as a vector of 1600000 indices. -/
def edgeRow0 (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
/-- Row 1 of an edge list (the rows added INTO), as a vector of 1600000 indices. -/
def edgeRow1 (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000
/-- The source row of every edge, one index per edge: a negative index counts from the end (100000 is added). -/
def srcIdx (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32)))
      (edgeRow0 e))
/-- The destination row of every edge, one index per edge. -/
def dstIdx (e : (⟨S2x1600000, .i32⟩ : BufTy).Contents (Elt Ideal)) : (⟨S1600000x1, .i32⟩ : BufTy).Contents (Elt Ideal) :=
  broadcastInDim S1600000x1 ![0] bcast_S1600000_S1600000x1_0 (edgeRow1 e)
/-- Per destination row, the sum of the source rows of `x` over the edges that end there. -/
def segSum (x : (⟨S100000x128, .f32⟩ : BufTy).Contents (Elt Ideal)) (e : (⟨S2x1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (dstIdx e)
    (Host.gather gather_S100000x128_S1600000x1_S1600000x128_1_0_n_n_0_1_1128 x (srcIdx e))
/-- Per destination row, the number of edges that end there, at least one. -/
def segCount (e : (⟨S2x1600000, .i32⟩ : BufTy).Contents (Elt Ideal)) : (⟨S100000x1, .f32⟩ : BufTy).Contents (Elt Ideal) :=
  maximumf
    (Host.scatterAdd scatter_S100000x1_S1600000x1_S1600000x1_1_0_0_1
      (broadcastInDim S100000x1 ![] bcast_S_S100000x1 (constant (F := Ideal) S_ .f32 0x00000000#32))
      (dstIdx e)
      (broadcastInDim S1600000x1 ![] bcast_S_S1600000x1 (constant (F := Ideal) S_ .f32 0x3F800000#32)))
    (broadcastInDim S100000x1 ![] bcast_S_S100000x1 (constant (F := Ideal) S_ .f32 0x3F800000#32))
/-- The segment mean: per destination row, the sum of the gathered source rows divided by the clamped count. -/
def segMean (x : (⟨S100000x128, .f32⟩ : BufTy).Contents (Elt Ideal)) (e : (⟨S2x1600000, .i32⟩ : BufTy).Contents (Elt Ideal)) : (⟨S100000x128, .f32⟩ : BufTy).Contents (Elt Ideal) :=
  Host.divf (F := Ideal) (φ := .f32) (segSum x e) (broadcastInDim S100000x128 ![0, 1] bcast_S100000x1_S100000x128_0_1 (segCount e))

/-- The transpose of the 128 x 128 matrix at position [0, 0] of a stack of weights. -/
def wT00 (w : (⟨S2x2x128x128, .f32⟩ : BufTy).Contents (Elt Ideal)) : (⟨S128x128, .f32⟩ : BufTy).Contents (Elt Ideal) :=
  transpose S128x128 [1, 0]
    (shapeCast S128x128 (extractStridedSlice S1x1x128x128 ![0, 0, 0, 0] w slices_S2x2x128x128_S1x1x128x128_0_0_0_0) shapeCasts_S1x1x128x128_S128x128)
    transposes_S128x128_S128x128_1_0
/-- The 128-vector at position [0, 0] of a stack of vectors. -/
def vec00 (v : (⟨S2x2x128, .f32⟩ : BufTy).Contents (Elt Ideal)) : (⟨S128, .f32⟩ : BufTy).Contents (Elt Ideal) :=
  shapeCast S128 (extractStridedSlice S1x1x128 ![0, 0, 0] v slices_S2x2x128_S1x1x128_0_0_0) shapeCasts_S1x1x128_S128
/-- The transpose of the 128 x 128 matrix at position [0, 1] of a stack of weights. -/
def wT01 (w : (⟨S2x2x128x128, .f32⟩ : BufTy).Contents (Elt Ideal)) : (⟨S128x128, .f32⟩ : BufTy).Contents (Elt Ideal) :=
  transpose S128x128 [1, 0]
    (shapeCast S128x128 (extractStridedSlice S1x1x128x128 ![0, 1, 0, 0] w slices_S2x2x128x128_S1x1x128x128_0_1_0_0) shapeCasts_S1x1x128x128_S128x128)
    transposes_S128x128_S128x128_1_0
/-- The 128-vector at position [0, 1] of a stack of vectors. -/
def vec01 (v : (⟨S2x2x128, .f32⟩ : BufTy).Contents (Elt Ideal)) : (⟨S128, .f32⟩ : BufTy).Contents (Elt Ideal) :=
  shapeCast S128 (extractStridedSlice S1x1x128 ![0, 1, 0] v slices_S2x2x128_S1x1x128_0_1_0) shapeCasts_S1x1x128_S128
/-- The transpose of the 128 x 128 matrix at position [1, 0] of a stack of weights. -/
def wT10 (w : (⟨S2x2x128x128, .f32⟩ : BufTy).Contents (Elt Ideal)) : (⟨S128x128, .f32⟩ : BufTy).Contents (Elt Ideal) :=
  transpose S128x128 [1, 0]
    (shapeCast S128x128 (extractStridedSlice S1x1x128x128 ![1, 0, 0, 0] w slices_S2x2x128x128_S1x1x128x128_1_0_0_0) shapeCasts_S1x1x128x128_S128x128)
    transposes_S128x128_S128x128_1_0
/-- The 128-vector at position [1, 0] of a stack of vectors. -/
def vec10 (v : (⟨S2x2x128, .f32⟩ : BufTy).Contents (Elt Ideal)) : (⟨S128, .f32⟩ : BufTy).Contents (Elt Ideal) :=
  shapeCast S128 (extractStridedSlice S1x1x128 ![1, 0, 0] v slices_S2x2x128_S1x1x128_1_0_0) shapeCasts_S1x1x128_S128
/-- The transpose of the 128 x 128 matrix at position [1, 1] of a stack of weights. -/
def wT11 (w : (⟨S2x2x128x128, .f32⟩ : BufTy).Contents (Elt Ideal)) : (⟨S128x128, .f32⟩ : BufTy).Contents (Elt Ideal) :=
  transpose S128x128 [1, 0]
    (shapeCast S128x128 (extractStridedSlice S1x1x128x128 ![1, 1, 0, 0] w slices_S2x2x128x128_S1x1x128x128_1_1_0_0) shapeCasts_S1x1x128x128_S128x128)
    transposes_S128x128_S128x128_1_0
/-- The 128-vector at position [1, 1] of a stack of vectors. -/
def vec11 (v : (⟨S2x2x128, .f32⟩ : BufTy).Contents (Elt Ideal)) : (⟨S128, .f32⟩ : BufTy).Contents (Elt Ideal) :=
  shapeCast S128 (extractStridedSlice S1x1x128 ![1, 1, 0] v slices_S2x2x128_S1x1x128_1_1_0) shapeCasts_S1x1x128_S128
/-- A 128-vector laid out as one row. -/
def row (v : (⟨S128, .f32⟩ : BufTy).Contents (Elt Ideal)) : (⟨S1x128, .f32⟩ : BufTy).Contents (Elt Ideal) :=
  shapeCast S1x128 v shapeCasts_S128_S1x128

/-! ## Stretch 0: the first layer's operands, from the arguments -/

theorem s0_main_v21 (X : Valuation τ sig (Elt Ideal)) :
    StableHlo.after (hostOps0 (F := Ideal)) X (Proc.devRef .tc main_v21) = segMean (X (Proc.devRef .tc main_arg0)) (X (Proc.devRef .tc main_arg2)) := by
  dsimp only [hostOps0]; after_results_simp; rfl
theorem s0_main_v43 (X : Valuation τ sig (Elt Ideal)) :
    StableHlo.after (hostOps0 (F := Ideal)) X (Proc.devRef .tc main_v43) = segMean (X (Proc.devRef .tc main_arg1)) (X (Proc.devRef .tc main_arg3)) := by
  dsimp only [hostOps0]; after_results_simp; rfl
theorem s0_main_v46 (X : Valuation τ sig (Elt Ideal)) :
    StableHlo.after (hostOps0 (F := Ideal)) X (Proc.devRef .tc main_v46) = wT00 (X (Proc.devRef .tc main_arg4)) := by
  dsimp only [hostOps0]; after_results_simp; rfl
theorem s0_main_v49 (X : Valuation τ sig (Elt Ideal)) :
    StableHlo.after (hostOps0 (F := Ideal)) X (Proc.devRef .tc main_v49) = wT00 (X (Proc.devRef .tc main_arg6)) := by
  dsimp only [hostOps0]; after_results_simp; rfl
theorem s0_main_v51 (X : Valuation τ sig (Elt Ideal)) :
    StableHlo.after (hostOps0 (F := Ideal)) X (Proc.devRef .tc main_v51) = vec00 (X (Proc.devRef .tc main_arg5)) := by
  dsimp only [hostOps0]; after_results_simp; rfl
theorem s0_main_v52 (X : Valuation τ sig (Elt Ideal)) :
    StableHlo.after (hostOps0 (F := Ideal)) X (Proc.devRef .tc main_v52) = row (vec00 (X (Proc.devRef .tc main_arg5))) := by
  dsimp only [hostOps0]; after_results_simp; rfl
theorem s0_main_v54 (X : Valuation τ sig (Elt Ideal)) :
    StableHlo.after (hostOps0 (F := Ideal)) X (Proc.devRef .tc main_v54) = vec01 (X (Proc.devRef .tc main_arg7)) := by
  dsimp only [hostOps0]; after_results_simp; rfl
theorem s0_main_v55 (X : Valuation τ sig (Elt Ideal)) :
    StableHlo.after (hostOps0 (F := Ideal)) X (Proc.devRef .tc main_v55) = row (vec01 (X (Proc.devRef .tc main_arg7))) := by
  dsimp only [hostOps0]; after_results_simp; rfl
theorem s0_main_v57 (X : Valuation τ sig (Elt Ideal)) :
    StableHlo.after (hostOps0 (F := Ideal)) X (Proc.devRef .tc main_v57) = vec01 (X (Proc.devRef .tc main_arg8)) := by
  dsimp only [hostOps0]; after_results_simp; rfl
theorem s0_main_v58 (X : Valuation τ sig (Elt Ideal)) :
    StableHlo.after (hostOps0 (F := Ideal)) X (Proc.devRef .tc main_v58) = row (vec01 (X (Proc.devRef .tc main_arg8))) := by
  dsimp only [hostOps0]; after_results_simp; rfl
theorem s0_main_v61 (X : Valuation τ sig (Elt Ideal)) :
    StableHlo.after (hostOps0 (F := Ideal)) X (Proc.devRef .tc main_v61) = wT01 (X (Proc.devRef .tc main_arg4)) := by
  dsimp only [hostOps0]; after_results_simp; rfl
theorem s0_main_v64 (X : Valuation τ sig (Elt Ideal)) :
    StableHlo.after (hostOps0 (F := Ideal)) X (Proc.devRef .tc main_v64) = wT01 (X (Proc.devRef .tc main_arg6)) := by
  dsimp only [hostOps0]; after_results_simp; rfl
theorem s0_main_v66 (X : Valuation τ sig (Elt Ideal)) :
    StableHlo.after (hostOps0 (F := Ideal)) X (Proc.devRef .tc main_v66) = vec01 (X (Proc.devRef .tc main_arg5)) := by
  dsimp only [hostOps0]; after_results_simp; rfl
theorem s0_main_v67 (X : Valuation τ sig (Elt Ideal)) :
    StableHlo.after (hostOps0 (F := Ideal)) X (Proc.devRef .tc main_v67) = row (vec01 (X (Proc.devRef .tc main_arg5))) := by
  dsimp only [hostOps0]; after_results_simp; rfl
theorem s0_main_v69 (X : Valuation τ sig (Elt Ideal)) :
    StableHlo.after (hostOps0 (F := Ideal)) X (Proc.devRef .tc main_v69) = vec00 (X (Proc.devRef .tc main_arg7)) := by
  dsimp only [hostOps0]; after_results_simp; rfl
theorem s0_main_v70 (X : Valuation τ sig (Elt Ideal)) :
    StableHlo.after (hostOps0 (F := Ideal)) X (Proc.devRef .tc main_v70) = row (vec00 (X (Proc.devRef .tc main_arg7))) := by
  dsimp only [hostOps0]; after_results_simp; rfl
theorem s0_main_v72 (X : Valuation τ sig (Elt Ideal)) :
    StableHlo.after (hostOps0 (F := Ideal)) X (Proc.devRef .tc main_v72) = vec00 (X (Proc.devRef .tc main_arg8)) := by
  dsimp only [hostOps0]; after_results_simp; rfl
theorem s0_main_v73 (X : Valuation τ sig (Elt Ideal)) :
    StableHlo.after (hostOps0 (F := Ideal)) X (Proc.devRef .tc main_v73) = row (vec00 (X (Proc.devRef .tc main_arg8))) := by
  dsimp only [hostOps0]; after_results_simp; rfl

/-! ## Stretch 2: the second layer's operands, from the first layer's outputs and the arguments -/

theorem s2_main_v97 (X : Valuation τ sig (Elt Ideal)) :
    StableHlo.after (hostOps2 (F := Ideal)) X (Proc.devRef .tc main_v97) = segMean (X (Proc.devRef .tc main_v75)) (X (Proc.devRef .tc main_arg2)) := by
  dsimp only [hostOps2]; after_results_simp; rfl
theorem s2_main_v119 (X : Valuation τ sig (Elt Ideal)) :
    StableHlo.after (hostOps2 (F := Ideal)) X (Proc.devRef .tc main_v119) = segMean (X (Proc.devRef .tc main_v74)) (X (Proc.devRef .tc main_arg3)) := by
  dsimp only [hostOps2]; after_results_simp; rfl
theorem s2_main_v122 (X : Valuation τ sig (Elt Ideal)) :
    StableHlo.after (hostOps2 (F := Ideal)) X (Proc.devRef .tc main_v122) = wT10 (X (Proc.devRef .tc main_arg4)) := by
  dsimp only [hostOps2]; after_results_simp; rfl
theorem s2_main_v125 (X : Valuation τ sig (Elt Ideal)) :
    StableHlo.after (hostOps2 (F := Ideal)) X (Proc.devRef .tc main_v125) = wT10 (X (Proc.devRef .tc main_arg6)) := by
  dsimp only [hostOps2]; after_results_simp; rfl
theorem s2_main_v127 (X : Valuation τ sig (Elt Ideal)) :
    StableHlo.after (hostOps2 (F := Ideal)) X (Proc.devRef .tc main_v127) = vec10 (X (Proc.devRef .tc main_arg5)) := by
  dsimp only [hostOps2]; after_results_simp; rfl
theorem s2_main_v128 (X : Valuation τ sig (Elt Ideal)) :
    StableHlo.after (hostOps2 (F := Ideal)) X (Proc.devRef .tc main_v128) = row (vec10 (X (Proc.devRef .tc main_arg5))) := by
  dsimp only [hostOps2]; after_results_simp; rfl
theorem s2_main_v130 (X : Valuation τ sig (Elt Ideal)) :
    StableHlo.after (hostOps2 (F := Ideal)) X (Proc.devRef .tc main_v130) = vec11 (X (Proc.devRef .tc main_arg7)) := by
  dsimp only [hostOps2]; after_results_simp; rfl
theorem s2_main_v131 (X : Valuation τ sig (Elt Ideal)) :
    StableHlo.after (hostOps2 (F := Ideal)) X (Proc.devRef .tc main_v131) = row (vec11 (X (Proc.devRef .tc main_arg7))) := by
  dsimp only [hostOps2]; after_results_simp; rfl
theorem s2_main_v133 (X : Valuation τ sig (Elt Ideal)) :
    StableHlo.after (hostOps2 (F := Ideal)) X (Proc.devRef .tc main_v133) = vec11 (X (Proc.devRef .tc main_arg8)) := by
  dsimp only [hostOps2]; after_results_simp; rfl
theorem s2_main_v134 (X : Valuation τ sig (Elt Ideal)) :
    StableHlo.after (hostOps2 (F := Ideal)) X (Proc.devRef .tc main_v134) = row (vec11 (X (Proc.devRef .tc main_arg8))) := by
  dsimp only [hostOps2]; after_results_simp; rfl
theorem s2_main_v137 (X : Valuation τ sig (Elt Ideal)) :
    StableHlo.after (hostOps2 (F := Ideal)) X (Proc.devRef .tc main_v137) = wT11 (X (Proc.devRef .tc main_arg4)) := by
  dsimp only [hostOps2]; after_results_simp; rfl
theorem s2_main_v140 (X : Valuation τ sig (Elt Ideal)) :
    StableHlo.after (hostOps2 (F := Ideal)) X (Proc.devRef .tc main_v140) = wT11 (X (Proc.devRef .tc main_arg6)) := by
  dsimp only [hostOps2]; after_results_simp; rfl
theorem s2_main_v142 (X : Valuation τ sig (Elt Ideal)) :
    StableHlo.after (hostOps2 (F := Ideal)) X (Proc.devRef .tc main_v142) = vec11 (X (Proc.devRef .tc main_arg5)) := by
  dsimp only [hostOps2]; after_results_simp; rfl
theorem s2_main_v143 (X : Valuation τ sig (Elt Ideal)) :
    StableHlo.after (hostOps2 (F := Ideal)) X (Proc.devRef .tc main_v143) = row (vec11 (X (Proc.devRef .tc main_arg5))) := by
  dsimp only [hostOps2]; after_results_simp; rfl
theorem s2_main_v145 (X : Valuation τ sig (Elt Ideal)) :
    StableHlo.after (hostOps2 (F := Ideal)) X (Proc.devRef .tc main_v145) = vec10 (X (Proc.devRef .tc main_arg7)) := by
  dsimp only [hostOps2]; after_results_simp; rfl
theorem s2_main_v146 (X : Valuation τ sig (Elt Ideal)) :
    StableHlo.after (hostOps2 (F := Ideal)) X (Proc.devRef .tc main_v146) = row (vec10 (X (Proc.devRef .tc main_arg7))) := by
  dsimp only [hostOps2]; after_results_simp; rfl
theorem s2_main_v148 (X : Valuation τ sig (Elt Ideal)) :
    StableHlo.after (hostOps2 (F := Ideal)) X (Proc.devRef .tc main_v148) = vec10 (X (Proc.devRef .tc main_arg8)) := by
  dsimp only [hostOps2]; after_results_simp; rfl
theorem s2_main_v149 (X : Valuation τ sig (Elt Ideal)) :
    StableHlo.after (hostOps2 (F := Ideal)) X (Proc.devRef .tc main_v149) = row (vec10 (X (Proc.devRef .tc main_arg8))) := by
  dsimp only [hostOps2]; after_results_simp; rfl

/-! ## No stretch writes an argument buffer -/

theorem s0_main_arg0 (X : Valuation τ sig (Elt Ideal)) :
    StableHlo.after (hostOps0 (F := Ideal)) X (Proc.devRef .tc main_arg0) = X (Proc.devRef .tc main_arg0) := by
  dsimp only [hostOps0]; after_results_simp
theorem s0_main_arg1 (X : Valuation τ sig (Elt Ideal)) :
    StableHlo.after (hostOps0 (F := Ideal)) X (Proc.devRef .tc main_arg1) = X (Proc.devRef .tc main_arg1) := by
  dsimp only [hostOps0]; after_results_simp
theorem s0_main_arg2 (X : Valuation τ sig (Elt Ideal)) :
    StableHlo.after (hostOps0 (F := Ideal)) X (Proc.devRef .tc main_arg2) = X (Proc.devRef .tc main_arg2) := by
  dsimp only [hostOps0]; after_results_simp
theorem s0_main_arg3 (X : Valuation τ sig (Elt Ideal)) :
    StableHlo.after (hostOps0 (F := Ideal)) X (Proc.devRef .tc main_arg3) = X (Proc.devRef .tc main_arg3) := by
  dsimp only [hostOps0]; after_results_simp
theorem s0_main_arg4 (X : Valuation τ sig (Elt Ideal)) :
    StableHlo.after (hostOps0 (F := Ideal)) X (Proc.devRef .tc main_arg4) = X (Proc.devRef .tc main_arg4) := by
  dsimp only [hostOps0]; after_results_simp
theorem s0_main_arg5 (X : Valuation τ sig (Elt Ideal)) :
    StableHlo.after (hostOps0 (F := Ideal)) X (Proc.devRef .tc main_arg5) = X (Proc.devRef .tc main_arg5) := by
  dsimp only [hostOps0]; after_results_simp
theorem s0_main_arg6 (X : Valuation τ sig (Elt Ideal)) :
    StableHlo.after (hostOps0 (F := Ideal)) X (Proc.devRef .tc main_arg6) = X (Proc.devRef .tc main_arg6) := by
  dsimp only [hostOps0]; after_results_simp
theorem s0_main_arg7 (X : Valuation τ sig (Elt Ideal)) :
    StableHlo.after (hostOps0 (F := Ideal)) X (Proc.devRef .tc main_arg7) = X (Proc.devRef .tc main_arg7) := by
  dsimp only [hostOps0]; after_results_simp
theorem s0_main_arg8 (X : Valuation τ sig (Elt Ideal)) :
    StableHlo.after (hostOps0 (F := Ideal)) X (Proc.devRef .tc main_arg8) = X (Proc.devRef .tc main_arg8) := by
  dsimp only [hostOps0]; after_results_simp

theorem s2_main_arg0 (X : Valuation τ sig (Elt Ideal)) :
    StableHlo.after (hostOps2 (F := Ideal)) X (Proc.devRef .tc main_arg0) = X (Proc.devRef .tc main_arg0) := by
  dsimp only [hostOps2]; after_results_simp
theorem s2_main_arg1 (X : Valuation τ sig (Elt Ideal)) :
    StableHlo.after (hostOps2 (F := Ideal)) X (Proc.devRef .tc main_arg1) = X (Proc.devRef .tc main_arg1) := by
  dsimp only [hostOps2]; after_results_simp
theorem s2_main_arg2 (X : Valuation τ sig (Elt Ideal)) :
    StableHlo.after (hostOps2 (F := Ideal)) X (Proc.devRef .tc main_arg2) = X (Proc.devRef .tc main_arg2) := by
  dsimp only [hostOps2]; after_results_simp
theorem s2_main_arg3 (X : Valuation τ sig (Elt Ideal)) :
    StableHlo.after (hostOps2 (F := Ideal)) X (Proc.devRef .tc main_arg3) = X (Proc.devRef .tc main_arg3) := by
  dsimp only [hostOps2]; after_results_simp
theorem s2_main_arg4 (X : Valuation τ sig (Elt Ideal)) :
    StableHlo.after (hostOps2 (F := Ideal)) X (Proc.devRef .tc main_arg4) = X (Proc.devRef .tc main_arg4) := by
  dsimp only [hostOps2]; after_results_simp
theorem s2_main_arg5 (X : Valuation τ sig (Elt Ideal)) :
    StableHlo.after (hostOps2 (F := Ideal)) X (Proc.devRef .tc main_arg5) = X (Proc.devRef .tc main_arg5) := by
  dsimp only [hostOps2]; after_results_simp
theorem s2_main_arg6 (X : Valuation τ sig (Elt Ideal)) :
    StableHlo.after (hostOps2 (F := Ideal)) X (Proc.devRef .tc main_arg6) = X (Proc.devRef .tc main_arg6) := by
  dsimp only [hostOps2]; after_results_simp
theorem s2_main_arg7 (X : Valuation τ sig (Elt Ideal)) :
    StableHlo.after (hostOps2 (F := Ideal)) X (Proc.devRef .tc main_arg7) = X (Proc.devRef .tc main_arg7) := by
  dsimp only [hostOps2]; after_results_simp
theorem s2_main_arg8 (X : Valuation τ sig (Elt Ideal)) :
    StableHlo.after (hostOps2 (F := Ideal)) X (Proc.devRef .tc main_arg8) = X (Proc.devRef .tc main_arg8) := by
  dsimp only [hostOps2]; after_results_simp

theorem s4_main_arg0 (X : Valuation τ sig (Elt Ideal)) :
    StableHlo.after (hostOps4 (F := Ideal)) X (Proc.devRef .tc main_arg0) = X (Proc.devRef .tc main_arg0) := by
  dsimp only [hostOps4]; after_results_simp
theorem s4_main_arg1 (X : Valuation τ sig (Elt Ideal)) :
    StableHlo.after (hostOps4 (F := Ideal)) X (Proc.devRef .tc main_arg1) = X (Proc.devRef .tc main_arg1) := by
  dsimp only [hostOps4]; after_results_simp
theorem s4_main_arg2 (X : Valuation τ sig (Elt Ideal)) :
    StableHlo.after (hostOps4 (F := Ideal)) X (Proc.devRef .tc main_arg2) = X (Proc.devRef .tc main_arg2) := by
  dsimp only [hostOps4]; after_results_simp
theorem s4_main_arg3 (X : Valuation τ sig (Elt Ideal)) :
    StableHlo.after (hostOps4 (F := Ideal)) X (Proc.devRef .tc main_arg3) = X (Proc.devRef .tc main_arg3) := by
  dsimp only [hostOps4]; after_results_simp
theorem s4_main_arg4 (X : Valuation τ sig (Elt Ideal)) :
    StableHlo.after (hostOps4 (F := Ideal)) X (Proc.devRef .tc main_arg4) = X (Proc.devRef .tc main_arg4) := by
  dsimp only [hostOps4]; after_results_simp
theorem s4_main_arg5 (X : Valuation τ sig (Elt Ideal)) :
    StableHlo.after (hostOps4 (F := Ideal)) X (Proc.devRef .tc main_arg5) = X (Proc.devRef .tc main_arg5) := by
  dsimp only [hostOps4]; after_results_simp
theorem s4_main_arg6 (X : Valuation τ sig (Elt Ideal)) :
    StableHlo.after (hostOps4 (F := Ideal)) X (Proc.devRef .tc main_arg6) = X (Proc.devRef .tc main_arg6) := by
  dsimp only [hostOps4]; after_results_simp
theorem s4_main_arg7 (X : Valuation τ sig (Elt Ideal)) :
    StableHlo.after (hostOps4 (F := Ideal)) X (Proc.devRef .tc main_arg7) = X (Proc.devRef .tc main_arg7) := by
  dsimp only [hostOps4]; after_results_simp
theorem s4_main_arg8 (X : Valuation τ sig (Elt Ideal)) :
    StableHlo.after (hostOps4 (F := Ideal)) X (Proc.devRef .tc main_arg8) = X (Proc.devRef .tc main_arg8) := by
  dsimp only [hostOps4]; after_results_simp

/-! ## Stretch 2 leaves the first layer's two outputs in place -/

theorem s2_main_v74 (X : Valuation τ sig (Elt Ideal)) :
    StableHlo.after (hostOps2 (F := Ideal)) X (Proc.devRef .tc main_v74) = X (Proc.devRef .tc main_v74) := by
  dsimp only [hostOps2]; after_results_simp
theorem s2_main_v75 (X : Valuation τ sig (Elt Ideal)) :
    StableHlo.after (hostOps2 (F := Ideal)) X (Proc.devRef .tc main_v75) = X (Proc.devRef .tc main_v75) := by
  dsimp only [hostOps2]; after_results_simp

/-! ## Stretch 4: the result is the second layer's two outputs joined along the rows -/

theorem s4_v152 (X : Valuation τ sig (Elt Ideal)) :
    StableHlo.after (hostOps4 (F := Ideal)) X (Proc.devRef .tc main_v152)
      = concatenate S200000x128 0 [⟨S100000x128, X (Proc.devRef .tc main_v151)⟩, ⟨S100000x128, X (Proc.devRef .tc main_v150)⟩]
          concatenates_S100000x128_S100000x128_S200000x128_d0 := by
  dsimp only [hostOps4]; after_results_simp

end Cert.KernelIdeal.Glue

end
-- ==== Proof.HostGlueRef.lean ====
/- The host stretches of the idealized kernel's @main compute the reference program's stage values.

   The kernel's host stretches and the reference program build the segment means, the weight and bias slices and the
   final concatenation by the same operations on the same operands; only the constants that name the shapes and the
   side conditions differ, and these have equal values. So each value named for the kernel's stretches equals the
   reference's stage value of the corresponding operation by unfolding both sides. The stretches' equations are then
   restated with the reference's stage values on the right. -/
import proofs.«174562_j58179626992425_1_alg».proof.Proof.RefReadP
import proofs.«174562_j58179626992425_1_alg».proof.Proof.HostGlue

noncomputable section

namespace Cert.KernelIdeal.GlueRef

open Idealize.ShloMosaic Idealize.ShloMosaic.TcCoe Idealize.SL.Sem Idealize.ShloMosaic.StableHlo
open Cert.KernelIdeal Cert.KernelIdeal.Gen

/-! ## The named values are the reference's stage values -/

theorem e_v21 (x0 : (⟨S100000x128, .f32⟩ : BufTy).Contents (Elt Ideal)) (x2 : (⟨S2x1600000, .i32⟩ : BufTy).Contents (Elt Ideal)) :
    Glue.segMean x0 x2 = Cert.ReferenceIdeal.Read.val_main_v21 (F := Ideal) x0 x2 := rfl
theorem e_v43 (x1 : (⟨S100000x128, .f32⟩ : BufTy).Contents (Elt Ideal)) (x3 : (⟨S2x1600000, .i32⟩ : BufTy).Contents (Elt Ideal)) :
    Glue.segMean x1 x3 = Cert.ReferenceIdeal.Read.val_main_v43 (F := Ideal) x1 x3 := rfl
theorem e_v46 (x4 : (⟨S2x2x128x128, .f32⟩ : BufTy).Contents (Elt Ideal)) :
    Glue.wT00 x4 = Cert.ReferenceIdeal.Read.val_main_v46 (F := Ideal) x4 := rfl
theorem e_v55 (x6 : (⟨S2x2x128x128, .f32⟩ : BufTy).Contents (Elt Ideal)) :
    Glue.wT00 x6 = Cert.ReferenceIdeal.Read.val_main_v55 (F := Ideal) x6 := rfl
theorem e_v49 (x5 : (⟨S2x2x128, .f32⟩ : BufTy).Contents (Elt Ideal)) :
    Glue.vec00 x5 = Cert.ReferenceIdeal.Read.val_main_v49 (F := Ideal) x5 := rfl
theorem e_v102 (x7 : (⟨S2x2x128, .f32⟩ : BufTy).Contents (Elt Ideal)) :
    Glue.vec01 x7 = Cert.ReferenceIdeal.Read.val_main_v102 (F := Ideal) x7 := rfl
theorem e_v104 (x8 : (⟨S2x2x128, .f32⟩ : BufTy).Contents (Elt Ideal)) :
    Glue.vec01 x8 = Cert.ReferenceIdeal.Read.val_main_v104 (F := Ideal) x8 := rfl
theorem e_v60 (x4 : (⟨S2x2x128x128, .f32⟩ : BufTy).Contents (Elt Ideal)) :
    Glue.wT01 x4 = Cert.ReferenceIdeal.Read.val_main_v60 (F := Ideal) x4 := rfl
theorem e_v69 (x6 : (⟨S2x2x128x128, .f32⟩ : BufTy).Contents (Elt Ideal)) :
    Glue.wT01 x6 = Cert.ReferenceIdeal.Read.val_main_v69 (F := Ideal) x6 := rfl
theorem e_v63 (x5 : (⟨S2x2x128, .f32⟩ : BufTy).Contents (Elt Ideal)) :
    Glue.vec01 x5 = Cert.ReferenceIdeal.Read.val_main_v63 (F := Ideal) x5 := rfl
theorem e_v73 (x7 : (⟨S2x2x128, .f32⟩ : BufTy).Contents (Elt Ideal)) :
    Glue.vec00 x7 = Cert.ReferenceIdeal.Read.val_main_v73 (F := Ideal) x7 := rfl
theorem e_v75 (x8 : (⟨S2x2x128, .f32⟩ : BufTy).Contents (Elt Ideal)) :
    Glue.vec00 x8 = Cert.ReferenceIdeal.Read.val_main_v75 (F := Ideal) x8 := rfl
theorem e_v151 (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Glue.segMean (Cert.ReferenceIdeal.Read.val_main_v100 (F := Ideal) x0 x1 x3 x4 x5 x6 x7 x8) x2 = Cert.ReferenceIdeal.Read.val_main_v151 (F := Ideal) x0 x1 x2 x3 x4 x5 x6 x7 x8 := rfl
theorem e_v173 (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Glue.segMean (Cert.ReferenceIdeal.Read.val_main_v129 (F := Ideal) x0 x1 x2 x4 x5 x6 x7 x8) x3 = Cert.ReferenceIdeal.Read.val_main_v173 (F := Ideal) x0 x1 x2 x3 x4 x5 x6 x7 x8 := rfl
theorem e_v176 (x4 : (⟨S2x2x128x128, .f32⟩ : BufTy).Contents (Elt Ideal)) :
    Glue.wT10 x4 = Cert.ReferenceIdeal.Read.val_main_v176 (F := Ideal) x4 := rfl
theorem e_v185 (x6 : (⟨S2x2x128x128, .f32⟩ : BufTy).Contents (Elt Ideal)) :
    Glue.wT10 x6 = Cert.ReferenceIdeal.Read.val_main_v185 (F := Ideal) x6 := rfl
theorem e_v179 (x5 : (⟨S2x2x128, .f32⟩ : BufTy).Contents (Elt Ideal)) :
    Glue.vec10 x5 = Cert.ReferenceIdeal.Read.val_main_v179 (F := Ideal) x5 := rfl
theorem e_v232 (x7 : (⟨S2x2x128, .f32⟩ : BufTy).Contents (Elt Ideal)) :
    Glue.vec11 x7 = Cert.ReferenceIdeal.Read.val_main_v232 (F := Ideal) x7 := rfl
theorem e_v234 (x8 : (⟨S2x2x128, .f32⟩ : BufTy).Contents (Elt Ideal)) :
    Glue.vec11 x8 = Cert.ReferenceIdeal.Read.val_main_v234 (F := Ideal) x8 := rfl
theorem e_v190 (x4 : (⟨S2x2x128x128, .f32⟩ : BufTy).Contents (Elt Ideal)) :
    Glue.wT11 x4 = Cert.ReferenceIdeal.Read.val_main_v190 (F := Ideal) x4 := rfl
theorem e_v199 (x6 : (⟨S2x2x128x128, .f32⟩ : BufTy).Contents (Elt Ideal)) :
    Glue.wT11 x6 = Cert.ReferenceIdeal.Read.val_main_v199 (F := Ideal) x6 := rfl
theorem e_v193 (x5 : (⟨S2x2x128, .f32⟩ : BufTy).Contents (Elt Ideal)) :
    Glue.vec11 x5 = Cert.ReferenceIdeal.Read.val_main_v193 (F := Ideal) x5 := rfl
theorem e_v203 (x7 : (⟨S2x2x128, .f32⟩ : BufTy).Contents (Elt Ideal)) :
    Glue.vec10 x7 = Cert.ReferenceIdeal.Read.val_main_v203 (F := Ideal) x7 := rfl
theorem e_v205 (x8 : (⟨S2x2x128, .f32⟩ : BufTy).Contents (Elt Ideal)) :
    Glue.vec10 x8 = Cert.ReferenceIdeal.Read.val_main_v205 (F := Ideal) x8 := rfl
theorem e_v260 (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    concatenate S200000x128 0 [⟨S100000x128, Cert.ReferenceIdeal.Read.val_main_v230 (F := Ideal) x0 x1 x2 x3 x4 x5 x6 x7 x8⟩, ⟨S100000x128, Cert.ReferenceIdeal.Read.val_main_v259 (F := Ideal) x0 x1 x2 x3 x4 x5 x6 x7 x8⟩]
        concatenates_S100000x128_S100000x128_S200000x128_d0
      = Cert.ReferenceIdeal.Read.val_main_v260 (F := Ideal) x0 x1 x2 x3 x4 x5 x6 x7 x8 := rfl

/-! ## Stretch 0 in the reference's terms -/

theorem s0_main_v21_ref (X : Valuation τ sig (Elt Ideal)) :
    StableHlo.after (hostOps0 (F := Ideal)) X (Proc.devRef .tc main_v21) = Cert.ReferenceIdeal.Read.val_main_v21 (F := Ideal) (X (Proc.devRef .tc main_arg0)) (X (Proc.devRef .tc main_arg2)) :=
  (Glue.s0_main_v21 X).trans (e_v21 _ _)
theorem s0_main_v43_ref (X : Valuation τ sig (Elt Ideal)) :
    StableHlo.after (hostOps0 (F := Ideal)) X (Proc.devRef .tc main_v43) = Cert.ReferenceIdeal.Read.val_main_v43 (F := Ideal) (X (Proc.devRef .tc main_arg1)) (X (Proc.devRef .tc main_arg3)) :=
  (Glue.s0_main_v43 X).trans (e_v43 _ _)
theorem s0_main_v46_ref (X : Valuation τ sig (Elt Ideal)) :
    StableHlo.after (hostOps0 (F := Ideal)) X (Proc.devRef .tc main_v46) = Cert.ReferenceIdeal.Read.val_main_v46 (F := Ideal) (X (Proc.devRef .tc main_arg4)) :=
  (Glue.s0_main_v46 X).trans (e_v46 _)
theorem s0_main_v49_ref (X : Valuation τ sig (Elt Ideal)) :
    StableHlo.after (hostOps0 (F := Ideal)) X (Proc.devRef .tc main_v49) = Cert.ReferenceIdeal.Read.val_main_v55 (F := Ideal) (X (Proc.devRef .tc main_arg6)) :=
  (Glue.s0_main_v49 X).trans (e_v55 _)
theorem s0_main_v51_ref (X : Valuation τ sig (Elt Ideal)) :
    StableHlo.after (hostOps0 (F := Ideal)) X (Proc.devRef .tc main_v51) = Cert.ReferenceIdeal.Read.val_main_v49 (F := Ideal) (X (Proc.devRef .tc main_arg5)) :=
  (Glue.s0_main_v51 X).trans (e_v49 _)
theorem s0_main_v52_ref (X : Valuation τ sig (Elt Ideal)) :
    StableHlo.after (hostOps0 (F := Ideal)) X (Proc.devRef .tc main_v52) = Glue.row (Cert.ReferenceIdeal.Read.val_main_v49 (F := Ideal) (X (Proc.devRef .tc main_arg5))) :=
  (Glue.s0_main_v52 X).trans (congrArg Glue.row (e_v49 _))
theorem s0_main_v54_ref (X : Valuation τ sig (Elt Ideal)) :
    StableHlo.after (hostOps0 (F := Ideal)) X (Proc.devRef .tc main_v54) = Cert.ReferenceIdeal.Read.val_main_v102 (F := Ideal) (X (Proc.devRef .tc main_arg7)) :=
  (Glue.s0_main_v54 X).trans (e_v102 _)
theorem s0_main_v55_ref (X : Valuation τ sig (Elt Ideal)) :
    StableHlo.after (hostOps0 (F := Ideal)) X (Proc.devRef .tc main_v55) = Glue.row (Cert.ReferenceIdeal.Read.val_main_v102 (F := Ideal) (X (Proc.devRef .tc main_arg7))) :=
  (Glue.s0_main_v55 X).trans (congrArg Glue.row (e_v102 _))
theorem s0_main_v57_ref (X : Valuation τ sig (Elt Ideal)) :
    StableHlo.after (hostOps0 (F := Ideal)) X (Proc.devRef .tc main_v57) = Cert.ReferenceIdeal.Read.val_main_v104 (F := Ideal) (X (Proc.devRef .tc main_arg8)) :=
  (Glue.s0_main_v57 X).trans (e_v104 _)
theorem s0_main_v58_ref (X : Valuation τ sig (Elt Ideal)) :
    StableHlo.after (hostOps0 (F := Ideal)) X (Proc.devRef .tc main_v58) = Glue.row (Cert.ReferenceIdeal.Read.val_main_v104 (F := Ideal) (X (Proc.devRef .tc main_arg8))) :=
  (Glue.s0_main_v58 X).trans (congrArg Glue.row (e_v104 _))
theorem s0_main_v61_ref (X : Valuation τ sig (Elt Ideal)) :
    StableHlo.after (hostOps0 (F := Ideal)) X (Proc.devRef .tc main_v61) = Cert.ReferenceIdeal.Read.val_main_v60 (F := Ideal) (X (Proc.devRef .tc main_arg4)) :=
  (Glue.s0_main_v61 X).trans (e_v60 _)
theorem s0_main_v64_ref (X : Valuation τ sig (Elt Ideal)) :
    StableHlo.after (hostOps0 (F := Ideal)) X (Proc.devRef .tc main_v64) = Cert.ReferenceIdeal.Read.val_main_v69 (F := Ideal) (X (Proc.devRef .tc main_arg6)) :=
  (Glue.s0_main_v64 X).trans (e_v69 _)
theorem s0_main_v66_ref (X : Valuation τ sig (Elt Ideal)) :
    StableHlo.after (hostOps0 (F := Ideal)) X (Proc.devRef .tc main_v66) = Cert.ReferenceIdeal.Read.val_main_v63 (F := Ideal) (X (Proc.devRef .tc main_arg5)) :=
  (Glue.s0_main_v66 X).trans (e_v63 _)
theorem s0_main_v67_ref (X : Valuation τ sig (Elt Ideal)) :
    StableHlo.after (hostOps0 (F := Ideal)) X (Proc.devRef .tc main_v67) = Glue.row (Cert.ReferenceIdeal.Read.val_main_v63 (F := Ideal) (X (Proc.devRef .tc main_arg5))) :=
  (Glue.s0_main_v67 X).trans (congrArg Glue.row (e_v63 _))
theorem s0_main_v69_ref (X : Valuation τ sig (Elt Ideal)) :
    StableHlo.after (hostOps0 (F := Ideal)) X (Proc.devRef .tc main_v69) = Cert.ReferenceIdeal.Read.val_main_v73 (F := Ideal) (X (Proc.devRef .tc main_arg7)) :=
  (Glue.s0_main_v69 X).trans (e_v73 _)
theorem s0_main_v70_ref (X : Valuation τ sig (Elt Ideal)) :
    StableHlo.after (hostOps0 (F := Ideal)) X (Proc.devRef .tc main_v70) = Glue.row (Cert.ReferenceIdeal.Read.val_main_v73 (F := Ideal) (X (Proc.devRef .tc main_arg7))) :=
  (Glue.s0_main_v70 X).trans (congrArg Glue.row (e_v73 _))
theorem s0_main_v72_ref (X : Valuation τ sig (Elt Ideal)) :
    StableHlo.after (hostOps0 (F := Ideal)) X (Proc.devRef .tc main_v72) = Cert.ReferenceIdeal.Read.val_main_v75 (F := Ideal) (X (Proc.devRef .tc main_arg8)) :=
  (Glue.s0_main_v72 X).trans (e_v75 _)
theorem s0_main_v73_ref (X : Valuation τ sig (Elt Ideal)) :
    StableHlo.after (hostOps0 (F := Ideal)) X (Proc.devRef .tc main_v73) = Glue.row (Cert.ReferenceIdeal.Read.val_main_v75 (F := Ideal) (X (Proc.devRef .tc main_arg8))) :=
  (Glue.s0_main_v73 X).trans (congrArg Glue.row (e_v75 _))

/-! ## Stretch 2 in the reference's terms: the first layer's outputs and the arguments given by hypotheses -/

theorem s2_main_v97_ref (X : Valuation τ sig (Elt Ideal)) (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal))
    (h75 : X (Proc.devRef .tc main_v75) = Cert.ReferenceIdeal.Read.val_main_v100 (F := Ideal) x0 x1 x3 x4 x5 x6 x7 x8)
    (h2 : X (Proc.devRef .tc main_arg2) = x2) :
    StableHlo.after (hostOps2 (F := Ideal)) X (Proc.devRef .tc main_v97) = Cert.ReferenceIdeal.Read.val_main_v151 (F := Ideal) x0 x1 x2 x3 x4 x5 x6 x7 x8 := by
  rw [Glue.s2_main_v97, h75, h2]; exact e_v151 x0 x1 x2 x3 x4 x5 x6 x7 x8
theorem s2_main_v119_ref (X : Valuation τ sig (Elt Ideal)) (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal))
    (h74 : X (Proc.devRef .tc main_v74) = Cert.ReferenceIdeal.Read.val_main_v129 (F := Ideal) x0 x1 x2 x4 x5 x6 x7 x8)
    (h3 : X (Proc.devRef .tc main_arg3) = x3) :
    StableHlo.after (hostOps2 (F := Ideal)) X (Proc.devRef .tc main_v119) = Cert.ReferenceIdeal.Read.val_main_v173 (F := Ideal) x0 x1 x2 x3 x4 x5 x6 x7 x8 := by
  rw [Glue.s2_main_v119, h74, h3]; exact e_v173 x0 x1 x2 x3 x4 x5 x6 x7 x8
theorem s2_main_v122_ref (X : Valuation τ sig (Elt Ideal)) (x4 : (⟨S2x2x128x128, .f32⟩ : BufTy).Contents (Elt Ideal)) (h4 : X (Proc.devRef .tc main_arg4) = x4) :
    StableHlo.after (hostOps2 (F := Ideal)) X (Proc.devRef .tc main_v122) = Cert.ReferenceIdeal.Read.val_main_v176 (F := Ideal) x4 := by
  rw [Glue.s2_main_v122, h4]; exact e_v176 x4
theorem s2_main_v125_ref (X : Valuation τ sig (Elt Ideal)) (x6 : (⟨S2x2x128x128, .f32⟩ : BufTy).Contents (Elt Ideal)) (h6 : X (Proc.devRef .tc main_arg6) = x6) :
    StableHlo.after (hostOps2 (F := Ideal)) X (Proc.devRef .tc main_v125) = Cert.ReferenceIdeal.Read.val_main_v185 (F := Ideal) x6 := by
  rw [Glue.s2_main_v125, h6]; exact e_v185 x6
theorem s2_main_v127_ref (X : Valuation τ sig (Elt Ideal)) (x5 : (⟨S2x2x128, .f32⟩ : BufTy).Contents (Elt Ideal)) (h5 : X (Proc.devRef .tc main_arg5) = x5) :
    StableHlo.after (hostOps2 (F := Ideal)) X (Proc.devRef .tc main_v127) = Cert.ReferenceIdeal.Read.val_main_v179 (F := Ideal) x5 := by
  rw [Glue.s2_main_v127, h5]; exact e_v179 x5
theorem s2_main_v128_ref (X : Valuation τ sig (Elt Ideal)) (x5 : (⟨S2x2x128, .f32⟩ : BufTy).Contents (Elt Ideal)) (h5 : X (Proc.devRef .tc main_arg5) = x5) :
    StableHlo.after (hostOps2 (F := Ideal)) X (Proc.devRef .tc main_v128) = Glue.row (Cert.ReferenceIdeal.Read.val_main_v179 (F := Ideal) x5) := by
  rw [Glue.s2_main_v128, h5, e_v179]
theorem s2_main_v130_ref (X : Valuation τ sig (Elt Ideal)) (x7 : (⟨S2x2x128, .f32⟩ : BufTy).Contents (Elt Ideal)) (h7 : X (Proc.devRef .tc main_arg7) = x7) :
    StableHlo.after (hostOps2 (F := Ideal)) X (Proc.devRef .tc main_v130) = Cert.ReferenceIdeal.Read.val_main_v232 (F := Ideal) x7 := by
  rw [Glue.s2_main_v130, h7]; exact e_v232 x7
theorem s2_main_v131_ref (X : Valuation τ sig (Elt Ideal)) (x7 : (⟨S2x2x128, .f32⟩ : BufTy).Contents (Elt Ideal)) (h7 : X (Proc.devRef .tc main_arg7) = x7) :
    StableHlo.after (hostOps2 (F := Ideal)) X (Proc.devRef .tc main_v131) = Glue.row (Cert.ReferenceIdeal.Read.val_main_v232 (F := Ideal) x7) := by
  rw [Glue.s2_main_v131, h7, e_v232]
theorem s2_main_v133_ref (X : Valuation τ sig (Elt Ideal)) (x8 : (⟨S2x2x128, .f32⟩ : BufTy).Contents (Elt Ideal)) (h8 : X (Proc.devRef .tc main_arg8) = x8) :
    StableHlo.after (hostOps2 (F := Ideal)) X (Proc.devRef .tc main_v133) = Cert.ReferenceIdeal.Read.val_main_v234 (F := Ideal) x8 := by
  rw [Glue.s2_main_v133, h8]; exact e_v234 x8
theorem s2_main_v134_ref (X : Valuation τ sig (Elt Ideal)) (x8 : (⟨S2x2x128, .f32⟩ : BufTy).Contents (Elt Ideal)) (h8 : X (Proc.devRef .tc main_arg8) = x8) :
    StableHlo.after (hostOps2 (F := Ideal)) X (Proc.devRef .tc main_v134) = Glue.row (Cert.ReferenceIdeal.Read.val_main_v234 (F := Ideal) x8) := by
  rw [Glue.s2_main_v134, h8, e_v234]
theorem s2_main_v137_ref (X : Valuation τ sig (Elt Ideal)) (x4 : (⟨S2x2x128x128, .f32⟩ : BufTy).Contents (Elt Ideal)) (h4 : X (Proc.devRef .tc main_arg4) = x4) :
    StableHlo.after (hostOps2 (F := Ideal)) X (Proc.devRef .tc main_v137) = Cert.ReferenceIdeal.Read.val_main_v190 (F := Ideal) x4 := by
  rw [Glue.s2_main_v137, h4]; exact e_v190 x4
theorem s2_main_v140_ref (X : Valuation τ sig (Elt Ideal)) (x6 : (⟨S2x2x128x128, .f32⟩ : BufTy).Contents (Elt Ideal)) (h6 : X (Proc.devRef .tc main_arg6) = x6) :
    StableHlo.after (hostOps2 (F := Ideal)) X (Proc.devRef .tc main_v140) = Cert.ReferenceIdeal.Read.val_main_v199 (F := Ideal) x6 := by
  rw [Glue.s2_main_v140, h6]; exact e_v199 x6
theorem s2_main_v142_ref (X : Valuation τ sig (Elt Ideal)) (x5 : (⟨S2x2x128, .f32⟩ : BufTy).Contents (Elt Ideal)) (h5 : X (Proc.devRef .tc main_arg5) = x5) :
    StableHlo.after (hostOps2 (F := Ideal)) X (Proc.devRef .tc main_v142) = Cert.ReferenceIdeal.Read.val_main_v193 (F := Ideal) x5 := by
  rw [Glue.s2_main_v142, h5]; exact e_v193 x5
theorem s2_main_v143_ref (X : Valuation τ sig (Elt Ideal)) (x5 : (⟨S2x2x128, .f32⟩ : BufTy).Contents (Elt Ideal)) (h5 : X (Proc.devRef .tc main_arg5) = x5) :
    StableHlo.after (hostOps2 (F := Ideal)) X (Proc.devRef .tc main_v143) = Glue.row (Cert.ReferenceIdeal.Read.val_main_v193 (F := Ideal) x5) := by
  rw [Glue.s2_main_v143, h5, e_v193]
theorem s2_main_v145_ref (X : Valuation τ sig (Elt Ideal)) (x7 : (⟨S2x2x128, .f32⟩ : BufTy).Contents (Elt Ideal)) (h7 : X (Proc.devRef .tc main_arg7) = x7) :
    StableHlo.after (hostOps2 (F := Ideal)) X (Proc.devRef .tc main_v145) = Cert.ReferenceIdeal.Read.val_main_v203 (F := Ideal) x7 := by
  rw [Glue.s2_main_v145, h7]; exact e_v203 x7
theorem s2_main_v146_ref (X : Valuation τ sig (Elt Ideal)) (x7 : (⟨S2x2x128, .f32⟩ : BufTy).Contents (Elt Ideal)) (h7 : X (Proc.devRef .tc main_arg7) = x7) :
    StableHlo.after (hostOps2 (F := Ideal)) X (Proc.devRef .tc main_v146) = Glue.row (Cert.ReferenceIdeal.Read.val_main_v203 (F := Ideal) x7) := by
  rw [Glue.s2_main_v146, h7, e_v203]
theorem s2_main_v148_ref (X : Valuation τ sig (Elt Ideal)) (x8 : (⟨S2x2x128, .f32⟩ : BufTy).Contents (Elt Ideal)) (h8 : X (Proc.devRef .tc main_arg8) = x8) :
    StableHlo.after (hostOps2 (F := Ideal)) X (Proc.devRef .tc main_v148) = Cert.ReferenceIdeal.Read.val_main_v205 (F := Ideal) x8 := by
  rw [Glue.s2_main_v148, h8]; exact e_v205 x8
theorem s2_main_v149_ref (X : Valuation τ sig (Elt Ideal)) (x8 : (⟨S2x2x128, .f32⟩ : BufTy).Contents (Elt Ideal)) (h8 : X (Proc.devRef .tc main_arg8) = x8) :
    StableHlo.after (hostOps2 (F := Ideal)) X (Proc.devRef .tc main_v149) = Glue.row (Cert.ReferenceIdeal.Read.val_main_v205 (F := Ideal) x8) := by
  rw [Glue.s2_main_v149, h8, e_v205]

/-! ## Stretch 4 in the reference's terms -/

theorem s4_v152_ref (X : Valuation τ sig (Elt Ideal)) (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal))
    (h151 : X (Proc.devRef .tc main_v151) = Cert.ReferenceIdeal.Read.val_main_v230 (F := Ideal) x0 x1 x2 x3 x4 x5 x6 x7 x8)
    (h150 : X (Proc.devRef .tc main_v150) = Cert.ReferenceIdeal.Read.val_main_v259 (F := Ideal) x0 x1 x2 x3 x4 x5 x6 x7 x8) :
    StableHlo.after (hostOps4 (F := Ideal)) X (Proc.devRef .tc main_v152) = Cert.ReferenceIdeal.Read.val_main_v260 (F := Ideal) x0 x1 x2 x3 x4 x5 x6 x7 x8 := by
  rw [Glue.s4_v152, h151, h150]; exact e_v260 x0 x1 x2 x3 x4 x5 x6 x7 x8

end Cert.KernelIdeal.GlueRef

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«174562_j58179626992425_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefLayer.lean ====
/-
  The reference side of one layer of the network.

  The reference computes every layer by the same chain of whole-array operations: two rows-by-columns products and
  a bias, repeated along the rows, give the affine part; the sum of each row, kept as a column and divided by the
  word for 128, gives the row's mean; the centred array, its square, the mean of the square plus the word for
  epsilon, the reciprocal square root of that, the scale and the shift (each repeated along the rows) and the
  maximum with the zero word give the result. `refLayer` is that chain as one function of the two feature arrays
  and the five parameter arrays, so that each of the four places where the reference runs a layer is an instance of
  it by unfolding. Read at a row and a channel, every whole-array operation is elementary — a product is the sum over
  the shared axis, a row sum is the sum of the row's 128 entries, a repeated column or row reads its one entry — and
  the chain is the layer of the specification on the extended reals (`refLayer_eq`).
-/
import proofs.«174562_j58179626992425_1_alg».proof.Proof.Gen.ReferenceIdeal
import proofs.«174562_j58179626992425_1_alg».proof.Proof.Spec
import proofs.«174562_j58179626992425_1_alg».proof.Proof.LibHostDot
import proofs.«174562_j58179626992425_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Layer

open Cert.ReferenceIdeal Cert.ReferenceIdeal.Gen Idealize.ShloMosaic Idealize.ShloMosaic.ValueIdx
open scoped BigOperators

/-! ## The chain of whole-array operations -/

/-- A vector of 128 channel values repeated along the rows: first laid as one row, then the row repeated. -/
def chanRows (v : FVec Ideal S128 .f32) : FVec Ideal S100000x128 .f32 :=
  broadcastInDim S100000x128 ![0, 1] bcast_S1x128_S100000x128_0_1 (broadcastInDim S1x128 ![1] bcast_S128_S1x128_1 v)

/-- A column of row values repeated along the channels. -/
def colChans (c : FVec Ideal S100000x1 .f32) : FVec Ideal S100000x128 .f32 :=
  broadcastInDim S100000x128 ![0, 1] bcast_S100000x1_S100000x128_0_1 c

/-- The affine part: the aggregated features against `wl`, plus the bias, plus the node's own features against
    `wr`. -/
def refPre (agg root : FVec Ideal S100000x128 .f32) (wl wr : FVec Ideal S128x128 .f32) (bl : FVec Ideal S128 .f32) :
    FVec Ideal S100000x128 .f32 :=
  addf (addf (Host.dotGeneral dot_S100000x128_S128x128_S100000x128_1_0_0_1_n_n none agg wl) (chanRows bl))
    (Host.dotGeneral dot_S100000x128_S128x128_S100000x128_1_0_0_1_n_n none root wr)

/-- The mean of every row, kept as a column: the row sums from the zero word, laid as a column, divided by the
    word for 128. -/
def refMean (z : FVec Ideal S100000x128 .f32) : FVec Ideal S100000x1 .f32 :=
  Host.divf
    (broadcastInDim S100000x1 ![0] bcast_S100000_S100000x1_0
      (Host.reduceAdd z (constant (F := Ideal) S_ .f32 0x00000000#32) reducesTo_S100000x128_S100000_d1 h_S_))
    (broadcastInDim S100000x1 ![] bcast_S_S100000x1 (constant (F := Ideal) S_ .f32 0x43000000#32))

/-- Every row less its mean. -/
def refCentred (z : FVec Ideal S100000x128 .f32) : FVec Ideal S100000x128 .f32 :=
  subf z (colChans (refMean z))

/-- The reciprocal square root of every row's variance plus the word for epsilon, as a column. -/
def refRstd (z : FVec Ideal S100000x128 .f32) : FVec Ideal S100000x1 .f32 :=
  Host.rsqrt (addf (refMean (mulf (refCentred z) (refCentred z)))
    (broadcastInDim S100000x1 ![] bcast_S_S100000x1 (constant (F := Ideal) S_ .f32 0x3727C5AC#32)))

/-- The normalisation of every row, scaled by `g`, shifted by `b`, and cut at the zero word. -/
def refNorm (z : FVec Ideal S100000x128 .f32) (g b : FVec Ideal S128 .f32) : FVec Ideal S100000x128 .f32 :=
  maximumf (addf (mulf (mulf (refCentred z) (colChans (refRstd z))) (chanRows g)) (chanRows b))
    (broadcastInDim S100000x128 ![] bcast_S_S100000x128 (constant (F := Ideal) S_ .f32 0x00000000#32))

/-- One layer as the reference computes it. -/
def refLayer (agg root : FVec Ideal S100000x128 .f32) (wl wr : FVec Ideal S128x128 .f32) (bl g b : FVec Ideal S128 .f32) :
    FVec Ideal S100000x128 .f32 :=
  refNorm (refPre agg root wl wr bl) g b

/-! ## Each operation read at a row and a channel -/

section Layout
variable {α : Type}

/-- A vector of row values laid as a column reads, at row `p`, the vector at `p`. -/
theorem col_apply (v : S100000.Idx → α) (p : Fin 100000) (u : Fin 1) :
    broadcastInDim S100000x1 ![0] bcast_S100000_S100000x1_0 v (ix2 p u) = v (ix1 p) :=
  broadcastInDim_apply _ bcast_S100000_S100000x1_0 v (ix2 p u) (ix1 p) (fun a => match a with
    | ⟨0, _⟩ => by show p.val = if (100000 : Nat) = 1 then 0 else p.val; rw [if_neg (by decide)])

/-- A column repeated along the channels reads, at `(p, q)`, the column's entry `p`. -/
theorem colChans_apply' (c : S100000x1.Idx → α) (p : Fin 100000) (q : Fin 128) :
    broadcastInDim S100000x128 ![0, 1] bcast_S100000x1_S100000x128_0_1 c (ix2 p q) = c (ix2 p (0 : Fin 1)) :=
  broadcastInDim_apply _ bcast_S100000x1_S100000x128_0_1 c (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A vector of channel values laid as a row and repeated along the rows reads, at `(p, q)`, the vector at `q`. -/
theorem chanRows_apply' (v : S128.Idx → α) (p : Fin 100000) (q : Fin 128) :
    broadcastInDim S100000x128 ![0, 1] bcast_S1x128_S100000x128_0_1 (broadcastInDim S1x128 ![1] bcast_S128_S1x128_1 v) (ix2 p q)
      = v (ix1 q) :=
  (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 v (ix2 (0 : Fin 1) q) (ix1 q) (fun a => match a with
    | ⟨0, _⟩ => by show q.val = if (128 : Nat) = 1 then 0 else q.val; rw [if_neg (by decide)]))

/-- A single value repeated over a column reads that value everywhere. -/
theorem scalarCol_apply (c : S_.Idx → α) (i : S100000x1.Idx) :
    broadcastInDim S100000x1 ![] bcast_S_S100000x1 c i = c ix0 :=
  broadcastInDim_apply _ bcast_S_S100000x1 c i ix0 (fun a => a.elim0)

/-- A single value repeated over the whole array reads that value everywhere. -/
theorem scalarAll_apply (c : S_.Idx → α) (i : S100000x128.Idx) :
    broadcastInDim S100000x128 ![] bcast_S_S100000x128 c i = c ix0 :=
  broadcastInDim_apply _ bcast_S_S100000x128 c i ix0 (fun a => a.elim0)

end Layout

/-- The sum of every row from the zero word reads, at row `p`, the sum of the row's 128 entries. -/
theorem rowSum_apply (z : FVec Ideal S100000x128 .f32) (p : Fin 100000) :
    Host.reduceAdd z (constant (F := Ideal) S_ .f32 0x00000000#32) reducesTo_S100000x128_S100000_d1 h_S_ (ix1 p)
      = ∑ k : Fin 128, z (ix2 p k) := by
  simp only [Host.reduceAdd, Ideal.hostReduceAdd_def]
  rw [Ideal.hostReduceAdd_single reducesTo_S100000x128_S100000_d1 (by decide), constant_apply, Ideal.ofBits_zero_f32, zero_add]
  refine Finset.sum_congr rfl fun k _ => ?_
  exact congrArg z (funext fun a => Fin.ext (by match a with | ⟨0, _⟩ => rfl | ⟨1, _⟩ => rfl))

/-- A rows-by-columns product against a 128 × 128 matrix reads, at `(p, q)`, the sum over the shared axis. -/
theorem dot_apply (l : FVec Ideal S100000x128 .f32) (r : FVec Ideal S128x128 .f32) (p : Fin 100000) (q : Fin 128) :
    Host.dotGeneral dot_S100000x128_S128x128_S100000x128_1_0_0_1_n_n none l r (ix2 p q)
      = ∑ k : Fin 128, l (ix2 p k) * r (ix2 k q) :=
  Cert.LibHostDot.dotGeneral_plain dot_S100000x128_S128x128_S100000x128_1_0_0_1_n_n_wf .single l r p q

theorem chanRows_apply (v : FVec Ideal S128 .f32) (p : Fin 100000) (q : Fin 128) : chanRows v (ix2 p q) = v (ix1 q) :=
  chanRows_apply' v p q

theorem colChans_apply (c : FVec Ideal S100000x1 .f32) (p : Fin 100000) (q : Fin 128) :
    colChans c (ix2 p q) = c (ix2 p (0 : Fin 1)) :=
  colChans_apply' c p q

/-- The affine part at `(p, q)` is the specification's. -/
theorem refPre_apply (agg root : FVec Ideal S100000x128 .f32) (wl wr : FVec Ideal S128x128 .f32) (bl : FVec Ideal S128 .f32)
    (p : Fin 100000) (q : Fin 128) :
    refPre agg root wl wr bl (ix2 p q) = Cert.Spec.pre agg root wl wr (fun c => bl (ix1 c)) p q := by
  unfold refPre Cert.Spec.pre
  rw [addf_apply, addf_apply, dot_apply, dot_apply, chanRows_apply]

/-- The mean column at row `p` is the mean of the row. -/
theorem refMean_apply (z : FVec Ideal S100000x128 .f32) (p : Fin 100000) (u : Fin 1) :
    refMean z (ix2 p u) = Cert.Spec.mean (fun k => z (ix2 p k)) := by
  unfold refMean Cert.Spec.mean
  show Ideal.div _ _ = _
  rw [col_apply, rowSum_apply, scalarCol_apply, constant_apply]

/-- The centred array at `(p, q)`. -/
theorem refCentred_apply (z : FVec Ideal S100000x128 .f32) (p : Fin 100000) (q : Fin 128) :
    refCentred z (ix2 p q) = z (ix2 p q) - Cert.Spec.mean (fun k => z (ix2 p k)) := by
  unfold refCentred
  rw [subf_apply, colChans_apply, refMean_apply]

/-- The reciprocal-square-root column at row `p`. -/
theorem refRstd_apply (z : FVec Ideal S100000x128 .f32) (p : Fin 100000) (u : Fin 1) :
    refRstd z (ix2 p u) = Ideal.rsqrt (Cert.Spec.mean (fun k => (z (ix2 p k) - Cert.Spec.mean (fun k => z (ix2 p k)))
        * (z (ix2 p k) - Cert.Spec.mean (fun k => z (ix2 p k)))) + Ideal.ofBits .f32 0x3727C5AC#32) := by
  unfold refRstd
  show Ideal.rsqrt _ = _
  rw [addf_apply, refMean_apply, scalarCol_apply, constant_apply]
  simp only [mulf_apply, refCentred_apply]

/-- The normalised, scaled, shifted and cut array at `(p, q)` is the specification's row operation. -/
theorem refNorm_apply (z : FVec Ideal S100000x128 .f32) (g b : FVec Ideal S128 .f32) (p : Fin 100000) (q : Fin 128) :
    refNorm z g b (ix2 p q) = Cert.Spec.layerRow (fun k => z (ix2 p k)) (fun c => g (ix1 c)) (fun c => b (ix1 c)) q := by
  unfold refNorm Cert.Spec.layerRow
  rw [maximumf_apply, addf_apply, mulf_apply, mulf_apply, refCentred_apply, colChans_apply, refRstd_apply, chanRows_apply,
    chanRows_apply, scalarAll_apply, constant_apply]

/-- The reference's layer is the specification's layer on the extended reals. -/
theorem refLayer_eq (agg root : FVec Ideal S100000x128 .f32) (wl wr : FVec Ideal S128x128 .f32) (bl g b : FVec Ideal S128 .f32) :
    refLayer agg root wl wr bl g b
      = Cert.Spec.layerG agg root wl wr (fun c => bl (ix1 c)) (fun c => g (ix1 c)) (fun c => b (ix1 c)) := by
  funext i
  obtain ⟨p, q, rfl⟩ : ∃ p q, i = ix2 p q := ⟨i 0, i 1, eq_ix2 i⟩
  rw [Cert.Spec.layerG_ix2]
  unfold refLayer
  rw [refNorm_apply]
  congr 1
  funext k
  exact refPre_apply agg root wl wr bl p k

end Cert.ReferenceIdeal.Layer

end
-- ==== Proof.RefLayerInst.lean ====
/-
  The four places where the reference runs a layer, each as an instance of the one layer function.

  The reference applies the same chain of operations four times: to update the second and the first node set in the
  first layer, and again in the second layer, each time on its own aggregated features, own features and its own
  slices of the parameter arrays. Each of the four results is the layer function `refLayer` of those seven arrays,
  by unfolding the stages; composed with `refLayer_eq`, each is the layer of the specification on the extended
  reals.
-/
import proofs.«174562_j58179626992425_1_alg».proof.Proof.RefReadP
import proofs.«174562_j58179626992425_1_alg».proof.Proof.RefLayer

noncomputable section

namespace Cert.ReferenceIdeal.Layer

open Cert.ReferenceIdeal Idealize.ShloMosaic Idealize.ShloMosaic.ValueIdx

/-! ## The four instances -/

/-- The stage that ends the first layer's user update is the layer function of its seven arrays. -/
theorem inst_xu1 (x0 : (⟨S100000x128, .f32⟩ : BufTy).Contents (Elt Ideal)) (x1 : (⟨S100000x128, .f32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v100 (F := Ideal) x0 x1 x3 x4 x5 x6 x7 x8
      = refLayer (Read.val_main_v43 x1 x3) x0 (Read.val_main_v60 x4) (Read.val_main_v69 x6)
          (Read.val_main_v63 x5) (Read.val_main_v73 x7) (Read.val_main_v75 x8) := rfl

/-- The stage that ends the first layer's item update is the layer function of its seven arrays. -/
theorem inst_xi1 (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v129 (F := Ideal) x0 x1 x2 x4 x5 x6 x7 x8
      = refLayer (Read.val_main_v21 x0 x2) x1 (Read.val_main_v46 x4) (Read.val_main_v55 x6)
          (Read.val_main_v49 x5) (Read.val_main_v102 x7) (Read.val_main_v104 x8) := rfl

/-- The stage that ends the second layer's item update is the layer function of its seven arrays. -/
theorem inst_xi2 (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v259 (F := Ideal) x0 x1 x2 x3 x4 x5 x6 x7 x8
      = refLayer (Read.val_main_v151 x0 x1 x2 x3 x4 x5 x6 x7 x8) (Read.val_main_v129 x0 x1 x2 x4 x5 x6 x7 x8) (Read.val_main_v176 x4) (Read.val_main_v185 x6)
          (Read.val_main_v179 x5) (Read.val_main_v232 x7) (Read.val_main_v234 x8) := rfl

/-- The stage that ends the second layer's user update is the layer function of its seven arrays. -/
theorem inst_xu2 (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v230 (F := Ideal) x0 x1 x2 x3 x4 x5 x6 x7 x8
      = refLayer (Read.val_main_v173 x0 x1 x2 x3 x4 x5 x6 x7 x8) (Read.val_main_v100 x0 x1 x3 x4 x5 x6 x7 x8) (Read.val_main_v190 x4) (Read.val_main_v199 x6)
          (Read.val_main_v193 x5) (Read.val_main_v203 x7) (Read.val_main_v205 x8) := rfl

/-! ## Each as the specification's layer -/

/-- The stage that ends the first layer's user update is the specification's layer of its seven arrays. -/
theorem val_main_v100_eq_layerG (x0 : (⟨S100000x128, .f32⟩ : BufTy).Contents (Elt Ideal)) (x1 : (⟨S100000x128, .f32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v100 (F := Ideal) x0 x1 x3 x4 x5 x6 x7 x8
      = Cert.Spec.layerG (Read.val_main_v43 x1 x3) x0 (Read.val_main_v60 x4) (Read.val_main_v69 x6)
          (fun c => Read.val_main_v63 x5 (ix1 c)) (fun c => Read.val_main_v73 x7 (ix1 c)) (fun c => Read.val_main_v75 x8 (ix1 c)) :=
  (inst_xu1 x0 x1 x3 x4 x5 x6 x7 x8).trans (refLayer_eq _ _ _ _ _ _ _)

/-- The stage that ends the first layer's item update is the specification's layer of its seven arrays. -/
theorem val_main_v129_eq_layerG (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v129 (F := Ideal) x0 x1 x2 x4 x5 x6 x7 x8
      = Cert.Spec.layerG (Read.val_main_v21 x0 x2) x1 (Read.val_main_v46 x4) (Read.val_main_v55 x6)
          (fun c => Read.val_main_v49 x5 (ix1 c)) (fun c => Read.val_main_v102 x7 (ix1 c)) (fun c => Read.val_main_v104 x8 (ix1 c)) :=
  (inst_xi1 x0 x1 x2 x4 x5 x6 x7 x8).trans (refLayer_eq _ _ _ _ _ _ _)

/-- The stage that ends the second layer's item update is the specification's layer of its seven arrays. -/
theorem val_main_v259_eq_layerG (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v259 (F := Ideal) x0 x1 x2 x3 x4 x5 x6 x7 x8
      = Cert.Spec.layerG (Read.val_main_v151 x0 x1 x2 x3 x4 x5 x6 x7 x8) (Read.val_main_v129 x0 x1 x2 x4 x5 x6 x7 x8) (Read.val_main_v176 x4) (Read.val_main_v185 x6)
          (fun c => Read.val_main_v179 x5 (ix1 c)) (fun c => Read.val_main_v232 x7 (ix1 c)) (fun c => Read.val_main_v234 x8 (ix1 c)) :=
  (inst_xi2 x0 x1 x2 x3 x4 x5 x6 x7 x8).trans (refLayer_eq _ _ _ _ _ _ _)

/-- The stage that ends the second layer's user update is the specification's layer of its seven arrays. -/
theorem val_main_v230_eq_layerG (x0 : (⟨S100000x128, .f32⟩ : BufTy).Contents (Elt Ideal)) (x1 : (⟨S100000x128, .f32⟩ : BufTy).Contents (Elt Ideal)) (x2 : (⟨S2x1600000, .i32⟩ : BufTy).Contents (Elt Ideal)) (x3 : (⟨S2x1600000, .i32⟩ : BufTy).Contents (Elt Ideal)) (x4 : (⟨S2x2x128x128, .f32⟩ : BufTy).Contents (Elt Ideal)) (x5 : (⟨S2x2x128, .f32⟩ : BufTy).Contents (Elt Ideal)) (x6 : (⟨S2x2x128x128, .f32⟩ : BufTy).Contents (Elt Ideal)) (x7 : (⟨S2x2x128, .f32⟩ : BufTy).Contents (Elt Ideal)) (x8 : (⟨S2x2x128, .f32⟩ : BufTy).Contents (Elt Ideal)) :
    Read.val_main_v230 (F := Ideal) x0 x1 x2 x3 x4 x5 x6 x7 x8
      = Cert.Spec.layerG (Read.val_main_v173 x0 x1 x2 x3 x4 x5 x6 x7 x8) (Read.val_main_v100 x0 x1 x3 x4 x5 x6 x7 x8) (Read.val_main_v190 x4) (Read.val_main_v199 x6)
          (fun c => Read.val_main_v193 x5 (ix1 c)) (fun c => Read.val_main_v203 x7 (ix1 c)) (fun c => Read.val_main_v205 x8 (ix1 c)) :=
  (inst_xu2 x0 x1 x2 x3 x4 x5 x6 x7 x8).trans (refLayer_eq _ _ _ _ _ _ _)

end Cert.ReferenceIdeal.Layer

end
-- ==== Proof.Chain.lean ====
/-
  The kernel program's result, boundary by boundary.

  @main of the kernel program alternates host stretches and pallas regions. Its buffers at the seven segment boundaries
  are a fold from the launch memory. Walking that fold: the first stretch leaves the two segment means and the first
  layer's weight slices; the first two regions leave the first layer's item and user features, each the layer function
  of what the stretch left; the second stretch leaves the segment means of those features and the second layer's
  weight slices; the next two regions leave the second layer's features; the last stretch joins them. At every step
  the value is one the reference program also computes — the same host operations on the same values, and the same
  layer function — so every boundary value is named by the reference's own stage, and the result buffer ends holding
  the reference's result stage of the launch arguments.
-/
import proofs.«174562_j58179626992425_1_alg».proof.Proof.Gen.KernelIdeal.Frame
import proofs.«174562_j58179626992425_1_alg».proof.Proof.KernelRun
import proofs.«174562_j58179626992425_1_alg».proof.Proof.Blocks0
import proofs.«174562_j58179626992425_1_alg».proof.Proof.Blocks1
import proofs.«174562_j58179626992425_1_alg».proof.Proof.Blocks2
import proofs.«174562_j58179626992425_1_alg».proof.Proof.Blocks3
import proofs.«174562_j58179626992425_1_alg».proof.Proof.HostGlue
import proofs.«174562_j58179626992425_1_alg».proof.Proof.HostGlueRef
import proofs.«174562_j58179626992425_1_alg».proof.Proof.RefLayerInst
import proofs.«174562_j58179626992425_1_alg».proof.Proof.RefReadP

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL Idealize.SL.Sem
open Cert.ReferenceIdeal.Read Cert.ReferenceIdeal.Layer Cert.KernelIdeal.Glue Cert.KernelIdeal.GlueRef

variable (m : (ℓ : Loc nD τ sig) → Buf (Elt Ideal) ℓ) (ρ : Dev nD → PrngReg) (c : Dev nD)

/-! ## The launch arguments -/

abbrev a0 : (⟨S100000x128, .f32⟩ : BufTy).Contents (Elt Ideal) := m ((c : Thread nD τ).loc main_arg0)
abbrev a1 : (⟨S100000x128, .f32⟩ : BufTy).Contents (Elt Ideal) := m ((c : Thread nD τ).loc main_arg1)
abbrev a2 : (⟨S2x1600000, .i32⟩ : BufTy).Contents (Elt Ideal) := m ((c : Thread nD τ).loc main_arg2)
abbrev a3 : (⟨S2x1600000, .i32⟩ : BufTy).Contents (Elt Ideal) := m ((c : Thread nD τ).loc main_arg3)
abbrev a4 : (⟨S2x2x128x128, .f32⟩ : BufTy).Contents (Elt Ideal) := m ((c : Thread nD τ).loc main_arg4)
abbrev a5 : (⟨S2x2x128, .f32⟩ : BufTy).Contents (Elt Ideal) := m ((c : Thread nD τ).loc main_arg5)
abbrev a6 : (⟨S2x2x128x128, .f32⟩ : BufTy).Contents (Elt Ideal) := m ((c : Thread nD τ).loc main_arg6)
abbrev a7 : (⟨S2x2x128, .f32⟩ : BufTy).Contents (Elt Ideal) := m ((c : Thread nD τ).loc main_arg7)
abbrev a8 : (⟨S2x2x128, .f32⟩ : BufTy).Contents (Elt Ideal) := m ((c : Thread nD τ).loc main_arg8)

/-! ## The first layer -/

/-- After the first region the item features are the reference's first-layer item stage. -/
theorem item1 : W2 m ρ c (Proc.devRef .tc main_v74)
    = val_main_v129 (F := Ideal) (a0 m c) (a1 m c) (a2 m c) (a4 m c) (a5 m c) (a6 m c) (a7 m c) (a8 m c) :=
  (W2_arr m ρ c 7).trans ((Blocks0.final_vec (V1 m ρ) c
      (val_main_v21 (F := Ideal) (a0 m c) (a2 m c)) (a1 m c) (val_main_v46 (F := Ideal) (a4 m c)) (val_main_v55 (F := Ideal) (a6 m c))
      (val_main_v49 (F := Ideal) (a5 m c)) (val_main_v102 (F := Ideal) (a7 m c)) (val_main_v104 (F := Ideal) (a8 m c))
      ((s0_main_v21 (W0 m ρ c)).trans (e_v21 _ _))
      (s0_main_arg1 (W0 m ρ c))
      ((s0_main_v46 (W0 m ρ c)).trans (e_v46 _))
      ((s0_main_v49 (W0 m ρ c)).trans (e_v55 _))
      ((s0_main_v52 (W0 m ρ c)).trans (congrArg Glue.row (e_v49 _)))
      ((s0_main_v55 (W0 m ρ c)).trans (congrArg Glue.row (e_v102 _)))
      ((s0_main_v58 (W0 m ρ c)).trans (congrArg Glue.row (e_v104 _)))).trans
    (val_main_v129_eq_layerG _ _ _ _ _ _ _ _).symm)

/-- After the second region the user features are the reference's first-layer user stage. -/
theorem user1 : W3 m ρ c (Proc.devRef .tc main_v75)
    = val_main_v100 (F := Ideal) (a0 m c) (a1 m c) (a3 m c) (a4 m c) (a5 m c) (a6 m c) (a7 m c) (a8 m c) :=
  (W3_arr m ρ c 7).trans ((Blocks1.final_vec (V2 m ρ) c
      (val_main_v43 (F := Ideal) (a1 m c) (a3 m c)) (a0 m c) (val_main_v60 (F := Ideal) (a4 m c)) (val_main_v69 (F := Ideal) (a6 m c))
      (val_main_v63 (F := Ideal) (a5 m c)) (val_main_v73 (F := Ideal) (a7 m c)) (val_main_v75 (F := Ideal) (a8 m c))
      ((W2_of_ne m ρ c main_v43 (by decide)).trans ((s0_main_v43 (W0 m ρ c)).trans (e_v43 _ _)))
      ((W2_of_ne m ρ c main_arg0 (by decide)).trans (s0_main_arg0 (W0 m ρ c)))
      ((W2_of_ne m ρ c main_v61 (by decide)).trans ((s0_main_v61 (W0 m ρ c)).trans (e_v60 _)))
      ((W2_of_ne m ρ c main_v64 (by decide)).trans ((s0_main_v64 (W0 m ρ c)).trans (e_v69 _)))
      ((W2_of_ne m ρ c main_v67 (by decide)).trans ((s0_main_v67 (W0 m ρ c)).trans (congrArg Glue.row (e_v63 _))))
      ((W2_of_ne m ρ c main_v70 (by decide)).trans ((s0_main_v70 (W0 m ρ c)).trans (congrArg Glue.row (e_v73 _))))
      ((W2_of_ne m ρ c main_v73 (by decide)).trans ((s0_main_v73 (W0 m ρ c)).trans (congrArg Glue.row (e_v75 _))))).trans
    (val_main_v100_eq_layerG _ _ _ _ _ _ _ _).symm)

/-- The second region leaves the first region's output in place. -/
theorem item1_kept : W3 m ρ c (Proc.devRef .tc main_v74)
    = val_main_v129 (F := Ideal) (a0 m c) (a1 m c) (a2 m c) (a4 m c) (a5 m c) (a6 m c) (a7 m c) (a8 m c) :=
  (W3_of_ne m ρ c main_v74 (by decide)).trans (item1 m ρ c)

/-! ## The arguments the second stretch reads are still the launch arguments -/

theorem arg2_at3 : W3 m ρ c (Proc.devRef .tc main_arg2) = a2 m c :=
  (W3_of_ne m ρ c main_arg2 (by decide)).trans ((W2_of_ne m ρ c main_arg2 (by decide)).trans (s0_main_arg2 (W0 m ρ c)))
theorem arg3_at3 : W3 m ρ c (Proc.devRef .tc main_arg3) = a3 m c :=
  (W3_of_ne m ρ c main_arg3 (by decide)).trans ((W2_of_ne m ρ c main_arg3 (by decide)).trans (s0_main_arg3 (W0 m ρ c)))
theorem arg4_at3 : W3 m ρ c (Proc.devRef .tc main_arg4) = a4 m c :=
  (W3_of_ne m ρ c main_arg4 (by decide)).trans ((W2_of_ne m ρ c main_arg4 (by decide)).trans (s0_main_arg4 (W0 m ρ c)))
theorem arg5_at3 : W3 m ρ c (Proc.devRef .tc main_arg5) = a5 m c :=
  (W3_of_ne m ρ c main_arg5 (by decide)).trans ((W2_of_ne m ρ c main_arg5 (by decide)).trans (s0_main_arg5 (W0 m ρ c)))
theorem arg6_at3 : W3 m ρ c (Proc.devRef .tc main_arg6) = a6 m c :=
  (W3_of_ne m ρ c main_arg6 (by decide)).trans ((W2_of_ne m ρ c main_arg6 (by decide)).trans (s0_main_arg6 (W0 m ρ c)))
theorem arg7_at3 : W3 m ρ c (Proc.devRef .tc main_arg7) = a7 m c :=
  (W3_of_ne m ρ c main_arg7 (by decide)).trans ((W2_of_ne m ρ c main_arg7 (by decide)).trans (s0_main_arg7 (W0 m ρ c)))
theorem arg8_at3 : W3 m ρ c (Proc.devRef .tc main_arg8) = a8 m c :=
  (W3_of_ne m ρ c main_arg8 (by decide)).trans ((W2_of_ne m ρ c main_arg8 (by decide)).trans (s0_main_arg8 (W0 m ρ c)))

/-! ## The second layer -/

/-- The second stretch's segment mean of the user features over the first edge list is the reference's. -/
theorem agg_item2 : W4 m ρ c (Proc.devRef .tc main_v97)
    = val_main_v151 (F := Ideal) (a0 m c) (a1 m c) (a2 m c) (a3 m c) (a4 m c) (a5 m c) (a6 m c) (a7 m c) (a8 m c) :=
  (s2_main_v97 (W3 m ρ c)).trans ((congrArg₂ Glue.segMean (user1 m ρ c) (arg2_at3 m ρ c)).trans (e_v151 _ _ _ _ _ _ _ _ _))

/-- The second stretch's segment mean of the item features over the second edge list is the reference's. -/
theorem agg_user2 : W4 m ρ c (Proc.devRef .tc main_v119)
    = val_main_v173 (F := Ideal) (a0 m c) (a1 m c) (a2 m c) (a3 m c) (a4 m c) (a5 m c) (a6 m c) (a7 m c) (a8 m c) :=
  (s2_main_v119 (W3 m ρ c)).trans ((congrArg₂ Glue.segMean (item1_kept m ρ c) (arg3_at3 m ρ c)).trans (e_v173 _ _ _ _ _ _ _ _ _))

/-- After the third region the item features are the reference's second-layer item stage. -/
theorem item2 : W5 m ρ c (Proc.devRef .tc main_v150)
    = val_main_v259 (F := Ideal) (a0 m c) (a1 m c) (a2 m c) (a3 m c) (a4 m c) (a5 m c) (a6 m c) (a7 m c) (a8 m c) :=
  (W5_arr m ρ c 7).trans ((Blocks2.final_vec (V4 m ρ) c
      (val_main_v151 (F := Ideal) (a0 m c) (a1 m c) (a2 m c) (a3 m c) (a4 m c) (a5 m c) (a6 m c) (a7 m c) (a8 m c))
      (val_main_v129 (F := Ideal) (a0 m c) (a1 m c) (a2 m c) (a4 m c) (a5 m c) (a6 m c) (a7 m c) (a8 m c))
      (val_main_v176 (F := Ideal) (a4 m c)) (val_main_v185 (F := Ideal) (a6 m c))
      (val_main_v179 (F := Ideal) (a5 m c)) (val_main_v232 (F := Ideal) (a7 m c)) (val_main_v234 (F := Ideal) (a8 m c))
      (agg_item2 m ρ c)
      ((s2_main_v74 (W3 m ρ c)).trans (item1_kept m ρ c))
      ((s2_main_v122 (W3 m ρ c)).trans ((congrArg Glue.wT10 (arg4_at3 m ρ c)).trans (e_v176 _)))
      ((s2_main_v125 (W3 m ρ c)).trans ((congrArg Glue.wT10 (arg6_at3 m ρ c)).trans (e_v185 _)))
      ((s2_main_v128 (W3 m ρ c)).trans (congrArg Glue.row ((congrArg Glue.vec10 (arg5_at3 m ρ c)).trans (e_v179 _))))
      ((s2_main_v131 (W3 m ρ c)).trans (congrArg Glue.row ((congrArg Glue.vec11 (arg7_at3 m ρ c)).trans (e_v232 _))))
      ((s2_main_v134 (W3 m ρ c)).trans (congrArg Glue.row ((congrArg Glue.vec11 (arg8_at3 m ρ c)).trans (e_v234 _))))).trans
    (val_main_v259_eq_layerG _ _ _ _ _ _ _ _ _).symm)

/-- After the fourth region the user features are the reference's second-layer user stage. -/
theorem user2 : W6 m ρ c (Proc.devRef .tc main_v151)
    = val_main_v230 (F := Ideal) (a0 m c) (a1 m c) (a2 m c) (a3 m c) (a4 m c) (a5 m c) (a6 m c) (a7 m c) (a8 m c) :=
  (W6_arr m ρ c 7).trans ((Blocks3.final_vec (V5 m ρ) c
      (val_main_v173 (F := Ideal) (a0 m c) (a1 m c) (a2 m c) (a3 m c) (a4 m c) (a5 m c) (a6 m c) (a7 m c) (a8 m c))
      (val_main_v100 (F := Ideal) (a0 m c) (a1 m c) (a3 m c) (a4 m c) (a5 m c) (a6 m c) (a7 m c) (a8 m c))
      (val_main_v190 (F := Ideal) (a4 m c)) (val_main_v199 (F := Ideal) (a6 m c))
      (val_main_v193 (F := Ideal) (a5 m c)) (val_main_v203 (F := Ideal) (a7 m c)) (val_main_v205 (F := Ideal) (a8 m c))
      ((W5_of_ne m ρ c main_v119 (by decide)).trans (agg_user2 m ρ c))
      ((W5_of_ne m ρ c main_v75 (by decide)).trans ((s2_main_v75 (W3 m ρ c)).trans (user1 m ρ c)))
      ((W5_of_ne m ρ c main_v137 (by decide)).trans ((s2_main_v137 (W3 m ρ c)).trans ((congrArg Glue.wT11 (arg4_at3 m ρ c)).trans (e_v190 _))))
      ((W5_of_ne m ρ c main_v140 (by decide)).trans ((s2_main_v140 (W3 m ρ c)).trans ((congrArg Glue.wT11 (arg6_at3 m ρ c)).trans (e_v199 _))))
      ((W5_of_ne m ρ c main_v143 (by decide)).trans ((s2_main_v143 (W3 m ρ c)).trans (congrArg Glue.row ((congrArg Glue.vec11 (arg5_at3 m ρ c)).trans (e_v193 _)))))
      ((W5_of_ne m ρ c main_v146 (by decide)).trans ((s2_main_v146 (W3 m ρ c)).trans (congrArg Glue.row ((congrArg Glue.vec10 (arg7_at3 m ρ c)).trans (e_v203 _)))))
      ((W5_of_ne m ρ c main_v149 (by decide)).trans ((s2_main_v149 (W3 m ρ c)).trans (congrArg Glue.row ((congrArg Glue.vec10 (arg8_at3 m ρ c)).trans (e_v205 _)))))).trans
    (val_main_v230_eq_layerG _ _ _ _ _ _ _ _ _).symm)

/-- The fourth region leaves the third region's output in place. -/
theorem item2_kept : W6 m ρ c (Proc.devRef .tc main_v150)
    = val_main_v259 (F := Ideal) (a0 m c) (a1 m c) (a2 m c) (a3 m c) (a4 m c) (a5 m c) (a6 m c) (a7 m c) (a8 m c) :=
  (W6_of_ne m ρ c main_v150 (by decide)).trans (item2 m ρ c)

/-! ## The result -/

/-- The result buffer at the last boundary is the reference's result stage of the launch arguments: the second
    layer's user features above its item features. -/
theorem result : W7 m ρ c (Proc.devRef .tc main_v152)
    = val_main_v260 (F := Ideal) (a0 m c) (a1 m c) (a2 m c) (a3 m c) (a4 m c) (a5 m c) (a6 m c) (a7 m c) (a8 m c) :=
  (s4_v152 (W6 m ρ c)).trans
    ((congrArg₂ (fun x y => concatenate S200000x128 0 [⟨S100000x128, x⟩, ⟨S100000x128, y⟩]
        concatenates_S100000x128_S100000x128_S200000x128_d0) (user2 m ρ c) (item2_kept m ρ c)).trans
      (e_v260 _ _ _ _ _ _ _ _ _))

end Cert.KernelIdeal.Chain

end
-- ==== Proof.lean ====
/-
  A two-layer mean-aggregation network on a graph with two kinds of nodes, computed two ways, gives the same array
  over the extended reals.

  Both programs compute, per layer and per node kind, the mean of the neighbours' feature rows over an edge list (a row
  gather, a row scatter-add and a division by the clamped neighbour count), then for every node the row
    max (normalise ((mean · Wl + bias) + own · Wr) · scale + shift) 0,
  the normalisation being over the row's 128 channels; the second layer reads the first layer's outputs, and the result
  stacks the second layer's user rows above its item rows. The reference does all of it with whole-array host
  operations. The kernel program does the neighbour means with the same host operations and the per-node update in a
  pallas region that walks the 100000 rows in 50 blocks of 2000 — four regions, two per layer.
  Over the extended reals the two agree because (i) the per-node update of row n reads nothing but row n of its two
  feature arrays, so the 50 blocks are restrictions of one whole-array function (Blocks0 … Blocks3 over Payload and
  Spec); (ii) that function is the reference's layer (RefLayer: a matrix product is a sum over the shared axis on both
  sides, a narrowing of a product's operands is the identity, a lane sum and a host sum are the same sum); (iii) every
  host operation outside the regions is literally the reference's (HostGlue, HostGlueRef). Chain walks the kernel
  program's segment boundaries and finds the reference's own stage at each; no law of arithmetic beyond reading sums
  index by index is used, and the inputs' finiteness is never opened.
  The three frames are the generated runs; the kernel program was idealized with no rewrite, so `preserves` is trivial.
-/
import proofs.«174562_j58179626992425_1_alg».proof.Defs
import proofs.«174562_j58179626992425_1_alg».proof.Proof.Gen.Kernel
import proofs.«174562_j58179626992425_1_alg».proof.Proof.Gen.Kernel.Skeleton
import proofs.«174562_j58179626992425_1_alg».proof.Proof.Gen.Kernel.Launch
import proofs.«174562_j58179626992425_1_alg».proof.Proof.Gen.Kernel.Points
import proofs.«174562_j58179626992425_1_alg».proof.Proof.Gen.Kernel.Frame
import proofs.«174562_j58179626992425_1_alg».proof.Proof.Gen.KernelIdeal
import proofs.«174562_j58179626992425_1_alg».proof.Proof.Gen.KernelIdeal.Skeleton
import proofs.«174562_j58179626992425_1_alg».proof.Proof.Gen.KernelIdeal.Launch
import proofs.«174562_j58179626992425_1_alg».proof.Proof.Gen.KernelIdeal.Points
import proofs.«174562_j58179626992425_1_alg».proof.Proof.Gen.KernelIdeal.Frame
import proofs.«174562_j58179626992425_1_alg».proof.Proof.Gen.ReferenceIdeal
import proofs.«174562_j58179626992425_1_alg».proof.Proof.Gen.Pre_finite_inputs
import proofs.«174562_j58179626992425_1_alg».proof.Proof.RefSteps
import proofs.«174562_j58179626992425_1_alg».proof.Proof.RefReadP
import proofs.«174562_j58179626992425_1_alg».proof.Proof.KernelRun
import proofs.«174562_j58179626992425_1_alg».proof.Proof.Chain
import Idealize.ShloMosaic.Adequacy
import Idealize.ShloMosaic.Init

noncomputable section

namespace Cert.Proof

open Idealize.ShloMosaic Idealize.SL.Sem

/-- The printed kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.RunB.run m ρ)

/-- The idealization rewrote nothing. -/
theorem preserves : Cert.preserves_Kernel_KernelIdeal := trivial

/-- From memories that agree on the arguments both programs end with the reference's result stage of those
    arguments: the kernel program by the walk through its segment boundaries, the reference by its run. -/
theorem algebraic : Cert.algebraic_KernelIdeal_ReferenceIdeal := by
  intro m ρ m' ρ' _ hagree
  refine ⟨fun c => Cert.ReferenceIdeal.Read.val_main_v260 (F := Ideal)
      (Cert.KernelIdeal.Chain.a0 m c) (Cert.KernelIdeal.Chain.a1 m c) (Cert.KernelIdeal.Chain.a2 m c)
      (Cert.KernelIdeal.Chain.a3 m c) (Cert.KernelIdeal.Chain.a4 m c) (Cert.KernelIdeal.Chain.a5 m c)
      (Cert.KernelIdeal.Chain.a6 m c) (Cert.KernelIdeal.Chain.a7 m c) (Cert.KernelIdeal.Chain.a8 m c), ?_, ?_⟩
  · exact (θ_run (Cert.KernelIdeal.defs (F := Ideal)) _ _).mono
      (fun r h c => ⟨(h c).1.trans (Cert.KernelIdeal.Chain.result m ρ c), (h c).2⟩)
      (Cert.KernelIdeal.RunV.run_named m ρ)
  · refine (θ_run (Cert.ReferenceIdeal.defs (F := Ideal)) _ _).mono (fun r h c => ⟨(h c).1.trans ?_, (h c).2⟩)
      (Cert.ReferenceIdeal.RunB.run m' ρ')
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
